-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S4096 : Shape := ⟨1, ![4096]⟩
abbrev S2x4096 : Shape := ⟨2, ![2, 4096]⟩
abbrev S2 : Shape := ⟨1, ![2]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2x4096 : S_.BroadcastsInDim S2x4096 (![] : Fin 0 → Fin S2x4096.rank)
  reducesTo_S2x4096_S_d0_1 : S2x4096.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S4096 .f32) (main_arg5 : FVec F S2x4096 .f32) (main_arg6 : FVec F S2 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S2x4096 .f32 := Host.absf main_arg5
  let main_cst_8 : FVec F S_ .f32 := constant S_ .f32 0x7F800000#32
  let main_v25 : FVec F S2x4096 .f32 := broadcastInDim S2x4096 ![] bcast_S_S2x4096 main_cst_8
  let main_v26 : IVec S2x4096 1 := cmpf .olt main_v24 main_v25
  let main_c_9 : IVec S_ 1 := constantI S_ 1 1#1
  let main_v27 : IVec S_ 1 := (fun x v => Host.reduce IntOp.andi x v reducesTo_S2x4096_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S4096x64 .f32) (main_arg1 : FVec F S4096x4096 .f32) (main_arg2 : FVec F S4096 .f32) (main_arg3 : FVec F S4096x4096 .f32) (main_arg4 : FVec F S4096 .f32) (main_arg5 : FVec F S2x4096 .f32) (main_arg6 : FVec F S2 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x64 : Shape := ⟨2, ![4096, 64]⟩
abbrev S4096x4096 : Shape := ⟨2, ![4096, 4096]⟩
abbrev S4096 : Shape := ⟨1, ![4096]⟩
abbrev S2x4096 : Shape := ⟨2, ![2, 4096]⟩
abbrev S2 : Shape := ⟨1, ![2]⟩
abbrev S1x4096 : Shape := ⟨2, ![1, 4096]⟩
abbrev S1x2 : Shape := ⟨2, ![1, 2]⟩
abbrev S2048x64 : Shape := ⟨2, ![2048, 64]⟩
abbrev S1024x64 : Shape := ⟨2, ![1024, 64]⟩
abbrev S2048x1024 : Shape := ⟨2, ![2048, 1024]⟩
abbrev S1x2048 : Shape := ⟨2, ![1, 2048]⟩
abbrev S2048x2048 : Shape := ⟨2, ![2048, 2048]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩
abbrev S4096x2 : Shape := ⟨2, ![4096, 2]⟩
abbrev S2x2048 : Shape := ⟨2, ![2, 2048]⟩
abbrev S2048x2 : Shape := ⟨2, ![2048, 2]⟩

abbrev nBuf : Space → Nat
  | .hbm => 14
  | .vmem => 24
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S2x4096, .f32⟩
  | .hbm, ⟨6, _⟩ => ⟨S2, .f32⟩
  | .hbm, ⟨7, _⟩ => ⟨S4096x4096, .bf16⟩
  | .hbm, ⟨8, _⟩ => ⟨S4096x4096, .bf16⟩
  | .hbm, ⟨9, _⟩ => ⟨S1x4096, .f32⟩
  | .hbm, ⟨10, _⟩ => ⟨S1x4096, .f32⟩
  | .hbm, ⟨11, _⟩ => ⟨S1x2, .f32⟩
  | .hbm, ⟨12, _⟩ => ⟨S4096x4096, .bf16⟩
  | .hbm, ⟨13, _⟩ => ⟨S4096x2, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S2048x1024, .bf16⟩
  | .local _ .vmem, ⟨5, _⟩ => ⟨S2048x1024, .bf16⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S2048x2048, .bf16⟩
  | .local _ .vmem, ⟨10, _⟩ => ⟨S2048x2048, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1x2048, .f32⟩
  | .local _ .vmem, ⟨16, _⟩ => ⟨S1x2048, .f32⟩
  | .local _ .vmem, ⟨17, _⟩ => ⟨S2x2048, .f32⟩
  | .local _ .vmem, ⟨18, _⟩ => ⟨S2x2048, .f32⟩
  | .local _ .vmem, ⟨19, _⟩ => ⟨S1x2, .f32⟩
  | .local _ .vmem, ⟨20, _⟩ => ⟨S2048x2, .f32⟩
  | .local _ .vmem, ⟨21, _⟩ => ⟨S2048x2, .f32⟩
  | .local _ .vmem, ⟨22, _⟩ => ⟨S2048x2048, .f32⟩
  | .local _ .vmem, ⟨23, _⟩ => ⟨S2048x2, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![2, 2, 4], ![false, false, false]⟩

def k1_cond4 (i : grid1.Coords) : BitVec 1 :=
  let arg1 : BitVec 32 := BitVec.ofNat 32 (i 1).val
  let c1_i32 : BitVec 32 := 1#32
  let v21 : BitVec 1 := Scalar.cmpi .eq arg1 c1_i32
  let arg2 : BitVec 32 := BitVec.ofNat 32 (i 2).val
  let c3_i32_12 : BitVec 32 := 3#32
  let v22 : BitVec 1 := Scalar.cmpi .eq arg2 c3_i32_12
  let v23 : BitVec 1 := Scalar.andi v21 v22
  let v24 : BitVec 32 := Scalar.extui v23
  let c0_i32_13 : BitVec 32 := 0#32
  let v25 : BitVec 1 := Scalar.cmpi .ne v24 c0_i32_13
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S2048x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  bitsLt_bf16_f32 : FTy.bits .bf16 < FTy.bits .f32
  shapeCasts_S4096_S1x4096 : S4096.ShapeCasts S1x4096
  shapeCasts_S2_S1x2 : S2.ShapeCasts S1x2
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  reduces_S2048x64_S2048 : S2048x64.Reduces [1] S2048
  shapeCasts_S2048_S2048x1 : S2048.ShapeCasts S2048x1
  reduces_S1024x64_S1024 : S1024x64.Reduces [1] S1024
  shapeCasts_S1024_S1024x1 : S1024.ShapeCasts S1024x1
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  packedbf16_S2048x2048_S2048x2048_0_0 : (Rect.unit (s := S2048x2048) ![0, 0] S2048x2048.size inb_S2048x2048_S2048x2048_0_0).PackedRows (EltTy.packing .bf16)
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2x2048_S2x2048_0_0 : ∀ a, (![0, 0] : Fin 2 → Nat) a + S2x2048.size a ≤ S2x2048.size a
  h_S2x2048 : 0 < S2x2048.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  dot_S2048x64_S1024x64_S2048x1024_1_1_0_0_n_n_wf : DotDims.WF S2048x64 S1024x64 S2048x1024 [1] [1] [0] [0] [] []
  dot_S2048x1024_S2048x1024_S2048x2048_1_1_0_0_n_n_wf : DotDims.WF S2048x1024 S2048x1024 S2048x2048 [1] [1] [0] [0] [] []
  dot_S2048x2048_S2x2048_S2048x2_1_1_0_0_n_n_wf : DotDims.WF S2048x2048 S2x2048 S2048x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S4096x64.size a
  hwx0_0 : ∀ i : grid0.Coords, EltTy.bits .f32 = 32 ∨ (Rect.block (s := S4096x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .bf16 = 32 ∨ (Rect.block (s := S4096x4096) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S4096x4096.size a
  hwx0_4 : ∀ i : grid0.Coords, EltTy.bits .bf16 = 32 ∨ (Rect.block (s := S4096x4096) S2048x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x4096.size a
  hwx1_0 : ∀ i : grid1.Coords, EltTy.bits .bf16 = 32 ∨ (Rect.block (s := S4096x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x2048.size a ≤ S2x4096.size a
  hwx1_3 : ∀ i : grid1.Coords, EltTy.bits .f32 = 32 ∨ (Rect.block (s := S2x4096) S2x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x2.size a ≤ S4096x2.size a
  hwx1_5 : ∀ i : grid1.Coords, EltTy.bits .f32 = 32 ∨ (Rect.block (s := S4096x2) S2048x2.size (cc1_transform_5 i) (hinb1_5 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf
def dot_S2048x2048_S2x2048_S2048x2_1_1_0_0_n_n : DotDims S2048x2048 S2x2048 S2048x2 where
  lhsContracting := [1]
  rhsContracting := [1]
  lhsNonContracting := [0]
  rhsNonContracting := [0]
  lhsBatch := []
  rhsBatch := []
  wf := dot_S2048x2048_S2x2048_S2048x2_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v5) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S2x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond4 i == 1#1) | ⟨_ + 6, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S4096 : Shape := ⟨1, ![4096]⟩
abbrev S2x4096 : Shape := ⟨2, ![2, 4096]⟩
abbrev S2 : Shape := ⟨1, ![2]⟩
abbrev S_ : Shape := ⟨0, ![]⟩
abbrev S4096x1 : Shape := ⟨2, ![4096, 1]⟩
abbrev S1x4096 : Shape := ⟨2, ![1, 4096]⟩
abbrev S64x4096 : Shape := ⟨2, ![64, 4096]⟩
abbrev S4096x2 : Shape := ⟨2, ![4096, 2]⟩
abbrev S1x2 : Shape := ⟨2, ![1, 2]⟩

abbrev nBuf : Space → Nat
  | .hbm => 52
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S2x4096, .f32⟩
  | .hbm, ⟨6, _⟩ => ⟨S2, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S4096x64, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S64x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x2, .f32⟩
  | .hbm, ⟨48, _⟩ => ⟨S4096x2, .f32⟩
  | .hbm, ⟨49, _⟩ => ⟨S1x2, .f32⟩
  | .hbm, ⟨50, _⟩ => ⟨S4096x2, .f32⟩
  | .hbm, ⟨51, _⟩ => ⟨S4096x2, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x64_S64x4096_1_0 : S4096x64.Transposes [1, 0] S64x4096
  bcast_S_S4096x4096 : S_.BroadcastsInDim S4096x4096 (![] : Fin 0 → Fin S4096x4096.rank)
  transposes_S4096x4096_S4096x4096_1_0 : S4096x4096.Transposes [1, 0] S4096x4096
  transposes_S2x4096_S4096x2_1_0 : S2x4096.Transposes [1, 0] S4096x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S4096x64_S64x4096_S4096x4096_1_0_0_1_n_n_wf : DotDims.WF S4096x64 S64x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x2_S4096x2_1_0_0_1_n_n_wf : DotDims.WF S4096x4096 S4096x2 S4096x2 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x2_S4096x2_1_0_0_1_n_n : DotDims S4096x4096 S4096x2 S4096x2 where
  lhsContracting := [1]
  rhsContracting := [0]
  lhsNonContracting := [0]
  rhsNonContracting := [1]
  lhsBatch := []
  rhsBatch := []
  wf := dot_S4096x4096_S4096x2_S4096x2_1_0_0_1_n_n_wf

class Facts : Prop extends Facts₀ where

variable [Facts]
-- ==== Proof.Kernel.Body0.lean ====
/-
  The first kernel's body at one grid point, as a triple over the contents of its six memrefs.

  The body zeroes the accumulator when the contraction block is the first, adds the block product of the
  point to it, and when the contraction block is the last stores the rectified, biased accumulator as the
  output block.  Every load and store is of a whole buffer, so what a buffer holds afterwards is the
  stored payload itself.
-/
import proofs.«136834_j65481071406559_2_alg».proof.Proof.Gen.Kernel.Skeleton
import proofs.«136834_j65481071406559_2_alg».proof.Proof.Gen.Kernel.Launch
import proofs.«136834_j65481071406559_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contraction block of the point is the first. -/
abbrev cond0_0 (i : grid0.Coords) : Prop :=
  (Scalar.cmpi .ne (Scalar.extui (Scalar.cmpi .eq (BitVec.ofNat 32 (i 2).val) 0#32)) 0#32) = 1#1
/-- The contraction block of the point is the last. -/
abbrev cond0_1 (i : grid0.Coords) : Prop := k0_cond2 i = 1#1

/-- The offsets of every load and store: none. -/
theorem hz2 : (![0, 0] : Fin 2 → ℕ) = fun _ => 0 := by
  funext a; fin_cases a <;> rfl

set_option maxHeartbeats 4000000 in
/-- A first contraction block: the accumulator is zeroed and receives the block product. -/
theorem run0_first (c : Dev nD) (E : Set ℕ) (i : grid0.Coords)
    (arg3 : Memref sig .tc .vmem S2048x64 .f32) (harg3 : arg3.IsWhole) (arg4 : Memref sig .tc .vmem S1024x64 .f32) (harg4 : arg4.IsWhole)
    (arg5 : Memref sig .tc .vmem S2048x1024 .bf16) (harg5 : arg5.IsWhole) (arg6 : Memref sig .tc .vmem S1x2048 .f32) (harg6 : arg6.IsWhole)
    (arg7 : Memref sig .tc .vmem S2048x2048 .bf16) (harg7 : arg7.IsWhole) (arg8 : Memref sig .tc .vmem S2048x2048 .f32) (harg8 : arg8.IsWhole)
    (hc0 : cond0_0 i) (hc1 : ¬cond0_1 i)
    (x0 : Vec F S2048x64 .f32) (x1 : Vec F S1024x64 .f32) (x2 : Vec F S2048x1024 .bf16) (x3 : Vec F S1x2048 .f32)
    (xo : Vec F S2048x2048 .bf16) (xs : Vec F S2048x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k0_pay3 x0 x1 (k0_pay2 (F := F)) x2)) -∗ K ⟨⟩))
      ⊢ wp frame (wpE (defs₀ (F := F)) Variants.none c none) E
          (cc0__fused_rbf_matmul1_kernel i arg3 harg3 arg4 harg4 arg5 harg5 arg6 harg6 arg7 harg7 arg8 harg8) K := by
  simp only [cc0__fused_rbf_matmul1_kernel_eq_skeleton]; unfold cc0__fused_rbf_matmul1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HO]
  · iexists _; isplitr; · ipureintro; exact harg7.read_unread _
    iexact HO
  iexists _; isplitr
  swap; · iexact HS
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  simp only [View.readAt_eq_ld, harg3.read_unread, harg4.read_unread, harg5.read_unread, View.ld_unit_zero (S := S2048x64) hz2, View.ld_unit_zero (S := S1024x64) hz2, View.ld_unit_zero (S := S2048x1024) hz2, View.ld_unit_zero (S := S1x2048) hz2, View.ld_unit_zero (S := S2048x2048) hz2, View.readCov_unit_zero (S := S2048x2048) arg8.view hz2]

set_option maxHeartbeats 4000000 in
/-- A middle contraction block: the accumulator receives the block product, nothing else changes. -/
theorem run0_mid (c : Dev nD) (E : Set ℕ) (i : grid0.Coords)
    (arg3 : Memref sig .tc .vmem S2048x64 .f32) (harg3 : arg3.IsWhole) (arg4 : Memref sig .tc .vmem S1024x64 .f32) (harg4 : arg4.IsWhole)
    (arg5 : Memref sig .tc .vmem S2048x1024 .bf16) (harg5 : arg5.IsWhole) (arg6 : Memref sig .tc .vmem S1x2048 .f32) (harg6 : arg6.IsWhole)
    (arg7 : Memref sig .tc .vmem S2048x2048 .bf16) (harg7 : arg7.IsWhole) (arg8 : Memref sig .tc .vmem S2048x2048 .f32) (harg8 : arg8.IsWhole)
    (hc0 : ¬cond0_0 i) (hc1 : ¬cond0_1 i)
    (x0 : Vec F S2048x64 .f32) (x1 : Vec F S1024x64 .f32) (x2 : Vec F S2048x1024 .bf16) (x3 : Vec F S1x2048 .f32)
    (xo : Vec F S2048x2048 .bf16) (xs : Vec F S2048x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k0_pay3 x0 x1 xs x2)) -∗ K ⟨⟩))
      ⊢ wp frame (wpE (defs₀ (F := F)) Variants.none c none) E
          (cc0__fused_rbf_matmul1_kernel i arg3 harg3 arg4 harg4 arg5 harg5 arg6 harg6 arg7 harg7 arg8 harg8) K := by
  simp only [cc0__fused_rbf_matmul1_kernel_eq_skeleton]; unfold cc0__fused_rbf_matmul1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HO]
  · iexists _; isplitr; · ipureintro; exact harg7.read_unread _
    iexact HO
  iexists _; isplitr
  swap; · iexact HS
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  simp only [View.readAt_eq_ld, harg3.read_unread, harg4.read_unread, harg5.read_unread, harg8.read_unread, View.ld_unit_zero (S := S2048x64) hz2, View.ld_unit_zero (S := S1024x64) hz2, View.ld_unit_zero (S := S2048x1024) hz2, View.ld_unit_zero (S := S1x2048) hz2, View.ld_unit_zero (S := S2048x2048) hz2]

set_option maxHeartbeats 4000000 in
/-- A last contraction block: the accumulator receives the block product, and rectified and biased it is the output block. -/
theorem run0_last (c : Dev nD) (E : Set ℕ) (i : grid0.Coords)
    (arg3 : Memref sig .tc .vmem S2048x64 .f32) (harg3 : arg3.IsWhole) (arg4 : Memref sig .tc .vmem S1024x64 .f32) (harg4 : arg4.IsWhole)
    (arg5 : Memref sig .tc .vmem S2048x1024 .bf16) (harg5 : arg5.IsWhole) (arg6 : Memref sig .tc .vmem S1x2048 .f32) (harg6 : arg6.IsWhole)
    (arg7 : Memref sig .tc .vmem S2048x2048 .bf16) (harg7 : arg7.IsWhole) (arg8 : Memref sig .tc .vmem S2048x2048 .f32) (harg8 : arg8.IsWhole)
    (hc0 : ¬cond0_0 i) (hc1 : cond0_1 i)
    (x0 : Vec F S2048x64 .f32) (x1 : Vec F S1024x64 .f32) (x2 : Vec F S2048x1024 .bf16) (x3 : Vec F S1x2048 .f32)
    (xo : Vec F S2048x2048 .bf16) (xs : Vec F S2048x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k0_pay1 (k0_pay3 x0 x1 xs x2) x3)
            ∗ owns (c : Thread nD τ) arg8 fullShare (k0_pay3 x0 x1 xs x2)) -∗ K ⟨⟩))
      ⊢ wp frame (wpE (defs₀ (F := F)) Variants.none c none) E
          (cc0__fused_rbf_matmul1_kernel i arg3 harg3 arg4 harg4 arg5 harg5 arg6 harg6 arg7 harg7 arg8 harg8) K := by
  simp only [cc0__fused_rbf_matmul1_kernel_eq_skeleton]; unfold cc0__fused_rbf_matmul1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HO]
  · iexists _; isplitr
    swap; · iexact HO
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    simp only [View.readAt_eq_ld, harg3.read_unread, harg4.read_unread, harg5.read_unread, harg6.read_unread, harg8.read_unread, View.ld_unit_zero (S := S2048x64) hz2, View.ld_unit_zero (S := S1024x64) hz2, View.ld_unit_zero (S := S2048x1024) hz2, View.ld_unit_zero (S := S1x2048) hz2, View.ld_unit_zero (S := S2048x2048) hz2, View.readCov_unit_zero (S := S2048x2048) arg8.view hz2]
  iexists _; isplitr
  swap; · iexact HS
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  simp only [View.readAt_eq_ld, harg3.read_unread, harg4.read_unread, harg5.read_unread, harg8.read_unread, View.ld_unit_zero (S := S2048x64) hz2, View.ld_unit_zero (S := S1024x64) hz2, View.ld_unit_zero (S := S2048x1024) hz2, View.ld_unit_zero (S := S1x2048) hz2, View.ld_unit_zero (S := S2048x2048) hz2]

end Cert.Kernel.Hand

end
-- ==== Proof.Kernel.Body1.lean ====
/-
  The second kernel's body at one grid point, as a triple over the contents of its eight memrefs.

  The body zeroes the head's accumulator at the first point of a row block and the big accumulator when the
  contraction block is the first, adds the block product of the point to the big accumulator, and when the
  contraction block is the last adds the head's product of the rectified, biased big accumulator to the head's
  accumulator; at the last point of a row block the head's accumulator with the head's bias is the output block.
  Every load and store is of a whole buffer.
-/
import proofs.«136834_j65481071406559_2_alg».proof.Proof.Kernel.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The point is the first of its row block. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The contraction block of the point is the first. -/
abbrev cond1_1 (i : grid1.Coords) : Prop :=
  (Scalar.cmpi .ne (Scalar.extui (Scalar.cmpi .eq (BitVec.ofNat 32 (i 2).val) 0#32)) 0#32) = 1#1
/-- The contraction block of the point is the last. -/
abbrev cond1_2 (i : grid1.Coords) : Prop :=
  (Scalar.cmpi .ne (Scalar.extui (Scalar.cmpi .eq (BitVec.ofNat 32 (i 2).val) 3#32)) 0#32) = 1#1
/-- The point is the last of its row block. -/
abbrev cond1_3 (i : grid1.Coords) : Prop := k1_cond4 i = 1#1

set_option maxHeartbeats 4000000 in
/-- The first point of a row block: both accumulators are zeroed, the big one receives the block product. -/
theorem run1_rowFirst (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : cond1_0 i) (hc1 : cond1_1 i) (hc2 : ¬cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 (k1_pay2 (F := F)) x0 x1)
            ∗ owns (c : Thread nD τ) arg10 fullShare (k1_pay1 (F := F))) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr
  swap; · iexact HL
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]

set_option maxHeartbeats 4000000 in
/-- A first contraction block inside a row block: the big accumulator is zeroed and receives the block product. -/
theorem run1_first (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : cond1_1 i) (hc2 : ¬cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 (k1_pay2 (F := F)) x0 x1)
            ∗ owns (c : Thread nD τ) arg10 fullShare xl) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr; · ipureintro; exact harg10.read_unread _
  iexact HL

set_option maxHeartbeats 4000000 in
/-- A middle contraction block: the big accumulator receives the block product. -/
theorem run1_mid (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : ¬cond1_1 i) (hc2 : ¬cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 xa x0 x1)
            ∗ owns (c : Thread nD τ) arg10 fullShare xl) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr; · ipureintro; exact harg10.read_unread _
  iexact HL

set_option maxHeartbeats 4000000 in
/-- A last contraction block inside a row block: the head's accumulator receives the head's product. -/
theorem run1_last (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : ¬cond1_1 i) (hc2 : cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 xa x0 x1)
            ∗ owns (c : Thread nD τ) arg10 fullShare (k1_pay4 (k1_pay3 xa x0 x1) x2 x3 xl)) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr
  swap; · iexact HL
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]

set_option maxHeartbeats 4000000 in
/-- The last point of a row block: as at a last contraction block, and the head's accumulator with the head's bias is the output block. -/
theorem run1_rowLast (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : ¬cond1_1 i) (hc2 : cond1_2 i) (hc3 : cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare (k1_pay5 (k1_pay4 (k1_pay3 xa x0 x1) x2 x3 xl) x4)
            ∗ owns (c : Thread nD τ) arg9 fullShare (k1_pay3 xa x0 x1)
            ∗ owns (c : Thread nD τ) arg10 fullShare (k1_pay4 (k1_pay3 xa x0 x1) x2 x3 xl)) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr
    swap; · iexact HO
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr
  swap; · iexact HL
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]

end Cert.Kernel.Hand

end
-- ==== Proof.Kernel.Data1.lean ====
/-
  The second kernel's launch, point by point: what each window's buffer and the two accumulators hold after
  every grid point, and that the body at every point takes the one to the other.

  The grid's 16 points are numbered row-major: point t has row block t / 8, output-feature block (t / 4) % 2
  and contraction block t % 4.  The big accumulator after point t is the sum of the block products of the
  points of t's run of four up to t; the head's accumulator after point t is the sum of the head's products of
  the runs of four completed within t's run of eight; the output block stored at the run of eight's last point
  is the head's accumulator with the head's bias.
-/
import proofs.«136834_j65481071406559_2_alg».proof.Proof.Kernel.Body1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions, decided over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 = 3 :=
  (by decide +kernel : ∀ t : Fin grid1.N, cond1_2 (grid1.coords t) ↔ t.val % 4 = 3)
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point of a row block nothing is stored into the output block, -/
theorem idleAt1_5 : ∀ t : Fin cfg1.N, ¬cond1_3 (grid1.coords t) → cfg1.idle 5 (grid1.coords t) = true := by decide +kernel
/-- and it is not written back there; -/
theorem noFlush1_5 : ∀ t : Fin cfg1.N, ¬cond1_3 (grid1.coords t) → (cfg1.win 5).flush t = false := by decide +kernel
/-- at the last point of a row block it is stored. -/
theorem liveAt1_5 : ∀ t : Fin cfg1.N, cond1_3 (grid1.coords t) → cfg1.idle 5 (grid1.coords t) = false := by decide +kernel

/-! ## The accumulators and the output block after each point -/

/-- The big accumulator after point `n`. -/
def accAt1 (c : Dev nD) : (n : ℕ) → n < cfg1.N → Vec F S2048x2048 .f32
  | 0, hn => k1_pay3 (k1_pay2 (F := F)) (iblk1 V c 0 ⟨0, hn⟩) (iblk1 V c 1 ⟨0, hn⟩)
  | n + 1, hn =>
    if (n + 1) % 4 = 0 then
      k1_pay3 (k1_pay2 (F := F)) (iblk1 V c 0 ⟨n + 1, hn⟩) (iblk1 V c 1 ⟨n + 1, hn⟩)
    else
      k1_pay3 (accAt1 c n (Nat.lt_of_succ_lt hn)) (iblk1 V c 0 ⟨n + 1, hn⟩) (iblk1 V c 1 ⟨n + 1, hn⟩)

theorem accAt1_first (c : Dev nD) (t : Fin cfg1.N) (h : t.val % 4 = 0) :
    accAt1 V c t.val t.isLt = k1_pay3 (k1_pay2 (F := F)) (iblk1 V c 0 t) (iblk1 V c 1 t) := by
  obtain ⟨n, hn⟩ := t
  cases n with
  | zero => rfl
  | succ n => exact if_pos h

theorem accAt1_next (c : Dev nD) (t : Fin cfg1.N) (h : ¬t.val % 4 = 0) :
    accAt1 V c t.val t.isLt = k1_pay3 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-- The head's accumulator after point `n`: zero at the first point of a row block; at a last contraction
    block the head's product of the point added to what the point before left; otherwise what it left. -/
def lgAt1 (c : Dev nD) : (n : ℕ) → n < cfg1.N → Vec F S2048x2 .f32
  | 0, _ => k1_pay1 (F := F)
  | n + 1, hn =>
    if (n + 1) % 8 = 0 then k1_pay1 (F := F)
    else if (n + 1) % 4 = 3 then
      k1_pay4 (accAt1 V c (n + 1) hn) (iblk1 V c 2 ⟨n + 1, hn⟩) (iblk1 V c 3 ⟨n + 1, hn⟩) (lgAt1 c n (Nat.lt_of_succ_lt hn))
    else lgAt1 c n (Nat.lt_of_succ_lt hn)

theorem lgAt1_rowFirst (c : Dev nD) (t : Fin cfg1.N) (h : t.val % 8 = 0) : lgAt1 V c t.val t.isLt = k1_pay1 (F := F) := by
  obtain ⟨n, hn⟩ := t
  cases n with
  | zero => rfl
  | succ n => exact if_pos h

theorem lgAt1_keep (c : Dev nD) (t : Fin cfg1.N) (h8 : ¬t.val % 8 = 0) (h3 : ¬t.val % 4 = 3) :
    lgAt1 V c t.val t.isLt = lgAt1 V c (t.val - 1) (Nat.lt_of_le_of_lt (Nat.sub_le _ _) t.isLt) := by
  obtain ⟨n, hn⟩ := t
  cases n with
  | zero => exact absurd (Nat.zero_mod _) h8
  | succ n => exact (if_neg h8).trans (if_neg h3)

theorem lgAt1_add (c : Dev nD) (t : Fin cfg1.N) (h3 : t.val % 4 = 3) :
    lgAt1 V c t.val t.isLt = k1_pay4 (accAt1 V c t.val t.isLt) (iblk1 V c 2 t) (iblk1 V c 3 t)
      (lgAt1 V c (t.val - 1) (Nat.lt_of_le_of_lt (Nat.sub_le _ _) t.isLt)) := by
  obtain ⟨n, hn⟩ := t
  cases n with
  | zero => simp at h3
  | succ n =>
    have h3' : (n + 1) % 4 = 3 := h3
    have h8 : ¬(n + 1) % 8 = 0 := by omega
    exact (if_neg h8).trans (if_pos h3)

/-- The output block the last point of a row block stores. -/
def outAt1 (c : Dev nD) (t : Fin cfg1.N) : Vec F S2048x2 .f32 :=
  k1_pay5 (lgAt1 V c t.val t.isLt) (iblk1 V c 4 t)

/-! ## The invariant: the two accumulators between points -/

/-- The big accumulator's buffer and the head's accumulator's. -/
abbrev scA1 : Memref sig .tc .vmem S2048x2048 .f32 := Memref.whole cc1_scratch0
abbrev scL1 : Memref sig .tc .vmem S2048x2 .f32 := Memref.whole cc1_scratch1

/-- The core's other scoped buffers (the first kernel's), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The kernel's scoped buffers outside its windows: the two accumulators and the rest. -/
theorem PhiA1_any (c : Dev nD) :
    (Pipeline.ΦA spec1 c : sProp 𝕄)
      ⊢ iprop(iprop(iprop((∃ d, owns (c : Thread nD τ) scA1 fullShare d) ∗ (∃ d, owns (c : Thread nD τ) scL1 fullShare d)) ∗ rest1 c) ∗ (∃ r, prngReg c r)) := by
  unfold Pipeline.ΦA rest1; rw [scopedRest1_eq]; simp only [scA1, scL1, owns_whole]
  iintro ⟨⟨R1, R2, R3, R4, R5, R6, R7, R8, R9, R10, R11, HA, HL⟩, Hg⟩
  isplitr [Hg]
  · isplitl [HA HL]
    · isplitl [HA]; · iexact HA
      iexact HL
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

theorem PhiA1_back (c : Dev nD) :
    iprop(iprop(iprop((∃ d, owns (c : Thread nD τ) scA1 fullShare d) ∗ (∃ d, owns (c : Thread nD τ) scL1 fullShare d)) ∗ rest1 c) ∗ (∃ r, prngReg c r))
      ⊢ (Pipeline.ΦA spec1 c : sProp 𝕄) := by
  unfold Pipeline.ΦA rest1; rw [scopedRest1_eq]; simp only [scA1, scL1, owns_whole]
  iintro ⟨⟨⟨HA, HL⟩, R1, R2, R3, R4, R5, R6, R7, R8, R9, R10, R11⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HA]; · iexact HA
    iexact HL
  iexact Hg

/-- Before point `n`: at the first point every scoped buffer at anything; afterwards the two accumulators at
    what the point before left. -/
def PhiS1 (c : Dev nD) : (n : ℕ) → n ≤ cfg1.N → sProp 𝕄
  | 0, _ => Pipeline.ΦA spec1 c
  | n + 1, hn => iprop(iprop(iprop(owns (c : Thread nD τ) scA1 fullShare (accAt1 V c n hn) ∗ owns (c : Thread nD τ) scL1 fullShare (lgAt1 V c n hn)) ∗ rest1 c) ∗ (∃ r, prngReg c r))

theorem PhiS1_pos (c : Dev nD) (n : ℕ) (h : n ≤ cfg1.N) (hz : n ≠ 0) :
    PhiS1 V c n h = iprop(iprop(iprop(owns (c : Thread nD τ) scA1 fullShare (accAt1 V c (n - 1) (by omega)) ∗ owns (c : Thread nD τ) scL1 fullShare (lgAt1 V c (n - 1) (by omega))) ∗ rest1 c) ∗ (∃ r, prngReg c r)) := by
  cases n with
  | zero => exact absurd rfl hz
  | succ n => rfl

/-- At any point the accumulators' buffers are held at some contents. -/
theorem PhiS1_any (c : Dev nD) (n : ℕ) (h : n ≤ cfg1.N) :
    PhiS1 V c n h ⊢ iprop(iprop(iprop((∃ d, owns (c : Thread nD τ) scA1 fullShare d) ∗ (∃ d, owns (c : Thread nD τ) scL1 fullShare d)) ∗ rest1 c) ∗ (∃ r, prngReg c r)) := by
  cases n with
  | zero => rw [show PhiS1 V c 0 h = Pipeline.ΦA spec1 c from rfl]; exact PhiA1_any c
  | succ n =>
    rw [show PhiS1 V c (n + 1) h = iprop(iprop(iprop(owns (c : Thread nD τ) scA1 fullShare (accAt1 V c n h) ∗ owns (c : Thread nD τ) scL1 fullShare (lgAt1 V c n h)) ∗ rest1 c) ∗ (∃ r, prngReg c r)) from rfl]
    iintro ⟨⟨⟨HA, HL⟩, HR⟩, Hg⟩
    isplitl [HA HL HR]
    · isplitl [HA HL]
      · isplitl [HA]; · iexists _; iexact HA
        iexists _; iexact HL
      iexact HR
    iexact Hg

/-! ## The proof data -/

/-- The proof data of the second kernel's pipeline on core `c`: the arrays as the kernel finds them; after the
    body at point `t` each input's buffer at its block and the output's at `outAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- The body at any point: the inputs' buffers hold their blocks; the point's place in its run of eight says
    which of the five triples applies; the invariant hands the body the accumulators at what the point before
    left and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = iprop(iprop(iprop(owns (c : Thread nD τ) scA1 fullShare (accAt1 V c t.val t.isLt) ∗ owns (c : Thread nD τ) scL1 fullShare (lgAt1 V c t.val t.isLt)) ∗ rest1 c) ∗ (∃ r, prngReg c r)) from rfl]
  rw [PhiS1_castSucc]
  have hN : t.val < 16 := lt_of_lt_of_eq t.isLt (show cfg1.N = 16 from N_1)
  by_cases h0 : t.val % 8 = 0
  · have h4 : t.val % 4 = 0 := by omega
    have h3 : ¬t.val % 4 = 3 := by omega
    have h7 : ¬t.val % 8 = 7 := by omega
    rw [show (dat1 V c).leavesExact 0 t = owns (c : Thread nD τ) (st1_0 t) fullShare ((dat1 V c).after 0 t) from by
          unfold Dat.leavesExact; rw [liveAt1_0 t], after1_0]
    rw [show (dat1 V c).leavesExact 1 t = owns (c : Thread nD τ) (st1_1 t) fullShare ((dat1 V c).after 1 t) from by
          unfold Dat.leavesExact; rw [liveAt1_1 t], after1_1]
    rw [show (dat1 V c).leavesExact 2 t = owns (c : Thread nD τ) (st1_2 t) fullShare ((dat1 V c).after 2 t) from by
          unfold Dat.leavesExact; rw [liveAt1_2 t], after1_2]
    rw [show (dat1 V c).leavesExact 3 t = owns (c : Thread nD τ) (st1_3 t) fullShare ((dat1 V c).after 3 t) from by
          unfold Dat.leavesExact; rw [liveAt1_3 t], after1_3]
    rw [show (dat1 V c).leavesExact 4 t = owns (c : Thread nD τ) (st1_4 t) fullShare ((dat1 V c).after 4 t) from by
          unfold Dat.leavesExact; rw [liveAt1_4 t], after1_4]
    rw [Dat.leavesExact_idle (dat1 V c) 5 t (idleAt1_5 t (fun h => h7 ((hcond1_3 t).mp h))) (noFlush1_5 t (fun h => h7 ((hcond1_3 t).mp h)))]
    rw [lgAt1_rowFirst V c t h0]
    rw [accAt1_first V c t h4]
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c t.val (Nat.le_of_lt t.isLt)) $$ HΦ
    icases HΦ' with ⟨⟨⟨⟨%xa, HA⟩, ⟨%xl, HL⟩⟩, HR⟩, Hg⟩
    iapply (run1_rowFirst c Set.univ (grid1.coords t) _ _ _ _ _ _ _ _ _ _ _ _ _ _ _ _ ((hcond1_0 t).mpr h0) ((hcond1_1 t).mpr h4) (fun h => h3 ((hcond1_2 t).mp h)) (fun h => h7 ((hcond1_3 t).mp h)) (iblk1 V c 0 t) (iblk1 V c 1 t) (iblk1 V c 2 t) (iblk1 V c 3 t) (iblk1 V c 4 t) _ _ _ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HL]; · iexact HL
    iintro ⟨H0, H1, H2, H3, H4, H5, HA, HL⟩
    isplitl [HA HL HR Hg]
    · isplitl [HA HL HR]
      · isplitl [HA HL]
        · isplitl [HA]; · iexact HA
          iexact HL
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS1_pos V c _ _ hz]
    by_cases h4 : t.val % 4 = 0
    · have h3 : ¬t.val % 4 = 3 := by omega
      have h7 : ¬t.val % 8 = 7 := by omega
      rw [show (dat1 V c).leavesExact 0 t = owns (c : Thread nD τ) (st1_0 t) fullShare ((dat1 V c).after 0 t) from by
            unfold Dat.leavesExact; rw [liveAt1_0 t], after1_0]
      rw [show (dat1 V c).leavesExact 1 t = owns (c : Thread nD τ) (st1_1 t) fullShare ((dat1 V c).after 1 t) from by
            unfold Dat.leavesExact; rw [liveAt1_1 t], after1_1]
      rw [show (dat1 V c).leavesExact 2 t = owns (c : Thread nD τ) (st1_2 t) fullShare ((dat1 V c).after 2 t) from by
            unfold Dat.leavesExact; rw [liveAt1_2 t], after1_2]
      rw [show (dat1 V c).leavesExact 3 t = owns (c : Thread nD τ) (st1_3 t) fullShare ((dat1 V c).after 3 t) from by
            unfold Dat.leavesExact; rw [liveAt1_3 t], after1_3]
      rw [show (dat1 V c).leavesExact 4 t = owns (c : Thread nD τ) (st1_4 t) fullShare ((dat1 V c).after 4 t) from by
            unfold Dat.leavesExact; rw [liveAt1_4 t], after1_4]
      rw [Dat.leavesExact_idle (dat1 V c) 5 t (idleAt1_5 t (fun h => h7 ((hcond1_3 t).mp h))) (noFlush1_5 t (fun h => h7 ((hcond1_3 t).mp h)))]
      rw [lgAt1_keep V c t h0 h3]
      rw [accAt1_first V c t h4]
      iintro ⟨HΦ, Ho, ⟨%d0, H0⟩, ⟨%d1, H1⟩, ⟨%d2, H2⟩, ⟨%d3, H3⟩, ⟨%d4, H4⟩, ⟨%d5, H5⟩⟩
      icases HΦ with ⟨⟨⟨HA, HL⟩, HR⟩, Hg⟩
      iapply (run1_first c Set.univ (grid1.coords t) _ _ _ _ _ _ _ _ _ _ _ _ _ _ _ _ (fun h => h0 ((hcond1_0 t).mp h)) ((hcond1_1 t).mpr h4) (fun h => h3 ((hcond1_2 t).mp h)) (fun h => h7 ((hcond1_3 t).mp h)) (iblk1 V c 0 t) (iblk1 V c 1 t) (iblk1 V c 2 t) (iblk1 V c 3 t) (iblk1 V c 4 t) _ _ _ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HL]; · iexact HL
      iintro ⟨H0, H1, H2, H3, H4, H5, HA, HL⟩
      isplitl [HA HL HR Hg]
      · isplitl [HA HL HR]
        · isplitl [HA HL]
          · isplitl [HA]; · iexact HA
            iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h3 : t.val % 4 = 3
      · by_cases h7 : t.val % 8 = 7
        · rw [show (dat1 V c).leavesExact 0 t = owns (c : Thread nD τ) (st1_0 t) fullShare ((dat1 V c).after 0 t) from by
                unfold Dat.leavesExact; rw [liveAt1_0 t], after1_0]
          rw [show (dat1 V c).leavesExact 1 t = owns (c : Thread nD τ) (st1_1 t) fullShare ((dat1 V c).after 1 t) from by
                unfold Dat.leavesExact; rw [liveAt1_1 t], after1_1]
          rw [show (dat1 V c).leavesExact 2 t = owns (c : Thread nD τ) (st1_2 t) fullShare ((dat1 V c).after 2 t) from by
                unfold Dat.leavesExact; rw [liveAt1_2 t], after1_2]
          rw [show (dat1 V c).leavesExact 3 t = owns (c : Thread nD τ) (st1_3 t) fullShare ((dat1 V c).after 3 t) from by
                unfold Dat.leavesExact; rw [liveAt1_3 t], after1_3]
          rw [show (dat1 V c).leavesExact 4 t = owns (c : Thread nD τ) (st1_4 t) fullShare ((dat1 V c).after 4 t) from by
                unfold Dat.leavesExact; rw [liveAt1_4 t], after1_4]
          rw [show (dat1 V c).leavesExact 5 t = owns (c : Thread nD τ) (st1_5 t) fullShare ((dat1 V c).after 5 t) from by
                unfold Dat.leavesExact; rw [liveAt1_5 t ((hcond1_3 t).mpr h7)], after1_5]
          unfold outAt1
          rw [lgAt1_add V c t h3]
          rw [accAt1_next V c t h4]
          iintro ⟨HΦ, Ho, ⟨%d0, H0⟩, ⟨%d1, H1⟩, ⟨%d2, H2⟩, ⟨%d3, H3⟩, ⟨%d4, H4⟩, ⟨%d5, H5⟩⟩
          icases HΦ with ⟨⟨⟨HA, HL⟩, HR⟩, Hg⟩
          iapply (run1_rowLast c Set.univ (grid1.coords t) _ _ _ _ _ _ _ _ _ _ _ _ _ _ _ _ (fun h => h0 ((hcond1_0 t).mp h)) (fun h => h4 ((hcond1_1 t).mp h)) ((hcond1_2 t).mpr h3) ((hcond1_3 t).mpr h7) (iblk1 V c 0 t) (iblk1 V c 1 t) (iblk1 V c 2 t) (iblk1 V c 3 t) (iblk1 V c 4 t) _ _ _ _)
          isplitl [H0]; · iexact H0
          isplitl [H1]; · iexact H1
          isplitl [H2]; · iexact H2
          isplitl [H3]; · iexact H3
          isplitl [H4]; · iexact H4
          isplitl [H5]; · iexact H5
          isplitl [HA]; · iexact HA
          isplitl [HL]; · iexact HL
          iintro ⟨H0, H1, H2, H3, H4, H5, HA, HL⟩
          isplitl [HA HL HR Hg]
          · isplitl [HA HL HR]
            · isplitl [HA HL]
              · isplitl [HA]; · iexact HA
                iexact HL
              iexact HR
            iexact Hg
          isplitl [Ho]; · iexact Ho
          isplitl [H0]; · iexact H0
          isplitl [H1]; · iexact H1
          isplitl [H2]; · iexact H2
          isplitl [H3]; · iexact H3
          isplitl [H4]; · iexact H4
          iexact H5
        · rw [show (dat1 V c).leavesExact 0 t = owns (c : Thread nD τ) (st1_0 t) fullShare ((dat1 V c).after 0 t) from by
                unfold Dat.leavesExact; rw [liveAt1_0 t], after1_0]
          rw [show (dat1 V c).leavesExact 1 t = owns (c : Thread nD τ) (st1_1 t) fullShare ((dat1 V c).after 1 t) from by
                unfold Dat.leavesExact; rw [liveAt1_1 t], after1_1]
          rw [show (dat1 V c).leavesExact 2 t = owns (c : Thread nD τ) (st1_2 t) fullShare ((dat1 V c).after 2 t) from by
                unfold Dat.leavesExact; rw [liveAt1_2 t], after1_2]
          rw [show (dat1 V c).leavesExact 3 t = owns (c : Thread nD τ) (st1_3 t) fullShare ((dat1 V c).after 3 t) from by
                unfold Dat.leavesExact; rw [liveAt1_3 t], after1_3]
          rw [show (dat1 V c).leavesExact 4 t = owns (c : Thread nD τ) (st1_4 t) fullShare ((dat1 V c).after 4 t) from by
                unfold Dat.leavesExact; rw [liveAt1_4 t], after1_4]
          rw [Dat.leavesExact_idle (dat1 V c) 5 t (idleAt1_5 t (fun h => h7 ((hcond1_3 t).mp h))) (noFlush1_5 t (fun h => h7 ((hcond1_3 t).mp h)))]
          rw [lgAt1_add V c t h3]
          rw [accAt1_next V c t h4]
          iintro ⟨HΦ, Ho, ⟨%d0, H0⟩, ⟨%d1, H1⟩, ⟨%d2, H2⟩, ⟨%d3, H3⟩, ⟨%d4, H4⟩, ⟨%d5, H5⟩⟩
          icases HΦ with ⟨⟨⟨HA, HL⟩, HR⟩, Hg⟩
          iapply (run1_last c Set.univ (grid1.coords t) _ _ _ _ _ _ _ _ _ _ _ _ _ _ _ _ (fun h => h0 ((hcond1_0 t).mp h)) (fun h => h4 ((hcond1_1 t).mp h)) ((hcond1_2 t).mpr h3) (fun h => h7 ((hcond1_3 t).mp h)) (iblk1 V c 0 t) (iblk1 V c 1 t) (iblk1 V c 2 t) (iblk1 V c 3 t) (iblk1 V c 4 t) _ _ _ _)
          isplitl [H0]; · iexact H0
          isplitl [H1]; · iexact H1
          isplitl [H2]; · iexact H2
          isplitl [H3]; · iexact H3
          isplitl [H4]; · iexact H4
          isplitl [H5]; · iexact H5
          isplitl [HA]; · iexact HA
          isplitl [HL]; · iexact HL
          iintro ⟨H0, H1, H2, H3, H4, H5, HA, HL⟩
          isplitl [HA HL HR Hg]
          · isplitl [HA HL HR]
            · isplitl [HA HL]
              · isplitl [HA]; · iexact HA
                iexact HL
              iexact HR
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
      · have h7 : ¬t.val % 8 = 7 := by omega
        rw [show (dat1 V c).leavesExact 0 t = owns (c : Thread nD τ) (st1_0 t) fullShare ((dat1 V c).after 0 t) from by
              unfold Dat.leavesExact; rw [liveAt1_0 t], after1_0]
        rw [show (dat1 V c).leavesExact 1 t = owns (c : Thread nD τ) (st1_1 t) fullShare ((dat1 V c).after 1 t) from by
              unfold Dat.leavesExact; rw [liveAt1_1 t], after1_1]
        rw [show (dat1 V c).leavesExact 2 t = owns (c : Thread nD τ) (st1_2 t) fullShare ((dat1 V c).after 2 t) from by
              unfold Dat.leavesExact; rw [liveAt1_2 t], after1_2]
        rw [show (dat1 V c).leavesExact 3 t = owns (c : Thread nD τ) (st1_3 t) fullShare ((dat1 V c).after 3 t) from by
              unfold Dat.leavesExact; rw [liveAt1_3 t], after1_3]
        rw [show (dat1 V c).leavesExact 4 t = owns (c : Thread nD τ) (st1_4 t) fullShare ((dat1 V c).after 4 t) from by
              unfold Dat.leavesExact; rw [liveAt1_4 t], after1_4]
        rw [Dat.leavesExact_idle (dat1 V c) 5 t (idleAt1_5 t (fun h => h7 ((hcond1_3 t).mp h))) (noFlush1_5 t (fun h => h7 ((hcond1_3 t).mp h)))]
        rw [lgAt1_keep V c t h0 h3]
        rw [accAt1_next V c t h4]
        iintro ⟨HΦ, Ho, ⟨%d0, H0⟩, ⟨%d1, H1⟩, ⟨%d2, H2⟩, ⟨%d3, H3⟩, ⟨%d4, H4⟩, ⟨%d5, H5⟩⟩
        icases HΦ with ⟨⟨⟨HA, HL⟩, HR⟩, Hg⟩
        iapply (run1_mid c Set.univ (grid1.coords t) _ _ _ _ _ _ _ _ _ _ _ _ _ _ _ _ (fun h => h0 ((hcond1_0 t).mp h)) (fun h => h4 ((hcond1_1 t).mp h)) (fun h => h3 ((hcond1_2 t).mp h)) (fun h => h7 ((hcond1_3 t).mp h)) (iblk1 V c 0 t) (iblk1 V c 1 t) (iblk1 V c 2 t) (iblk1 V c 3 t) (iblk1 V c 4 t) _ _ _ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HL]; · iexact HL
        iintro ⟨H0, H1, H2, H3, H4, H5, HA, HL⟩
        isplitl [HA HL HR Hg]
        · isplitl [HA HL HR]
          · isplitl [HA HL]
            · isplitl [HA]; · iexact HA
              iexact HL
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c :=
  (show (dat1 V c).Φ (Fin.last cfg1.N) ⊢ _ from PhiS1_any V c (Fin.last cfg1.N).val (Nat.le_of_lt_succ (Fin.last cfg1.N).isLt)).trans (PhiA1_back c)

end Region1

end Cert.Kernel.Hand

end
-- ==== Proof.Kernel.Data0.lean ====
/-
  The first kernel's launch, point by point: what each window's buffer and the accumulator hold after every
  grid point, and that the body at every point takes the one to the other.

  The grid's 16 points are numbered row-major, the contraction block last: point t has contraction block
  t % 4.  The accumulator after point t is the sum of the block products of the points of t's run of four up
  to t; the output block stored at the run's last point is the rectified, biased accumulator.
-/
import proofs.«136834_j65481071406559_2_alg».proof.Proof.Kernel.Body0
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The branch conditions, decided over the grid -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off a last contraction block nothing is stored into the output block, -/
theorem idleAt0_4 : ∀ t : Fin cfg0.N, ¬cond0_1 (grid0.coords t) → cfg0.idle 4 (grid0.coords t) = true := by decide +kernel
/-- and it is not written back there; -/
theorem noFlush0_4 : ∀ t : Fin cfg0.N, ¬cond0_1 (grid0.coords t) → (cfg0.win 4).flush t = false := by decide +kernel
/-- at a last contraction block it is stored. -/
theorem liveAt0_4 : ∀ t : Fin cfg0.N, cond0_1 (grid0.coords t) → cfg0.idle 4 (grid0.coords t) = false := by decide +kernel

/-! ## The accumulator and the output block after each point -/

/-- The accumulator after point `n`: the block product of the point added to zero at a first contraction
    block, to the accumulator of the point before otherwise. -/
def accAt0 (c : Dev nD) : (n : ℕ) → n < cfg0.N → Vec F S2048x2048 .f32
  | 0, hn => k0_pay3 (iblk0 V c 0 ⟨0, hn⟩) (iblk0 V c 1 ⟨0, hn⟩) (k0_pay2 (F := F)) (iblk0 V c 2 ⟨0, hn⟩)
  | n + 1, hn =>
    if (n + 1) % 4 = 0 then
      k0_pay3 (iblk0 V c 0 ⟨n + 1, hn⟩) (iblk0 V c 1 ⟨n + 1, hn⟩) (k0_pay2 (F := F)) (iblk0 V c 2 ⟨n + 1, hn⟩)
    else
      k0_pay3 (iblk0 V c 0 ⟨n + 1, hn⟩) (iblk0 V c 1 ⟨n + 1, hn⟩) (accAt0 c n (Nat.lt_of_succ_lt hn)) (iblk0 V c 2 ⟨n + 1, hn⟩)

theorem accAt0_first (c : Dev nD) (t : Fin cfg0.N) (h : t.val % 4 = 0) :
    accAt0 V c t.val t.isLt = k0_pay3 (iblk0 V c 0 t) (iblk0 V c 1 t) (k0_pay2 (F := F)) (iblk0 V c 2 t) := by
  obtain ⟨n, hn⟩ := t
  cases n with
  | zero => rfl
  | succ n => exact if_pos h

theorem accAt0_next (c : Dev nD) (t : Fin cfg0.N) (h : ¬t.val % 4 = 0) :
    accAt0 V c t.val t.isLt = k0_pay3 (iblk0 V c 0 t) (iblk0 V c 1 t)
      (accAt0 V c (t.val - 1) (Nat.lt_of_le_of_lt (Nat.sub_le _ _) t.isLt)) (iblk0 V c 2 t) := by
  obtain ⟨n, hn⟩ := t
  cases n with
  | zero => exact absurd (Nat.zero_mod _) h
  | succ n => exact if_neg h

/-- The output block a point of a last contraction block stores. -/
def outAt0 (c : Dev nD) (t : Fin cfg0.N) : Vec F S2048x2048 .bf16 :=
  k0_pay1 (accAt0 V c t.val t.isLt) (iblk0 V c 3 t)

/-! ## The invariant: the accumulator between points -/

/-- The accumulator's buffer. -/
abbrev scM0 : Memref sig .tc .vmem S2048x2048 .f32 := Memref.whole cc0_scratch0

/-- The core's other scoped buffers (the second kernel's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]
  first | done | (simp only [scM0, owns_whole]; try rfl)

/-- Before point `n`: at the first point every scoped buffer at anything; afterwards the accumulator at what
    the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 c) ∗ (∃ r, prngReg c r))

theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 c) ∗ (∃ r, prngReg c r)) := by
  cases n with
  | zero => exact absurd rfl hz
  | succ n => rfl

/-- At any point the accumulator's buffer is held at some contents. -/
theorem PhiS0_any (c : Dev nD) (n : ℕ) (h : n ≤ cfg0.N) :
    PhiS0 V c n h ⊢ iprop(iprop((∃ d, owns (c : Thread nD τ) scM0 fullShare d) ∗ rest0 c) ∗ (∃ r, prngReg c r)) := by
  cases n with
  | zero => rw [show PhiS0 V c 0 h = Pipeline.ΦA spec0 c from rfl, PhiA0_eq]
  | succ n =>
    rw [show PhiS0 V c (n + 1) h = iprop(iprop(owns (c : Thread nD τ) scM0 fullShare (accAt0 V c n h) ∗ rest0 c) ∗ (∃ r, prngReg c r)) from rfl]
    iintro ⟨⟨HS, HR⟩, Hg⟩
    isplitl [HS HR]
    · isplitl [HS]; · iexists _; iexact HS
      iexact HR
    iexact Hg

/-! ## The proof data -/

/-- The proof data of the first kernel's pipeline on core `c`: the arrays as the kernel finds them; after the
    body at point `t` each input's buffer at its block and the output's at `outAt0`; the two windows on the data
    matrix hold a half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point's contraction block says which of
    the three triples applies; the invariant hands the body the accumulator at what the point before left (at
    anything where it is zeroed first) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = iprop(iprop(owns (c : Thread nD τ) scM0 fullShare (accAt0 V c t.val t.isLt) ∗ rest0 c) ∗ (∃ r, prngReg c r)) from rfl]
  rw [PhiS0_castSucc]
  have hN : t.val < 16 := lt_of_lt_of_eq t.isLt (show cfg0.N = 16 from N_0)
  by_cases h0 : t.val % 4 = 0
  · have h3 : ¬t.val % 4 = 3 := by omega
    rw [show (dat0 V c).leavesExact 0 t = owns (c : Thread nD τ) (st0_0 t) fullShare ((dat0 V c).after 0 t) from by
          unfold Dat.leavesExact; rw [liveAt0_0 t], after0_0]
    rw [show (dat0 V c).leavesExact 1 t = owns (c : Thread nD τ) (st0_1 t) fullShare ((dat0 V c).after 1 t) from by
          unfold Dat.leavesExact; rw [liveAt0_1 t], after0_1]
    rw [show (dat0 V c).leavesExact 2 t = owns (c : Thread nD τ) (st0_2 t) fullShare ((dat0 V c).after 2 t) from by
          unfold Dat.leavesExact; rw [liveAt0_2 t], after0_2]
    rw [show (dat0 V c).leavesExact 3 t = owns (c : Thread nD τ) (st0_3 t) fullShare ((dat0 V c).after 3 t) from by
          unfold Dat.leavesExact; rw [liveAt0_3 t], after0_3]
    rw [Dat.leavesExact_idle (dat0 V c) 4 t (idleAt0_4 t (fun h => h3 ((hcond0_1 t).mp h))) (noFlush0_4 t (fun h => h3 ((hcond0_1 t).mp h)))]
    rw [accAt0_first V c t h0]
    iintro ⟨HΦ, Ho, ⟨%d0, H0⟩, ⟨%d1, H1⟩, ⟨%d2, H2⟩, ⟨%d3, H3⟩, ⟨%d4, H4⟩⟩
    ihave HΦ' := (PhiS0_any V c t.val (Nat.le_of_lt t.isLt)) $$ HΦ
    icases HΦ' with ⟨⟨⟨%xs, HS⟩, HR⟩, Hg⟩
    iapply (run0_first c Set.univ (grid0.coords t) _ _ _ _ _ _ _ _ _ _ _ _ ((hcond0_0 t).mpr h0) (fun h => h3 ((hcond0_1 t).mp h)) (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [PhiS0_pos V c _ _ hz]
    by_cases h3 : t.val % 4 = 3
    · rw [show (dat0 V c).leavesExact 0 t = owns (c : Thread nD τ) (st0_0 t) fullShare ((dat0 V c).after 0 t) from by
            unfold Dat.leavesExact; rw [liveAt0_0 t], after0_0]
      rw [show (dat0 V c).leavesExact 1 t = owns (c : Thread nD τ) (st0_1 t) fullShare ((dat0 V c).after 1 t) from by
            unfold Dat.leavesExact; rw [liveAt0_1 t], after0_1]
      rw [show (dat0 V c).leavesExact 2 t = owns (c : Thread nD τ) (st0_2 t) fullShare ((dat0 V c).after 2 t) from by
            unfold Dat.leavesExact; rw [liveAt0_2 t], after0_2]
      rw [show (dat0 V c).leavesExact 3 t = owns (c : Thread nD τ) (st0_3 t) fullShare ((dat0 V c).after 3 t) from by
            unfold Dat.leavesExact; rw [liveAt0_3 t], after0_3]
      rw [show (dat0 V c).leavesExact 4 t = owns (c : Thread nD τ) (st0_4 t) fullShare ((dat0 V c).after 4 t) from by
            unfold Dat.leavesExact; rw [liveAt0_4 t ((hcond0_1 t).mpr h3)], after0_4]
      unfold outAt0
      rw [accAt0_next V c t h0]
      iintro ⟨HΦ, Ho, ⟨%d0, H0⟩, ⟨%d1, H1⟩, ⟨%d2, H2⟩, ⟨%d3, H3⟩, ⟨%d4, H4⟩⟩
      icases HΦ with ⟨⟨HS, HR⟩, Hg⟩
      iapply (run0_last c Set.univ (grid0.coords t) _ _ _ _ _ _ _ _ _ _ _ _ (fun h => h0 ((hcond0_0 t).mp h)) ((hcond0_1 t).mpr h3) (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [show (dat0 V c).leavesExact 0 t = owns (c : Thread nD τ) (st0_0 t) fullShare ((dat0 V c).after 0 t) from by
            unfold Dat.leavesExact; rw [liveAt0_0 t], after0_0]
      rw [show (dat0 V c).leavesExact 1 t = owns (c : Thread nD τ) (st0_1 t) fullShare ((dat0 V c).after 1 t) from by
            unfold Dat.leavesExact; rw [liveAt0_1 t], after0_1]
      rw [show (dat0 V c).leavesExact 2 t = owns (c : Thread nD τ) (st0_2 t) fullShare ((dat0 V c).after 2 t) from by
            unfold Dat.leavesExact; rw [liveAt0_2 t], after0_2]
      rw [show (dat0 V c).leavesExact 3 t = owns (c : Thread nD τ) (st0_3 t) fullShare ((dat0 V c).after 3 t) from by
            unfold Dat.leavesExact; rw [liveAt0_3 t], after0_3]
      rw [Dat.leavesExact_idle (dat0 V c) 4 t (idleAt0_4 t (fun h => h3 ((hcond0_1 t).mp h))) (noFlush0_4 t (fun h => h3 ((hcond0_1 t).mp h)))]
      rw [accAt0_next V c t h0]
      iintro ⟨HΦ, Ho, ⟨%d0, H0⟩, ⟨%d1, H1⟩, ⟨%d2, H2⟩, ⟨%d3, H3⟩, ⟨%d4, H4⟩⟩
      icases HΦ with ⟨⟨HS, HR⟩, Hg⟩
      iapply (run0_mid c Set.univ (grid0.coords t) _ _ _ _ _ _ _ _ _ _ _ _ (fun h => h0 ((hcond0_0 t).mp h)) (fun h => h3 ((hcond0_1 t).mp h)) (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [PhiA0_eq, show (dat0 V c).Φ (Fin.last cfg0.N) = PhiS0 V c (Fin.last cfg0.N).val (Nat.le_of_lt_succ (Fin.last cfg0.N).isLt) from rfl]
  exact PhiS0_any V c _ _

end Region0

end Cert.Kernel.Hand

end
-- ==== Proof.Kernel.Frame.lean ====
/-
  The whole program's run: the host stretch that recasts the weights and reshapes the biases, then the two
  kernels' launches one after the other, with what every buffer outside the kernels' scratch holds between
  them; at the end the arguments are as launched and the result holds what the second launch's write-backs
  left.

  The first kernel reads the data matrix through two windows (row blocks of 2048 and of 1024): the two hold
  a half of the array each while it runs.
-/
import proofs.«136834_j65481071406559_2_alg».proof.Proof.Kernel.Data1
import proofs.«136834_j65481071406559_2_alg».proof.Proof.Kernel.Data0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's three items -/

/-- At launch. -/
abbrev W0 : Dev nD → Valuation τ sig (Elt F) := fun c b => (s₀ m ρ).mem ((c : Dev nD), b)
/-- After the host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its output array at what the write-backs leave. -/
def W2 (c : Dev nD) : Valuation τ sig (Elt F) :=
  Function.update (W1 m ρ c) main_v5 ((dat0 (V1 m ρ) c).arrAt 4 cfg0.N : Buf (Elt F) ((c : Thread nD τ).loc main_v5))
abbrev V2 : (c : Dev nD) → (b : Ref sig .tc) → Buf (Elt F) ((c : Thread nD τ).loc b) := fun c b => W2 m ρ c b
/-- After the second kernel: its output array at what the write-backs leave. -/
def W3 (c : Dev nD) : Valuation τ sig (Elt F) :=
  Function.update (W2 m ρ c) main_v6 ((dat1 (V2 m ρ) c).arrAt 5 cfg1.N : Buf (Elt F) ((c : Thread nD τ).loc main_v6))
abbrev V3 : (c : Dev nD) → (b : Ref sig .tc) → Buf (Elt F) ((c : Thread nD τ).loc b) := fun c b => W3 m ρ c b

theorem W2_v5 (c : Dev nD) : W2 m ρ c main_v5 = (dat0 (V1 m ρ) c).arrAt 4 cfg0.N := by
  unfold W2; exact Function.update_self _ _ _
theorem W2_of_ne (c : Dev nD) (b : Ref sig .tc) (hb : b ≠ main_v5) : W2 m ρ c b = W1 m ρ c b := by
  unfold W2; exact Function.update_of_ne (StableHlo.devRef_ne_of_ne hb) _ _
theorem W3_v6 (c : Dev nD) : W3 m ρ c main_v6 = (dat1 (V2 m ρ) c).arrAt 5 cfg1.N := by
  unfold W3; exact Function.update_self _ _ _
theorem W3_of_ne (c : Dev nD) (b : Ref sig .tc) (hb : b ≠ main_v6) : W3 m ρ c b = W2 m ρ c b := by
  unfold W3; exact Function.update_of_ne (StableHlo.devRef_ne_of_ne hb) _ _

/-- No host operation writes an argument. -/
theorem W1_of_arg (c : Dev nD) (b : Ref sig .tc) (hb : b ∉ ([main_v0, main_v1, main_v2, main_v3, main_v4] : List (Ref sig .tc))) :
    W1 m ρ c b = W0 m ρ c b :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-! ## The first kernel's arrays among the unscoped buffers -/

section Arrays0

variable (V : (c : Dev nD) → (b : Ref sig .tc) → Buf (Elt F) ((c : Thread nD τ).loc b))

/-- The distinct buffers behind the first kernel's windows. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)
          ∗ (((c : Thread nD τ).loc main_v2) ↦{fullShare} X main_v2) ∗ (((c : Thread nD τ).loc main_v5) ↦{fullShare} X main_v5)) := by
  unfold Pipeline.arrBufs
  exact bigSep_eq_bigSepL_of_eq [main_arg0, main_v0, main_v2, main_v5] (by decide) (by decide) _

/-- The first kernel's windowed arrays, one by one: the data matrix twice, at a half each. -/
theorem arrays0_eq (c : Dev nD) (G : (w : Fin cfg0.W) → Buf (Elt F) ((cfg0.win w).arr.view.loc (c : Thread nD τ))) :
    (dat0 V c).arrays G
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v2) ↦{fullShare} G 3) ∗ (((c : Thread nD τ).loc main_v5) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

end Arrays0

/-- ENTRY of the first kernel: the unscoped buffers after the host stretch are its arrays at their entry
    contents, the data matrix split between its two windows, and the rest. -/
theorem hsplit0 (c : Dev nD) :
    StableHlo.held (c : Thread nD τ) (Pipeline.ucRefs τ sig) (W1 m ρ c)
      ⊢ (iprop((dat0 (V1 m ρ) c).arrays ((dat0 (V1 m ρ) c).arrAt · 0)
          ∗ Pipeline.unscopedRest (Ix := Unit) (Name := ℕ) (U := UR sig nD τ) (Lvl := ℕ) spec0 c (V1 m ρ c)) : sProp 𝕄) := by
  rw [← Pipeline.unscopedBufs_held (Ix := Unit) (Name := ℕ) (U := UR sig nD τ) (Lvl := ℕ) c (W1 m ρ c),
    Pipeline.unscopedBufs_split₀ cfgs 0 winFacts₀0.arr_unscoped c]
  show (iprop(Pipeline.arrBufs spec0 c (V1 m ρ c) ∗ Pipeline.unscopedRest spec0 c (V1 m ρ c)) : sProp 𝕄) ⊢ _
  rw [arrBufs0_eq, arrays0_eq]
  iintro ⟨⟨Ha, Hb, Hc, Hd⟩, Hrest⟩
  ihave Ha' := (pointsTo_share (PosShare.mem_left_op_right fullShare)).1 $$ Ha
  icases Ha' with ⟨Ha1, Ha2⟩
  isplitr [Hrest]
  · isplitl [Ha1]; · iexact Ha1
    isplitl [Ha2]; · iexact Ha2
    isplitl [Hb]; · iexact Hb
    isplitl [Hc]; · iexact Hc
    iexact Hd
  iexact Hrest

/-- EXIT of the first kernel: its arrays after the write-backs — the two halves of the data matrix joined —
    and the rest are the unscoped buffers at the contents after it. -/
theorem hjoin0 (c : Dev nD) :
    (iprop((dat0 (V1 m ρ) c).arrays ((dat0 (V1 m ρ) c).arrAt · cfg0.N)
        ∗ Pipeline.unscopedRest (Ix := Unit) (Name := ℕ) (U := UR sig nD τ) (Lvl := ℕ) spec0 c (V1 m ρ c)) : sProp 𝕄)
      ⊢ StableHlo.held (c : Thread nD τ) (Pipeline.ucRefs τ sig) (W2 m ρ c) := by
  rw [← Pipeline.unscopedBufs_held (Ix := Unit) (Name := ℕ) (U := UR sig nD τ) (Lvl := ℕ) c (W2 m ρ c),
    Pipeline.unscopedBufs_split₀ cfgs 0 winFacts₀0.arr_unscoped c]
  show _ ⊢ (iprop(Pipeline.arrBufs spec0 c (V2 m ρ c) ∗ Pipeline.unscopedRest spec0 c (V2 m ρ c)) : sProp 𝕄)
  rw [arrBufs0_eq, arrays0_eq, unscopedRest0_eq, unscopedRest0_eq]
  have e0 : (dat0 (V1 m ρ) c).arrAt 0 cfg0.N = V2 m ρ c main_arg0 :=
    ((dat0 (V1 m ρ) c).arrAt_in 0 rfl _).trans ((A_eq0 (V1 m ρ) c 0).trans (W2_of_ne m ρ c main_arg0 (by decide)).symm)
  have e1 : (dat0 (V1 m ρ) c).arrAt 1 cfg0.N = V2 m ρ c main_arg0 :=
    ((dat0 (V1 m ρ) c).arrAt_in 1 rfl _).trans ((A_eq0 (V1 m ρ) c 1).trans (W2_of_ne m ρ c main_arg0 (by decide)).symm)
  have e2 : (dat0 (V1 m ρ) c).arrAt 2 cfg0.N = V2 m ρ c main_v0 :=
    ((dat0 (V1 m ρ) c).arrAt_in 2 rfl _).trans ((A_eq0 (V1 m ρ) c 2).trans (W2_of_ne m ρ c main_v0 (by decide)).symm)
  have e3 : (dat0 (V1 m ρ) c).arrAt 3 cfg0.N = V2 m ρ c main_v2 :=
    ((dat0 (V1 m ρ) c).arrAt_in 3 rfl _).trans ((A_eq0 (V1 m ρ) c 3).trans (W2_of_ne m ρ c main_v2 (by decide)).symm)
  have e4 : (dat0 (V1 m ρ) c).arrAt 4 cfg0.N = V2 m ρ c main_v5 := (W2_v5 m ρ c).symm
  rw [e0, e1, e2, e3, e4]
  rw [show V2 m ρ c main_arg1 = V1 m ρ c main_arg1 from W2_of_ne m ρ c main_arg1 (by decide),
    show V2 m ρ c main_arg2 = V1 m ρ c main_arg2 from W2_of_ne m ρ c main_arg2 (by decide),
    show V2 m ρ c main_arg3 = V1 m ρ c main_arg3 from W2_of_ne m ρ c main_arg3 (by decide),
    show V2 m ρ c main_arg4 = V1 m ρ c main_arg4 from W2_of_ne m ρ c main_arg4 (by decide),
    show V2 m ρ c main_arg5 = V1 m ρ c main_arg5 from W2_of_ne m ρ c main_arg5 (by decide),
    show V2 m ρ c main_arg6 = V1 m ρ c main_arg6 from W2_of_ne m ρ c main_arg6 (by decide),
    show V2 m ρ c main_v1 = V1 m ρ c main_v1 from W2_of_ne m ρ c main_v1 (by decide),
    show V2 m ρ c main_v3 = V1 m ρ c main_v3 from W2_of_ne m ρ c main_v3 (by decide),
    show V2 m ρ c main_v4 = V1 m ρ c main_v4 from W2_of_ne m ρ c main_v4 (by decide),
    show V2 m ρ c main_v6 = V1 m ρ c main_v6 from W2_of_ne m ρ c main_v6 (by decide)]
  iintro ⟨⟨Ha1, Ha2, Hb, Hc, Hd⟩, Hrest⟩
  ihave Ha := ((pointsTo_share (PosShare.mem_left_op_right fullShare)).2) $$ [Ha1 Ha2]
  · isplitl [Ha1]; · iexact Ha1
    iexact Ha2
  isplitr [Hrest]
  · isplitl [Ha]; · iexact Ha
    isplitl [Hb]; · iexact Hb
    isplitl [Hc]; · iexact Hc
    iexact Hd
  iexact Hrest

/-! ## The proof data family and the thread state -/

/-- No kernel has a prefetched table. -/
abbrev adm : (p : Fin 2) → (pcfgs (F := F) p).Adm := fun p => (cfgs p).toPCfg_adm
/-- Each kernel's proof data at the contents its launch finds. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- The last thread state without the `owes`. -/
abbrev Tₙ (c : Dev nD) : sProp 𝕄 := iprop(StableHlo.held (c : Thread nD τ) (Pipeline.ucRefs τ sig) (W3 m ρ c) ∗ ∃ r, prngReg c r)

/-! ## The kernels as segments -/

theorem hF1 (c : Dev nD) (w : Fin cfg1.W) : (dat1 (V2 m ρ) c).arrAt w cfg1.N = V3 m ρ c (Pipeline.arrRef spec1 w) := by
  fin_cases w
  · exact ((dat1 (V2 m ρ) c).arrAt_in 0 rfl _).trans ((A_eq1 (V2 m ρ) c 0).trans (W3_of_ne m ρ c _ (by decide)).symm)
  · exact ((dat1 (V2 m ρ) c).arrAt_in 1 rfl _).trans ((A_eq1 (V2 m ρ) c 1).trans (W3_of_ne m ρ c _ (by decide)).symm)
  · exact ((dat1 (V2 m ρ) c).arrAt_in 2 rfl _).trans ((A_eq1 (V2 m ρ) c 2).trans (W3_of_ne m ρ c _ (by decide)).symm)
  · exact ((dat1 (V2 m ρ) c).arrAt_in 3 rfl _).trans ((A_eq1 (V2 m ρ) c 3).trans (W3_of_ne m ρ c _ (by decide)).symm)
  · exact ((dat1 (V2 m ρ) c).arrAt_in 4 rfl _).trans ((A_eq1 (V2 m ρ) c 4).trans (W3_of_ne m ρ c _ (by decide)).symm)
  · exact (W3_v6 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)

set_option backward.isDefEq.respectTransparency.types false in
/-- The first kernel over the thread state: entered from the contents after the host stretch, left with its
    output array at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    iintro ⟨⟨Hub, Hp, HO⟩, -, -⟩
    have hs : StableHlo.held (c : Thread nD τ) (Pipeline.ucRefs τ sig) (W1 m ρ c)
        ⊢ (iprop((pdats m ρ 0 c).arrays ((pdats m ρ 0 c).arrAt · 0)
            ∗ Pipeline.unscopedRest (Ix := Unit) (Name := ℕ) (U := UR sig nD τ) (Lvl := ℕ) spec0 c (V1 m ρ c)) : sProp 𝕄) := hsplit0 m ρ c
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hj : (iprop((pdats m ρ 0 c).arrays ((pdats m ρ 0 c).arrAt · cfg0.N)
            ∗ Pipeline.unscopedRest (Ix := Unit) (Name := ℕ) (U := UR sig nD τ) (Lvl := ℕ) spec0 c (V1 m ρ c)) : sProp 𝕄)
          ⊢ StableHlo.held (c : Thread nD τ) (Pipeline.ucRefs τ sig) (W2 m ρ c) := hjoin0 m ρ c
      iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from the contents after the first, left with its output
    array at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg0 m ρ), .region (reg0 m ρ), .region (reg1 m ρ) ]

theorem main_run (c : Dev nD) : main (F := F) c = Pipeline.Seg.run (segs m ρ) := (main_chain c).trans (by chain_rfl)

theorem W3_main_arg0 (c : Dev nD) : W3 m ρ c main_arg0 = m ((c : Thread nD τ).loc main_arg0) :=
  (W3_of_ne m ρ c main_arg0 (by decide)).trans ((W2_of_ne m ρ c main_arg0 (by decide)).trans ((W1_of_arg m ρ c main_arg0 (by decide)).trans rfl))
theorem W3_main_arg1 (c : Dev nD) : W3 m ρ c main_arg1 = m ((c : Thread nD τ).loc main_arg1) :=
  (W3_of_ne m ρ c main_arg1 (by decide)).trans ((W2_of_ne m ρ c main_arg1 (by decide)).trans ((W1_of_arg m ρ c main_arg1 (by decide)).trans rfl))
theorem W3_main_arg2 (c : Dev nD) : W3 m ρ c main_arg2 = m ((c : Thread nD τ).loc main_arg2) :=
  (W3_of_ne m ρ c main_arg2 (by decide)).trans ((W2_of_ne m ρ c main_arg2 (by decide)).trans ((W1_of_arg m ρ c main_arg2 (by decide)).trans rfl))
theorem W3_main_arg3 (c : Dev nD) : W3 m ρ c main_arg3 = m ((c : Thread nD τ).loc main_arg3) :=
  (W3_of_ne m ρ c main_arg3 (by decide)).trans ((W2_of_ne m ρ c main_arg3 (by decide)).trans ((W1_of_arg m ρ c main_arg3 (by decide)).trans rfl))
theorem W3_main_arg4 (c : Dev nD) : W3 m ρ c main_arg4 = m ((c : Thread nD τ).loc main_arg4) :=
  (W3_of_ne m ρ c main_arg4 (by decide)).trans ((W2_of_ne m ρ c main_arg4 (by decide)).trans ((W1_of_arg m ρ c main_arg4 (by decide)).trans rfl))
theorem W3_main_arg5 (c : Dev nD) : W3 m ρ c main_arg5 = m ((c : Thread nD τ).loc main_arg5) :=
  (W3_of_ne m ρ c main_arg5 (by decide)).trans ((W2_of_ne m ρ c main_arg5 (by decide)).trans ((W1_of_arg m ρ c main_arg5 (by decide)).trans rfl))
theorem W3_main_arg6 (c : Dev nD) : W3 m ρ c main_arg6 = m ((c : Thread nD τ).loc main_arg6) :=
  (W3_of_ne m ρ c main_arg6 (by decide)).trans ((W2_of_ne m ρ c main_arg6 (by decide)).trans ((W1_of_arg m ρ c main_arg6 (by decide)).trans rfl))

set_option backward.isDefEq.respectTransparency.types false in
/-- THE RUN: every weakly fair execution of the program terminates, nothing faulting; the result array ends at
    what the second kernel's write-backs leave and every argument array as launched. -/
theorem run : θ_run defs (onTc (τ := τ) (main (F := F))) ⟨m, fun _ => 0, ρ⟩ (fun r => ∀ c : Dev nD,
      r.2.mem ((c.tc : Thread nD τ).loc main_v6) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_v6 m ρ c),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c),
        (h c _ (mem_uc main_arg4 (by decide))).trans (W3_main_arg4 m ρ c),
        (h c _ (mem_uc main_arg5 (by decide))).trans (W3_main_arg5 m ρ c),
        (h c _ (mem_uc main_arg6 (by decide))).trans (W3_main_arg6 m ρ c)⟩)

/-- The frame claim's post from the run's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.Kernel.Hand

end
-- ==== Proof.KernelIdeal.Body0.lean ====
/-
  The first kernel's body at one grid point, as a triple over the contents of its six memrefs.

  The body zeroes the accumulator when the contraction block is the first, adds the block product of the
  point to it, and when the contraction block is the last stores the rectified, biased accumulator as the
  output block.  Every load and store is of a whole buffer, so what a buffer holds afterwards is the
  stored payload itself.
-/
import proofs.«136834_j65481071406559_2_alg».proof.Proof.Gen.KernelIdeal.Skeleton
import proofs.«136834_j65481071406559_2_alg».proof.Proof.Gen.KernelIdeal.Launch
import proofs.«136834_j65481071406559_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contraction block of the point is the first. -/
abbrev cond0_0 (i : grid0.Coords) : Prop :=
  (Scalar.cmpi .ne (Scalar.extui (Scalar.cmpi .eq (BitVec.ofNat 32 (i 2).val) 0#32)) 0#32) = 1#1
/-- The contraction block of the point is the last. -/
abbrev cond0_1 (i : grid0.Coords) : Prop := k0_cond2 i = 1#1

/-- The offsets of every load and store: none. -/
theorem hz2 : (![0, 0] : Fin 2 → ℕ) = fun _ => 0 := by
  funext a; fin_cases a <;> rfl

set_option maxHeartbeats 4000000 in
/-- A first contraction block: the accumulator is zeroed and receives the block product. -/
theorem run0_first (c : Dev nD) (E : Set ℕ) (i : grid0.Coords)
    (arg3 : Memref sig .tc .vmem S2048x64 .f32) (harg3 : arg3.IsWhole) (arg4 : Memref sig .tc .vmem S1024x64 .f32) (harg4 : arg4.IsWhole)
    (arg5 : Memref sig .tc .vmem S2048x1024 .bf16) (harg5 : arg5.IsWhole) (arg6 : Memref sig .tc .vmem S1x2048 .f32) (harg6 : arg6.IsWhole)
    (arg7 : Memref sig .tc .vmem S2048x2048 .bf16) (harg7 : arg7.IsWhole) (arg8 : Memref sig .tc .vmem S2048x2048 .f32) (harg8 : arg8.IsWhole)
    (hc0 : cond0_0 i) (hc1 : ¬cond0_1 i)
    (x0 : Vec F S2048x64 .f32) (x1 : Vec F S1024x64 .f32) (x2 : Vec F S2048x1024 .bf16) (x3 : Vec F S1x2048 .f32)
    (xo : Vec F S2048x2048 .bf16) (xs : Vec F S2048x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k0_pay3 x0 x1 (k0_pay2 (F := F)) x2)) -∗ K ⟨⟩))
      ⊢ wp frame (wpE (defs₀ (F := F)) Variants.none c none) E
          (cc0__fused_rbf_matmul1_kernel i arg3 harg3 arg4 harg4 arg5 harg5 arg6 harg6 arg7 harg7 arg8 harg8) K := by
  simp only [cc0__fused_rbf_matmul1_kernel_eq_skeleton]; unfold cc0__fused_rbf_matmul1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HO]
  · iexists _; isplitr; · ipureintro; exact harg7.read_unread _
    iexact HO
  iexists _; isplitr
  swap; · iexact HS
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  simp only [View.readAt_eq_ld, harg3.read_unread, harg4.read_unread, harg5.read_unread, View.ld_unit_zero (S := S2048x64) hz2, View.ld_unit_zero (S := S1024x64) hz2, View.ld_unit_zero (S := S2048x1024) hz2, View.ld_unit_zero (S := S1x2048) hz2, View.ld_unit_zero (S := S2048x2048) hz2, View.readCov_unit_zero (S := S2048x2048) arg8.view hz2]

set_option maxHeartbeats 4000000 in
/-- A middle contraction block: the accumulator receives the block product, nothing else changes. -/
theorem run0_mid (c : Dev nD) (E : Set ℕ) (i : grid0.Coords)
    (arg3 : Memref sig .tc .vmem S2048x64 .f32) (harg3 : arg3.IsWhole) (arg4 : Memref sig .tc .vmem S1024x64 .f32) (harg4 : arg4.IsWhole)
    (arg5 : Memref sig .tc .vmem S2048x1024 .bf16) (harg5 : arg5.IsWhole) (arg6 : Memref sig .tc .vmem S1x2048 .f32) (harg6 : arg6.IsWhole)
    (arg7 : Memref sig .tc .vmem S2048x2048 .bf16) (harg7 : arg7.IsWhole) (arg8 : Memref sig .tc .vmem S2048x2048 .f32) (harg8 : arg8.IsWhole)
    (hc0 : ¬cond0_0 i) (hc1 : ¬cond0_1 i)
    (x0 : Vec F S2048x64 .f32) (x1 : Vec F S1024x64 .f32) (x2 : Vec F S2048x1024 .bf16) (x3 : Vec F S1x2048 .f32)
    (xo : Vec F S2048x2048 .bf16) (xs : Vec F S2048x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xo
            ∗ owns (c : Thread nD τ) arg8 fullShare (k0_pay3 x0 x1 xs x2)) -∗ K ⟨⟩))
      ⊢ wp frame (wpE (defs₀ (F := F)) Variants.none c none) E
          (cc0__fused_rbf_matmul1_kernel i arg3 harg3 arg4 harg4 arg5 harg5 arg6 harg6 arg7 harg7 arg8 harg8) K := by
  simp only [cc0__fused_rbf_matmul1_kernel_eq_skeleton]; unfold cc0__fused_rbf_matmul1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HO]
  · iexists _; isplitr; · ipureintro; exact harg7.read_unread _
    iexact HO
  iexists _; isplitr
  swap; · iexact HS
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  simp only [View.readAt_eq_ld, harg3.read_unread, harg4.read_unread, harg5.read_unread, harg8.read_unread, View.ld_unit_zero (S := S2048x64) hz2, View.ld_unit_zero (S := S1024x64) hz2, View.ld_unit_zero (S := S2048x1024) hz2, View.ld_unit_zero (S := S1x2048) hz2, View.ld_unit_zero (S := S2048x2048) hz2]

set_option maxHeartbeats 4000000 in
/-- A last contraction block: the accumulator receives the block product, and rectified and biased it is the output block. -/
theorem run0_last (c : Dev nD) (E : Set ℕ) (i : grid0.Coords)
    (arg3 : Memref sig .tc .vmem S2048x64 .f32) (harg3 : arg3.IsWhole) (arg4 : Memref sig .tc .vmem S1024x64 .f32) (harg4 : arg4.IsWhole)
    (arg5 : Memref sig .tc .vmem S2048x1024 .bf16) (harg5 : arg5.IsWhole) (arg6 : Memref sig .tc .vmem S1x2048 .f32) (harg6 : arg6.IsWhole)
    (arg7 : Memref sig .tc .vmem S2048x2048 .bf16) (harg7 : arg7.IsWhole) (arg8 : Memref sig .tc .vmem S2048x2048 .f32) (harg8 : arg8.IsWhole)
    (hc0 : ¬cond0_0 i) (hc1 : cond0_1 i)
    (x0 : Vec F S2048x64 .f32) (x1 : Vec F S1024x64 .f32) (x2 : Vec F S2048x1024 .bf16) (x3 : Vec F S1x2048 .f32)
    (xo : Vec F S2048x2048 .bf16) (xs : Vec F S2048x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xo ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k0_pay1 (k0_pay3 x0 x1 xs x2) x3)
            ∗ owns (c : Thread nD τ) arg8 fullShare (k0_pay3 x0 x1 xs x2)) -∗ K ⟨⟩))
      ⊢ wp frame (wpE (defs₀ (F := F)) Variants.none c none) E
          (cc0__fused_rbf_matmul1_kernel i arg3 harg3 arg4 harg4 arg5 harg5 arg6 harg6 arg7 harg7 arg8 harg8) K := by
  simp only [cc0__fused_rbf_matmul1_kernel_eq_skeleton]; unfold cc0__fused_rbf_matmul1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HO]
  · iexists _; isplitr
    swap; · iexact HO
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    simp only [View.readAt_eq_ld, harg3.read_unread, harg4.read_unread, harg5.read_unread, harg6.read_unread, harg8.read_unread, View.ld_unit_zero (S := S2048x64) hz2, View.ld_unit_zero (S := S1024x64) hz2, View.ld_unit_zero (S := S2048x1024) hz2, View.ld_unit_zero (S := S1x2048) hz2, View.ld_unit_zero (S := S2048x2048) hz2, View.readCov_unit_zero (S := S2048x2048) arg8.view hz2]
  iexists _; isplitr
  swap; · iexact HS
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  simp only [View.readAt_eq_ld, harg3.read_unread, harg4.read_unread, harg5.read_unread, harg8.read_unread, View.ld_unit_zero (S := S2048x64) hz2, View.ld_unit_zero (S := S1024x64) hz2, View.ld_unit_zero (S := S2048x1024) hz2, View.ld_unit_zero (S := S1x2048) hz2, View.ld_unit_zero (S := S2048x2048) hz2]

end Cert.KernelIdeal.Hand

end
-- ==== Proof.KernelIdeal.Body1.lean ====
/-
  The second kernel's body at one grid point, as a triple over the contents of its eight memrefs.

  The body zeroes the head's accumulator at the first point of a row block and the big accumulator when the
  contraction block is the first, adds the block product of the point to the big accumulator, and when the
  contraction block is the last adds the head's product of the rectified, biased big accumulator to the head's
  accumulator; at the last point of a row block the head's accumulator with the head's bias is the output block.
  Every load and store is of a whole buffer.
-/
import proofs.«136834_j65481071406559_2_alg».proof.Proof.KernelIdeal.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is the first of its row block. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The contraction block of the point is the first. -/
abbrev cond1_1 (i : grid1.Coords) : Prop :=
  (Scalar.cmpi .ne (Scalar.extui (Scalar.cmpi .eq (BitVec.ofNat 32 (i 2).val) 0#32)) 0#32) = 1#1
/-- The contraction block of the point is the last. -/
abbrev cond1_2 (i : grid1.Coords) : Prop :=
  (Scalar.cmpi .ne (Scalar.extui (Scalar.cmpi .eq (BitVec.ofNat 32 (i 2).val) 3#32)) 0#32) = 1#1
/-- The point is the last of its row block. -/
abbrev cond1_3 (i : grid1.Coords) : Prop := k1_cond4 i = 1#1

set_option maxHeartbeats 4000000 in
/-- The first point of a row block: both accumulators are zeroed, the big one receives the block product. -/
theorem run1_rowFirst (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : cond1_0 i) (hc1 : cond1_1 i) (hc2 : ¬cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 (k1_pay2 (F := F)) x0 x1)
            ∗ owns (c : Thread nD τ) arg10 fullShare (k1_pay1 (F := F))) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr
  swap; · iexact HL
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]

set_option maxHeartbeats 4000000 in
/-- A first contraction block inside a row block: the big accumulator is zeroed and receives the block product. -/
theorem run1_first (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : cond1_1 i) (hc2 : ¬cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 (k1_pay2 (F := F)) x0 x1)
            ∗ owns (c : Thread nD τ) arg10 fullShare xl) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr; · ipureintro; exact harg10.read_unread _
  iexact HL

set_option maxHeartbeats 4000000 in
/-- A middle contraction block: the big accumulator receives the block product. -/
theorem run1_mid (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : ¬cond1_1 i) (hc2 : ¬cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 xa x0 x1)
            ∗ owns (c : Thread nD τ) arg10 fullShare xl) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr; · ipureintro; exact harg10.read_unread _
  iexact HL

set_option maxHeartbeats 4000000 in
/-- A last contraction block inside a row block: the head's accumulator receives the head's product. -/
theorem run1_last (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : ¬cond1_1 i) (hc2 : cond1_2 i) (hc3 : ¬cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ owns (c : Thread nD τ) arg9 fullShare (k1_pay3 xa x0 x1)
            ∗ owns (c : Thread nD τ) arg10 fullShare (k1_pay4 (k1_pay3 xa x0 x1) x2 x3 xl)) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr
  swap; · iexact HL
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]

set_option maxHeartbeats 4000000 in
/-- The last point of a row block: as at a last contraction block, and the head's accumulator with the head's bias is the output block. -/
theorem run1_rowLast (c : Dev nD) (E : Set ℕ) (i : grid1.Coords)
    (arg3 : Memref sig .tc .vmem S2048x1024 .bf16) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S2x2048 .f32) (harg6 : arg6.IsWhole)
    (arg7 : Memref sig .tc .vmem S1x2 .f32) (harg7 : arg7.IsWhole) (arg8 : Memref sig .tc .vmem S2048x2 .f32) (harg8 : arg8.IsWhole)
    (arg9 : Memref sig .tc .vmem S2048x2048 .f32) (harg9 : arg9.IsWhole) (arg10 : Memref sig .tc .vmem S2048x2 .f32) (harg10 : arg10.IsWhole)
    (hc0 : ¬cond1_0 i) (hc1 : ¬cond1_1 i) (hc2 : cond1_2 i) (hc3 : cond1_3 i)
    (x0 : Vec F S2048x1024 .bf16) (x1 : Vec F S2048x1024 .bf16) (x2 : Vec F S1x2048 .f32) (x3 : Vec F S2x2048 .f32) (x4 : Vec F S1x2 .f32)
    (xo : Vec F S2048x2 .f32) (xa : Vec F S2048x2048 .f32) (xl : Vec F S2048x2 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare xa ∗ owns (c : Thread nD τ) arg10 fullShare xl
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare (k1_pay5 (k1_pay4 (k1_pay3 xa x0 x1) x2 x3 xl) x4)
            ∗ owns (c : Thread nD τ) arg9 fullShare (k1_pay3 xa x0 x1)
            ∗ owns (c : Thread nD τ) arg10 fullShare (k1_pay4 (k1_pay3 xa x0 x1) x2 x3 xl)) -∗ K ⟨⟩))
      ⊢ wp frame (wpE (defs₀ (F := F)) Variants.none c none) E
          (cc1__fused_matmul2_head_kernel i arg3 harg3 arg4 harg4 arg5 harg5 arg6 harg6 arg7 harg7 arg8 harg8 arg9 harg9 arg10 harg10) K := by
  simp only [cc1__fused_matmul2_head_kernel_eq_skeleton]; unfold cc1__fused_matmul2_head_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fa, %hfa, HA⟩, ⟨%fl, %hfl, HL⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfo
  obtain rfl := harg9.eq_unread hfa; obtain rfl := harg10.eq_unread hfl
  sl_exec (disch := first | exact hc0 | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr
    swap; · iexact HO
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  isplitl [HA]
  · iexists _; isplitr
    swap; · iexact HA
    ipureintro
    sl_unfold_run_names
    refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
    rw [View.canon_cons_unit_zero hz2]
    try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]
  iexists _; isplitr
  swap; · iexact HL
  ipureintro
  sl_unfold_run_names
  refine (View.read_writes_eq_canon _ _ _ (fun y => ⟨_, List.mem_cons_self, by first | exact View.mem_set_unit_zero hz2 inb_S2048x2048_S2048x2048_0_0 y | exact View.mem_set_unit_zero hz2 inb_S2048x2_S2048x2_0_0 y⟩)).trans ?_
  rw [View.canon_cons_unit_zero hz2]
  try simp only [View.readAt_eq_ld, harg3.read_unread, harg4.read_unread, harg5.read_unread, harg6.read_unread, harg7.read_unread, harg8.read_unread, harg9.read_unread, harg10.read_unread, View.ld_unit_zero (S := S2048x1024) hz2, View.ld_unit_zero (S := S1x2048) hz2, View.ld_unit_zero (S := S2x2048) hz2, View.ld_unit_zero (S := S1x2) hz2, View.ld_unit_zero (S := S2048x2) hz2, View.ld_unit_zero (S := S2048x2048) hz2, View.readCov_unit_zero (S := S2048x2048) arg9.view hz2, View.readCov_unit_zero (S := S2048x2) arg10.view hz2]

end Cert.KernelIdeal.Hand

end
-- ==== Proof.KernelIdeal.Data1.lean ====
/-
  The second kernel's launch, point by point: what each window's buffer and the two accumulators hold after
  every grid point, and that the body at every point takes the one to the other.

  The grid's 16 points are numbered row-major: point t has row block t / 8, output-feature block (t / 4) % 2
  and contraction block t % 4.  The big accumulator after point t is the sum of the block products of the
  points of t's run of four up to t; the head's accumulator after point t is the sum of the head's products of
  the runs of four completed within t's run of eight; the output block stored at the run of eight's last point
  is the head's accumulator with the head's bias.
-/
import proofs.«136834_j65481071406559_2_alg».proof.Proof.KernelIdeal.Body1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions, decided over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 = 3 :=
  (by decide +kernel : ∀ t : Fin grid1.N, cond1_2 (grid1.coords t) ↔ t.val % 4 = 3)
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point of a row block nothing is stored into the output block, -/
theorem idleAt1_5 : ∀ t : Fin cfg1.N, ¬cond1_3 (grid1.coords t) → cfg1.idle 5 (grid1.coords t) = true := by decide +kernel
/-- and it is not written back there; -/
theorem noFlush1_5 : ∀ t : Fin cfg1.N, ¬cond1_3 (grid1.coords t) → (cfg1.win 5).flush t = false := by decide +kernel
/-- at the last point of a row block it is stored. -/
theorem liveAt1_5 : ∀ t : Fin cfg1.N, cond1_3 (grid1.coords t) → cfg1.idle 5 (grid1.coords t) = false := by decide +kernel

/-! ## The accumulators and the output block after each point -/

/-- The big accumulator after point `n`. -/
def accAt1 (c : Dev nD) : (n : ℕ) → n < cfg1.N → Vec F S2048x2048 .f32
  | 0, hn => k1_pay3 (k1_pay2 (F := F)) (iblk1 V c 0 ⟨0, hn⟩) (iblk1 V c 1 ⟨0, hn⟩)
  | n + 1, hn =>
    if (n + 1) % 4 = 0 then
      k1_pay3 (k1_pay2 (F := F)) (iblk1 V c 0 ⟨n + 1, hn⟩) (iblk1 V c 1 ⟨n + 1, hn⟩)
    else
      k1_pay3 (accAt1 c n (Nat.lt_of_succ_lt hn)) (iblk1 V c 0 ⟨n + 1, hn⟩) (iblk1 V c 1 ⟨n + 1, hn⟩)

theorem accAt1_first (c : Dev nD) (t : Fin cfg1.N) (h : t.val % 4 = 0) :
    accAt1 V c t.val t.isLt = k1_pay3 (k1_pay2 (F := F)) (iblk1 V c 0 t) (iblk1 V c 1 t) := by
  obtain ⟨n, hn⟩ := t
  cases n with
  | zero => rfl
  | succ n => exact if_pos h

theorem accAt1_next (c : Dev nD) (t : Fin cfg1.N) (h : ¬t.val % 4 = 0) :
    accAt1 V c t.val t.isLt = k1_pay3 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-- The head's accumulator after point `n`: zero at the first point of a row block; at a last contraction
    block the head's product of the point added to what the point before left; otherwise what it left. -/
def lgAt1 (c : Dev nD) : (n : ℕ) → n < cfg1.N → Vec F S2048x2 .f32
  | 0, _ => k1_pay1 (F := F)
  | n + 1, hn =>
    if (n + 1) % 8 = 0 then k1_pay1 (F := F)
    else if (n + 1) % 4 = 3 then
      k1_pay4 (accAt1 V c (n + 1) hn) (iblk1 V c 2 ⟨n + 1, hn⟩) (iblk1 V c 3 ⟨n + 1, hn⟩) (lgAt1 c n (Nat.lt_of_succ_lt hn))
    else lgAt1 c n (Nat.lt_of_succ_lt hn)

theorem lgAt1_rowFirst (c : Dev nD) (t : Fin cfg1.N) (h : t.val % 8 = 0) : lgAt1 V c t.val t.isLt = k1_pay1 (F := F) := by
  obtain ⟨n, hn⟩ := t
  cases n with
  | zero => rfl
  | succ n => exact if_pos h

theorem lgAt1_keep (c : Dev nD) (t : Fin cfg1.N) (h8 : ¬t.val % 8 = 0) (h3 : ¬t.val % 4 = 3) :
    lgAt1 V c t.val t.isLt = lgAt1 V c (t.val - 1) (Nat.lt_of_le_of_lt (Nat.sub_le _ _) t.isLt) := by
  obtain ⟨n, hn⟩ := t
  cases n with
  | zero => exact absurd (Nat.zero_mod _) h8
  | succ n => exact (if_neg h8).trans (if_neg h3)

theorem lgAt1_add (c : Dev nD) (t : Fin cfg1.N) (h3 : t.val % 4 = 3) :
    lgAt1 V c t.val t.isLt = k1_pay4 (accAt1 V c t.val t.isLt) (iblk1 V c 2 t) (iblk1 V c 3 t)
      (lgAt1 V c (t.val - 1) (Nat.lt_of_le_of_lt (Nat.sub_le _ _) t.isLt)) := by
  obtain ⟨n, hn⟩ := t
  cases n with
  | zero => simp at h3
  | succ n =>
    have h3' : (n + 1) % 4 = 3 := h3
    have h8 : ¬(n + 1) % 8 = 0 := by omega
    exact (if_neg h8).trans (if_pos h3)

/-- The output block the last point of a row block stores. -/
def outAt1 (c : Dev nD) (t : Fin cfg1.N) : Vec F S2048x2 .f32 :=
  k1_pay5 (lgAt1 V c t.val t.isLt) (iblk1 V c 4 t)

/-! ## The invariant: the two accumulators between points -/

/-- The big accumulator's buffer and the head's accumulator's. -/
abbrev scA1 : Memref sig .tc .vmem S2048x2048 .f32 := Memref.whole cc1_scratch0
abbrev scL1 : Memref sig .tc .vmem S2048x2 .f32 := Memref.whole cc1_scratch1

/-- The core's other scoped buffers (the first kernel's), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The kernel's scoped buffers outside its windows: the two accumulators and the rest. -/
theorem PhiA1_any (c : Dev nD) :
    (Pipeline.ΦA spec1 c : sProp 𝕄)
      ⊢ iprop(iprop(iprop((∃ d, owns (c : Thread nD τ) scA1 fullShare d) ∗ (∃ d, owns (c : Thread nD τ) scL1 fullShare d)) ∗ rest1 c) ∗ (∃ r, prngReg c r)) := by
  unfold Pipeline.ΦA rest1; rw [scopedRest1_eq]; simp only [scA1, scL1, owns_whole]
  iintro ⟨⟨R1, R2, R3, R4, R5, R6, R7, R8, R9, R10, R11, HA, HL⟩, Hg⟩
  isplitr [Hg]
  · isplitl [HA HL]
    · isplitl [HA]; · iexact HA
      iexact HL
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

theorem PhiA1_back (c : Dev nD) :
    iprop(iprop(iprop((∃ d, owns (c : Thread nD τ) scA1 fullShare d) ∗ (∃ d, owns (c : Thread nD τ) scL1 fullShare d)) ∗ rest1 c) ∗ (∃ r, prngReg c r))
      ⊢ (Pipeline.ΦA spec1 c : sProp 𝕄) := by
  unfold Pipeline.ΦA rest1; rw [scopedRest1_eq]; simp only [scA1, scL1, owns_whole]
  iintro ⟨⟨⟨HA, HL⟩, R1, R2, R3, R4, R5, R6, R7, R8, R9, R10, R11⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HA]; · iexact HA
    iexact HL
  iexact Hg

/-- Before point `n`: at the first point every scoped buffer at anything; afterwards the two accumulators at
    what the point before left. -/
def PhiS1 (c : Dev nD) : (n : ℕ) → n ≤ cfg1.N → sProp 𝕄
  | 0, _ => Pipeline.ΦA spec1 c
  | n + 1, hn => iprop(iprop(iprop(owns (c : Thread nD τ) scA1 fullShare (accAt1 V c n hn) ∗ owns (c : Thread nD τ) scL1 fullShare (lgAt1 V c n hn)) ∗ rest1 c) ∗ (∃ r, prngReg c r))

theorem PhiS1_pos (c : Dev nD) (n : ℕ) (h : n ≤ cfg1.N) (hz : n ≠ 0) :
    PhiS1 V c n h = iprop(iprop(iprop(owns (c : Thread nD τ) scA1 fullShare (accAt1 V c (n - 1) (by omega)) ∗ owns (c : Thread nD τ) scL1 fullShare (lgAt1 V c (n - 1) (by omega))) ∗ rest1 c) ∗ (∃ r, prngReg c r)) := by
  cases n with
  | zero => exact absurd rfl hz
  | succ n => rfl

/-- At any point the accumulators' buffers are held at some contents. -/
theorem PhiS1_any (c : Dev nD) (n : ℕ) (h : n ≤ cfg1.N) :
    PhiS1 V c n h ⊢ iprop(iprop(iprop((∃ d, owns (c : Thread nD τ) scA1 fullShare d) ∗ (∃ d, owns (c : Thread nD τ) scL1 fullShare d)) ∗ rest1 c) ∗ (∃ r, prngReg c r)) := by
  cases n with
  | zero => rw [show PhiS1 V c 0 h = Pipeline.ΦA spec1 c from rfl]; exact PhiA1_any c
  | succ n =>
    rw [show PhiS1 V c (n + 1) h = iprop(iprop(iprop(owns (c : Thread nD τ) scA1 fullShare (accAt1 V c n h) ∗ owns (c : Thread nD τ) scL1 fullShare (lgAt1 V c n h)) ∗ rest1 c) ∗ (∃ r, prngReg c r)) from rfl]
    iintro ⟨⟨⟨HA, HL⟩, HR⟩, Hg⟩
    isplitl [HA HL HR]
    · isplitl [HA HL]
      · isplitl [HA]; · iexists _; iexact HA
        iexists _; iexact HL
      iexact HR
    iexact Hg

/-! ## The proof data -/

/-- The proof data of the second kernel's pipeline on core `c`: the arrays as the kernel finds them; after the
    body at point `t` each input's buffer at its block and the output's at `outAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- The body at any point: the inputs' buffers hold their blocks; the point's place in its run of eight says
    which of the five triples applies; the invariant hands the body the accumulators at what the point before
    left and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = iprop(iprop(iprop(owns (c : Thread nD τ) scA1 fullShare (accAt1 V c t.val t.isLt) ∗ owns (c : Thread nD τ) scL1 fullShare (lgAt1 V c t.val t.isLt)) ∗ rest1 c) ∗ (∃ r, prngReg c r)) from rfl]
  rw [PhiS1_castSucc]
  have hN : t.val < 16 := lt_of_lt_of_eq t.isLt (show cfg1.N = 16 from N_1)
  by_cases h0 : t.val % 8 = 0
  · have h4 : t.val % 4 = 0 := by omega
    have h3 : ¬t.val % 4 = 3 := by omega
    have h7 : ¬t.val % 8 = 7 := by omega
    rw [show (dat1 V c).leavesExact 0 t = owns (c : Thread nD τ) (st1_0 t) fullShare ((dat1 V c).after 0 t) from by
          unfold Dat.leavesExact; rw [liveAt1_0 t], after1_0]
    rw [show (dat1 V c).leavesExact 1 t = owns (c : Thread nD τ) (st1_1 t) fullShare ((dat1 V c).after 1 t) from by
          unfold Dat.leavesExact; rw [liveAt1_1 t], after1_1]
    rw [show (dat1 V c).leavesExact 2 t = owns (c : Thread nD τ) (st1_2 t) fullShare ((dat1 V c).after 2 t) from by
          unfold Dat.leavesExact; rw [liveAt1_2 t], after1_2]
    rw [show (dat1 V c).leavesExact 3 t = owns (c : Thread nD τ) (st1_3 t) fullShare ((dat1 V c).after 3 t) from by
          unfold Dat.leavesExact; rw [liveAt1_3 t], after1_3]
    rw [show (dat1 V c).leavesExact 4 t = owns (c : Thread nD τ) (st1_4 t) fullShare ((dat1 V c).after 4 t) from by
          unfold Dat.leavesExact; rw [liveAt1_4 t], after1_4]
    rw [Dat.leavesExact_idle (dat1 V c) 5 t (idleAt1_5 t (fun h => h7 ((hcond1_3 t).mp h))) (noFlush1_5 t (fun h => h7 ((hcond1_3 t).mp h)))]
    rw [lgAt1_rowFirst V c t h0]
    rw [accAt1_first V c t h4]
    iintro ⟨HΦ, Ho, ⟨%d0, H0⟩, ⟨%d1, H1⟩, ⟨%d2, H2⟩, ⟨%d3, H3⟩, ⟨%d4, H4⟩, ⟨%d5, H5⟩⟩
    ihave HΦ' := (PhiS1_any V c t.val (Nat.le_of_lt t.isLt)) $$ HΦ
    icases HΦ' with ⟨⟨⟨⟨%xa, HA⟩, ⟨%xl, HL⟩⟩, HR⟩, Hg⟩
    iapply (run1_rowFirst c Set.univ (grid1.coords t) _ _ _ _ _ _ _ _ _ _ _ _ _ _ _ _ ((hcond1_0 t).mpr h0) ((hcond1_1 t).mpr h4) (fun h => h3 ((hcond1_2 t).mp h)) (fun h => h7 ((hcond1_3 t).mp h)) (iblk1 V c 0 t) (iblk1 V c 1 t) (iblk1 V c 2 t) (iblk1 V c 3 t) (iblk1 V c 4 t) _ _ _ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HL]; · iexact HL
    iintro ⟨H0, H1, H2, H3, H4, H5, HA, HL⟩
    isplitl [HA HL HR Hg]
    · isplitl [HA HL HR]
      · isplitl [HA HL]
        · isplitl [HA]; · iexact HA
          iexact HL
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS1_pos V c _ _ hz]
    by_cases h4 : t.val % 4 = 0
    · have h3 : ¬t.val % 4 = 3 := by omega
      have h7 : ¬t.val % 8 = 7 := by omega
      rw [show (dat1 V c).leavesExact 0 t = owns (c : Thread nD τ) (st1_0 t) fullShare ((dat1 V c).after 0 t) from by
            unfold Dat.leavesExact; rw [liveAt1_0 t], after1_0]
      rw [show (dat1 V c).leavesExact 1 t = owns (c : Thread nD τ) (st1_1 t) fullShare ((dat1 V c).after 1 t) from by
            unfold Dat.leavesExact; rw [liveAt1_1 t], after1_1]
      rw [show (dat1 V c).leavesExact 2 t = owns (c : Thread nD τ) (st1_2 t) fullShare ((dat1 V c).after 2 t) from by
            unfold Dat.leavesExact; rw [liveAt1_2 t], after1_2]
      rw [show (dat1 V c).leavesExact 3 t = owns (c : Thread nD τ) (st1_3 t) fullShare ((dat1 V c).after 3 t) from by
            unfold Dat.leavesExact; rw [liveAt1_3 t], after1_3]
      rw [show (dat1 V c).leavesExact 4 t = owns (c : Thread nD τ) (st1_4 t) fullShare ((dat1 V c).after 4 t) from by
            unfold Dat.leavesExact; rw [liveAt1_4 t], after1_4]
      rw [Dat.leavesExact_idle (dat1 V c) 5 t (idleAt1_5 t (fun h => h7 ((hcond1_3 t).mp h))) (noFlush1_5 t (fun h => h7 ((hcond1_3 t).mp h)))]
      rw [lgAt1_keep V c t h0 h3]
      rw [accAt1_first V c t h4]
      iintro ⟨HΦ, Ho, ⟨%d0, H0⟩, ⟨%d1, H1⟩, ⟨%d2, H2⟩, ⟨%d3, H3⟩, ⟨%d4, H4⟩, ⟨%d5, H5⟩⟩
      icases HΦ with ⟨⟨⟨HA, HL⟩, HR⟩, Hg⟩
      iapply (run1_first c Set.univ (grid1.coords t) _ _ _ _ _ _ _ _ _ _ _ _ _ _ _ _ (fun h => h0 ((hcond1_0 t).mp h)) ((hcond1_1 t).mpr h4) (fun h => h3 ((hcond1_2 t).mp h)) (fun h => h7 ((hcond1_3 t).mp h)) (iblk1 V c 0 t) (iblk1 V c 1 t) (iblk1 V c 2 t) (iblk1 V c 3 t) (iblk1 V c 4 t) _ _ _ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HL]; · iexact HL
      iintro ⟨H0, H1, H2, H3, H4, H5, HA, HL⟩
      isplitl [HA HL HR Hg]
      · isplitl [HA HL HR]
        · isplitl [HA HL]
          · isplitl [HA]; · iexact HA
            iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h3 : t.val % 4 = 3
      · by_cases h7 : t.val % 8 = 7
        · rw [show (dat1 V c).leavesExact 0 t = owns (c : Thread nD τ) (st1_0 t) fullShare ((dat1 V c).after 0 t) from by
                unfold Dat.leavesExact; rw [liveAt1_0 t], after1_0]
          rw [show (dat1 V c).leavesExact 1 t = owns (c : Thread nD τ) (st1_1 t) fullShare ((dat1 V c).after 1 t) from by
                unfold Dat.leavesExact; rw [liveAt1_1 t], after1_1]
          rw [show (dat1 V c).leavesExact 2 t = owns (c : Thread nD τ) (st1_2 t) fullShare ((dat1 V c).after 2 t) from by
                unfold Dat.leavesExact; rw [liveAt1_2 t], after1_2]
          rw [show (dat1 V c).leavesExact 3 t = owns (c : Thread nD τ) (st1_3 t) fullShare ((dat1 V c).after 3 t) from by
                unfold Dat.leavesExact; rw [liveAt1_3 t], after1_3]
          rw [show (dat1 V c).leavesExact 4 t = owns (c : Thread nD τ) (st1_4 t) fullShare ((dat1 V c).after 4 t) from by
                unfold Dat.leavesExact; rw [liveAt1_4 t], after1_4]
          rw [show (dat1 V c).leavesExact 5 t = owns (c : Thread nD τ) (st1_5 t) fullShare ((dat1 V c).after 5 t) from by
                unfold Dat.leavesExact; rw [liveAt1_5 t ((hcond1_3 t).mpr h7)], after1_5]
          unfold outAt1
          rw [lgAt1_add V c t h3]
          rw [accAt1_next V c t h4]
          iintro ⟨HΦ, Ho, ⟨%d0, H0⟩, ⟨%d1, H1⟩, ⟨%d2, H2⟩, ⟨%d3, H3⟩, ⟨%d4, H4⟩, ⟨%d5, H5⟩⟩
          icases HΦ with ⟨⟨⟨HA, HL⟩, HR⟩, Hg⟩
          iapply (run1_rowLast c Set.univ (grid1.coords t) _ _ _ _ _ _ _ _ _ _ _ _ _ _ _ _ (fun h => h0 ((hcond1_0 t).mp h)) (fun h => h4 ((hcond1_1 t).mp h)) ((hcond1_2 t).mpr h3) ((hcond1_3 t).mpr h7) (iblk1 V c 0 t) (iblk1 V c 1 t) (iblk1 V c 2 t) (iblk1 V c 3 t) (iblk1 V c 4 t) _ _ _ _)
          isplitl [H0]; · iexact H0
          isplitl [H1]; · iexact H1
          isplitl [H2]; · iexact H2
          isplitl [H3]; · iexact H3
          isplitl [H4]; · iexact H4
          isplitl [H5]; · iexact H5
          isplitl [HA]; · iexact HA
          isplitl [HL]; · iexact HL
          iintro ⟨H0, H1, H2, H3, H4, H5, HA, HL⟩
          isplitl [HA HL HR Hg]
          · isplitl [HA HL HR]
            · isplitl [HA HL]
              · isplitl [HA]; · iexact HA
                iexact HL
              iexact HR
            iexact Hg
          isplitl [Ho]; · iexact Ho
          isplitl [H0]; · iexact H0
          isplitl [H1]; · iexact H1
          isplitl [H2]; · iexact H2
          isplitl [H3]; · iexact H3
          isplitl [H4]; · iexact H4
          iexact H5
        · rw [show (dat1 V c).leavesExact 0 t = owns (c : Thread nD τ) (st1_0 t) fullShare ((dat1 V c).after 0 t) from by
                unfold Dat.leavesExact; rw [liveAt1_0 t], after1_0]
          rw [show (dat1 V c).leavesExact 1 t = owns (c : Thread nD τ) (st1_1 t) fullShare ((dat1 V c).after 1 t) from by
                unfold Dat.leavesExact; rw [liveAt1_1 t], after1_1]
          rw [show (dat1 V c).leavesExact 2 t = owns (c : Thread nD τ) (st1_2 t) fullShare ((dat1 V c).after 2 t) from by
                unfold Dat.leavesExact; rw [liveAt1_2 t], after1_2]
          rw [show (dat1 V c).leavesExact 3 t = owns (c : Thread nD τ) (st1_3 t) fullShare ((dat1 V c).after 3 t) from by
                unfold Dat.leavesExact; rw [liveAt1_3 t], after1_3]
          rw [show (dat1 V c).leavesExact 4 t = owns (c : Thread nD τ) (st1_4 t) fullShare ((dat1 V c).after 4 t) from by
                unfold Dat.leavesExact; rw [liveAt1_4 t], after1_4]
          rw [Dat.leavesExact_idle (dat1 V c) 5 t (idleAt1_5 t (fun h => h7 ((hcond1_3 t).mp h))) (noFlush1_5 t (fun h => h7 ((hcond1_3 t).mp h)))]
          rw [lgAt1_add V c t h3]
          rw [accAt1_next V c t h4]
          iintro ⟨HΦ, Ho, ⟨%d0, H0⟩, ⟨%d1, H1⟩, ⟨%d2, H2⟩, ⟨%d3, H3⟩, ⟨%d4, H4⟩, ⟨%d5, H5⟩⟩
          icases HΦ with ⟨⟨⟨HA, HL⟩, HR⟩, Hg⟩
          iapply (run1_last c Set.univ (grid1.coords t) _ _ _ _ _ _ _ _ _ _ _ _ _ _ _ _ (fun h => h0 ((hcond1_0 t).mp h)) (fun h => h4 ((hcond1_1 t).mp h)) ((hcond1_2 t).mpr h3) (fun h => h7 ((hcond1_3 t).mp h)) (iblk1 V c 0 t) (iblk1 V c 1 t) (iblk1 V c 2 t) (iblk1 V c 3 t) (iblk1 V c 4 t) _ _ _ _)
          isplitl [H0]; · iexact H0
          isplitl [H1]; · iexact H1
          isplitl [H2]; · iexact H2
          isplitl [H3]; · iexact H3
          isplitl [H4]; · iexact H4
          isplitl [H5]; · iexact H5
          isplitl [HA]; · iexact HA
          isplitl [HL]; · iexact HL
          iintro ⟨H0, H1, H2, H3, H4, H5, HA, HL⟩
          isplitl [HA HL HR Hg]
          · isplitl [HA HL HR]
            · isplitl [HA HL]
              · isplitl [HA]; · iexact HA
                iexact HL
              iexact HR
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
      · have h7 : ¬t.val % 8 = 7 := by omega
        rw [show (dat1 V c).leavesExact 0 t = owns (c : Thread nD τ) (st1_0 t) fullShare ((dat1 V c).after 0 t) from by
              unfold Dat.leavesExact; rw [liveAt1_0 t], after1_0]
        rw [show (dat1 V c).leavesExact 1 t = owns (c : Thread nD τ) (st1_1 t) fullShare ((dat1 V c).after 1 t) from by
              unfold Dat.leavesExact; rw [liveAt1_1 t], after1_1]
        rw [show (dat1 V c).leavesExact 2 t = owns (c : Thread nD τ) (st1_2 t) fullShare ((dat1 V c).after 2 t) from by
              unfold Dat.leavesExact; rw [liveAt1_2 t], after1_2]
        rw [show (dat1 V c).leavesExact 3 t = owns (c : Thread nD τ) (st1_3 t) fullShare ((dat1 V c).after 3 t) from by
              unfold Dat.leavesExact; rw [liveAt1_3 t], after1_3]
        rw [show (dat1 V c).leavesExact 4 t = owns (c : Thread nD τ) (st1_4 t) fullShare ((dat1 V c).after 4 t) from by
              unfold Dat.leavesExact; rw [liveAt1_4 t], after1_4]
        rw [Dat.leavesExact_idle (dat1 V c) 5 t (idleAt1_5 t (fun h => h7 ((hcond1_3 t).mp h))) (noFlush1_5 t (fun h => h7 ((hcond1_3 t).mp h)))]
        rw [lgAt1_keep V c t h0 h3]
        rw [accAt1_next V c t h4]
        iintro ⟨HΦ, Ho, ⟨%d0, H0⟩, ⟨%d1, H1⟩, ⟨%d2, H2⟩, ⟨%d3, H3⟩, ⟨%d4, H4⟩, ⟨%d5, H5⟩⟩
        icases HΦ with ⟨⟨⟨HA, HL⟩, HR⟩, Hg⟩
        iapply (run1_mid c Set.univ (grid1.coords t) _ _ _ _ _ _ _ _ _ _ _ _ _ _ _ _ (fun h => h0 ((hcond1_0 t).mp h)) (fun h => h4 ((hcond1_1 t).mp h)) (fun h => h3 ((hcond1_2 t).mp h)) (fun h => h7 ((hcond1_3 t).mp h)) (iblk1 V c 0 t) (iblk1 V c 1 t) (iblk1 V c 2 t) (iblk1 V c 3 t) (iblk1 V c 4 t) _ _ _ _)
        isplitl [H0]; · iexact H0
        isplitl [H1]; · iexact H1
        isplitl [H2]; · iexact H2
        isplitl [H3]; · iexact H3
        isplitl [H4]; · iexact H4
        isplitl [H5]; · iexact H5
        isplitl [HA]; · iexact HA
        isplitl [HL]; · iexact HL
        iintro ⟨H0, H1, H2, H3, H4, H5, HA, HL⟩
        isplitl [HA HL HR Hg]
        · isplitl [HA HL HR]
          · isplitl [HA HL]
            · isplitl [HA]; · iexact HA
              iexact HL
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c :=
  (show (dat1 V c).Φ (Fin.last cfg1.N) ⊢ _ from PhiS1_any V c (Fin.last cfg1.N).val (Nat.le_of_lt_succ (Fin.last cfg1.N).isLt)).trans (PhiA1_back c)

end Region1

end Cert.KernelIdeal.Hand

end
-- ==== Proof.KernelIdeal.Data0.lean ====
/-
  The first kernel's launch, point by point: what each window's buffer and the accumulator hold after every
  grid point, and that the body at every point takes the one to the other.

  The grid's 16 points are numbered row-major, the contraction block last: point t has contraction block
  t % 4.  The accumulator after point t is the sum of the block products of the points of t's run of four up
  to t; the output block stored at the run's last point is the rectified, biased accumulator.
-/
import proofs.«136834_j65481071406559_2_alg».proof.Proof.KernelIdeal.Body0
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The branch conditions, decided over the grid -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off a last contraction block nothing is stored into the output block, -/
theorem idleAt0_4 : ∀ t : Fin cfg0.N, ¬cond0_1 (grid0.coords t) → cfg0.idle 4 (grid0.coords t) = true := by decide +kernel
/-- and it is not written back there; -/
theorem noFlush0_4 : ∀ t : Fin cfg0.N, ¬cond0_1 (grid0.coords t) → (cfg0.win 4).flush t = false := by decide +kernel
/-- at a last contraction block it is stored. -/
theorem liveAt0_4 : ∀ t : Fin cfg0.N, cond0_1 (grid0.coords t) → cfg0.idle 4 (grid0.coords t) = false := by decide +kernel

/-! ## The accumulator and the output block after each point -/

/-- The accumulator after point `n`: the block product of the point added to zero at a first contraction
    block, to the accumulator of the point before otherwise. -/
def accAt0 (c : Dev nD) : (n : ℕ) → n < cfg0.N → Vec F S2048x2048 .f32
  | 0, hn => k0_pay3 (iblk0 V c 0 ⟨0, hn⟩) (iblk0 V c 1 ⟨0, hn⟩) (k0_pay2 (F := F)) (iblk0 V c 2 ⟨0, hn⟩)
  | n + 1, hn =>
    if (n + 1) % 4 = 0 then
      k0_pay3 (iblk0 V c 0 ⟨n + 1, hn⟩) (iblk0 V c 1 ⟨n + 1, hn⟩) (k0_pay2 (F := F)) (iblk0 V c 2 ⟨n + 1, hn⟩)
    else
      k0_pay3 (iblk0 V c 0 ⟨n + 1, hn⟩) (iblk0 V c 1 ⟨n + 1, hn⟩) (accAt0 c n (Nat.lt_of_succ_lt hn)) (iblk0 V c 2 ⟨n + 1, hn⟩)

theorem accAt0_first (c : Dev nD) (t : Fin cfg0.N) (h : t.val % 4 = 0) :
    accAt0 V c t.val t.isLt = k0_pay3 (iblk0 V c 0 t) (iblk0 V c 1 t) (k0_pay2 (F := F)) (iblk0 V c 2 t) := by
  obtain ⟨n, hn⟩ := t
  cases n with
  | zero => rfl
  | succ n => exact if_pos h

theorem accAt0_next (c : Dev nD) (t : Fin cfg0.N) (h : ¬t.val % 4 = 0) :
    accAt0 V c t.val t.isLt = k0_pay3 (iblk0 V c 0 t) (iblk0 V c 1 t)
      (accAt0 V c (t.val - 1) (Nat.lt_of_le_of_lt (Nat.sub_le _ _) t.isLt)) (iblk0 V c 2 t) := by
  obtain ⟨n, hn⟩ := t
  cases n with
  | zero => exact absurd (Nat.zero_mod _) h
  | succ n => exact if_neg h

/-- The output block a point of a last contraction block stores. -/
def outAt0 (c : Dev nD) (t : Fin cfg0.N) : Vec F S2048x2048 .bf16 :=
  k0_pay1 (accAt0 V c t.val t.isLt) (iblk0 V c 3 t)

/-! ## The invariant: the accumulator between points -/

/-- The accumulator's buffer. -/
abbrev scM0 : Memref sig .tc .vmem S2048x2048 .f32 := Memref.whole cc0_scratch0

/-- The core's other scoped buffers (the second kernel's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]
  first | done | (simp only [scM0, owns_whole]; try rfl)

/-- Before point `n`: at the first point every scoped buffer at anything; afterwards the accumulator at what
    the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 c) ∗ (∃ r, prngReg c r))

theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 c) ∗ (∃ r, prngReg c r)) := by
  cases n with
  | zero => exact absurd rfl hz
  | succ n => rfl

/-- At any point the accumulator's buffer is held at some contents. -/
theorem PhiS0_any (c : Dev nD) (n : ℕ) (h : n ≤ cfg0.N) :
    PhiS0 V c n h ⊢ iprop(iprop((∃ d, owns (c : Thread nD τ) scM0 fullShare d) ∗ rest0 c) ∗ (∃ r, prngReg c r)) := by
  cases n with
  | zero => rw [show PhiS0 V c 0 h = Pipeline.ΦA spec0 c from rfl, PhiA0_eq]
  | succ n =>
    rw [show PhiS0 V c (n + 1) h = iprop(iprop(owns (c : Thread nD τ) scM0 fullShare (accAt0 V c n h) ∗ rest0 c) ∗ (∃ r, prngReg c r)) from rfl]
    iintro ⟨⟨HS, HR⟩, Hg⟩
    isplitl [HS HR]
    · isplitl [HS]; · iexists _; iexact HS
      iexact HR
    iexact Hg

/-! ## The proof data -/

/-- The proof data of the first kernel's pipeline on core `c`: the arrays as the kernel finds them; after the
    body at point `t` each input's buffer at its block and the output's at `outAt0`; the two windows on the data
    matrix hold a half of it each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point's contraction block says which of
    the three triples applies; the invariant hands the body the accumulator at what the point before left (at
    anything where it is zeroed first) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = iprop(iprop(owns (c : Thread nD τ) scM0 fullShare (accAt0 V c t.val t.isLt) ∗ rest0 c) ∗ (∃ r, prngReg c r)) from rfl]
  rw [PhiS0_castSucc]
  have hN : t.val < 16 := lt_of_lt_of_eq t.isLt (show cfg0.N = 16 from N_0)
  by_cases h0 : t.val % 4 = 0
  · have h3 : ¬t.val % 4 = 3 := by omega
    rw [show (dat0 V c).leavesExact 0 t = owns (c : Thread nD τ) (st0_0 t) fullShare ((dat0 V c).after 0 t) from by
          unfold Dat.leavesExact; rw [liveAt0_0 t], after0_0]
    rw [show (dat0 V c).leavesExact 1 t = owns (c : Thread nD τ) (st0_1 t) fullShare ((dat0 V c).after 1 t) from by
          unfold Dat.leavesExact; rw [liveAt0_1 t], after0_1]
    rw [show (dat0 V c).leavesExact 2 t = owns (c : Thread nD τ) (st0_2 t) fullShare ((dat0 V c).after 2 t) from by
          unfold Dat.leavesExact; rw [liveAt0_2 t], after0_2]
    rw [show (dat0 V c).leavesExact 3 t = owns (c : Thread nD τ) (st0_3 t) fullShare ((dat0 V c).after 3 t) from by
          unfold Dat.leavesExact; rw [liveAt0_3 t], after0_3]
    rw [Dat.leavesExact_idle (dat0 V c) 4 t (idleAt0_4 t (fun h => h3 ((hcond0_1 t).mp h))) (noFlush0_4 t (fun h => h3 ((hcond0_1 t).mp h)))]
    rw [accAt0_first V c t h0]
    iintro ⟨HΦ, Ho, ⟨%d0, H0⟩, ⟨%d1, H1⟩, ⟨%d2, H2⟩, ⟨%d3, H3⟩, ⟨%d4, H4⟩⟩
    ihave HΦ' := (PhiS0_any V c t.val (Nat.le_of_lt t.isLt)) $$ HΦ
    icases HΦ' with ⟨⟨⟨%xs, HS⟩, HR⟩, Hg⟩
    iapply (run0_first c Set.univ (grid0.coords t) _ _ _ _ _ _ _ _ _ _ _ _ ((hcond0_0 t).mpr h0) (fun h => h3 ((hcond0_1 t).mp h)) (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    rw [PhiS0_pos V c _ _ hz]
    by_cases h3 : t.val % 4 = 3
    · rw [show (dat0 V c).leavesExact 0 t = owns (c : Thread nD τ) (st0_0 t) fullShare ((dat0 V c).after 0 t) from by
            unfold Dat.leavesExact; rw [liveAt0_0 t], after0_0]
      rw [show (dat0 V c).leavesExact 1 t = owns (c : Thread nD τ) (st0_1 t) fullShare ((dat0 V c).after 1 t) from by
            unfold Dat.leavesExact; rw [liveAt0_1 t], after0_1]
      rw [show (dat0 V c).leavesExact 2 t = owns (c : Thread nD τ) (st0_2 t) fullShare ((dat0 V c).after 2 t) from by
            unfold Dat.leavesExact; rw [liveAt0_2 t], after0_2]
      rw [show (dat0 V c).leavesExact 3 t = owns (c : Thread nD τ) (st0_3 t) fullShare ((dat0 V c).after 3 t) from by
            unfold Dat.leavesExact; rw [liveAt0_3 t], after0_3]
      rw [show (dat0 V c).leavesExact 4 t = owns (c : Thread nD τ) (st0_4 t) fullShare ((dat0 V c).after 4 t) from by
            unfold Dat.leavesExact; rw [liveAt0_4 t ((hcond0_1 t).mpr h3)], after0_4]
      unfold outAt0
      rw [accAt0_next V c t h0]
      iintro ⟨HΦ, Ho, ⟨%d0, H0⟩, ⟨%d1, H1⟩, ⟨%d2, H2⟩, ⟨%d3, H3⟩, ⟨%d4, H4⟩⟩
      icases HΦ with ⟨⟨HS, HR⟩, Hg⟩
      iapply (run0_last c Set.univ (grid0.coords t) _ _ _ _ _ _ _ _ _ _ _ _ (fun h => h0 ((hcond0_0 t).mp h)) ((hcond0_1 t).mpr h3) (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [show (dat0 V c).leavesExact 0 t = owns (c : Thread nD τ) (st0_0 t) fullShare ((dat0 V c).after 0 t) from by
            unfold Dat.leavesExact; rw [liveAt0_0 t], after0_0]
      rw [show (dat0 V c).leavesExact 1 t = owns (c : Thread nD τ) (st0_1 t) fullShare ((dat0 V c).after 1 t) from by
            unfold Dat.leavesExact; rw [liveAt0_1 t], after0_1]
      rw [show (dat0 V c).leavesExact 2 t = owns (c : Thread nD τ) (st0_2 t) fullShare ((dat0 V c).after 2 t) from by
            unfold Dat.leavesExact; rw [liveAt0_2 t], after0_2]
      rw [show (dat0 V c).leavesExact 3 t = owns (c : Thread nD τ) (st0_3 t) fullShare ((dat0 V c).after 3 t) from by
            unfold Dat.leavesExact; rw [liveAt0_3 t], after0_3]
      rw [Dat.leavesExact_idle (dat0 V c) 4 t (idleAt0_4 t (fun h => h3 ((hcond0_1 t).mp h))) (noFlush0_4 t (fun h => h3 ((hcond0_1 t).mp h)))]
      rw [accAt0_next V c t h0]
      iintro ⟨HΦ, Ho, ⟨%d0, H0⟩, ⟨%d1, H1⟩, ⟨%d2, H2⟩, ⟨%d3, H3⟩, ⟨%d4, H4⟩⟩
      icases HΦ with ⟨⟨HS, HR⟩, Hg⟩
      iapply (run0_mid c Set.univ (grid0.coords t) _ _ _ _ _ _ _ _ _ _ _ _ (fun h => h0 ((hcond0_0 t).mp h)) (fun h => h3 ((hcond0_1 t).mp h)) (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [PhiA0_eq, show (dat0 V c).Φ (Fin.last cfg0.N) = PhiS0 V c (Fin.last cfg0.N).val (Nat.le_of_lt_succ (Fin.last cfg0.N).isLt) from rfl]
  exact PhiS0_any V c _ _

end Region0

end Cert.KernelIdeal.Hand

end
-- ==== Proof.KernelIdeal.Frame.lean ====
/-
  The whole program's run: the host stretch that recasts the weights and reshapes the biases, then the two
  kernels' launches one after the other, with what every buffer outside the kernels' scratch holds between
  them; at the end the arguments are as launched and the result holds what the second launch's write-backs
  left.

  The first kernel reads the data matrix through two windows (row blocks of 2048 and of 1024): the two hold
  a half of the array each while it runs.
-/
import proofs.«136834_j65481071406559_2_alg».proof.Proof.KernelIdeal.Data1
import proofs.«136834_j65481071406559_2_alg».proof.Proof.KernelIdeal.Data0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's three items -/

/-- At launch. -/
abbrev W0 : Dev nD → Valuation τ sig (Elt F) := fun c b => (s₀ m ρ).mem ((c : Dev nD), b)
/-- After the host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its output array at what the write-backs leave. -/
def W2 (c : Dev nD) : Valuation τ sig (Elt F) :=
  Function.update (W1 m ρ c) main_v5 ((dat0 (V1 m ρ) c).arrAt 4 cfg0.N : Buf (Elt F) ((c : Thread nD τ).loc main_v5))
abbrev V2 : (c : Dev nD) → (b : Ref sig .tc) → Buf (Elt F) ((c : Thread nD τ).loc b) := fun c b => W2 m ρ c b
/-- After the second kernel: its output array at what the write-backs leave. -/
def W3 (c : Dev nD) : Valuation τ sig (Elt F) :=
  Function.update (W2 m ρ c) main_v6 ((dat1 (V2 m ρ) c).arrAt 5 cfg1.N : Buf (Elt F) ((c : Thread nD τ).loc main_v6))
abbrev V3 : (c : Dev nD) → (b : Ref sig .tc) → Buf (Elt F) ((c : Thread nD τ).loc b) := fun c b => W3 m ρ c b

theorem W2_v5 (c : Dev nD) : W2 m ρ c main_v5 = (dat0 (V1 m ρ) c).arrAt 4 cfg0.N := by
  unfold W2; exact Function.update_self _ _ _
theorem W2_of_ne (c : Dev nD) (b : Ref sig .tc) (hb : b ≠ main_v5) : W2 m ρ c b = W1 m ρ c b := by
  unfold W2; exact Function.update_of_ne (StableHlo.devRef_ne_of_ne hb) _ _
theorem W3_v6 (c : Dev nD) : W3 m ρ c main_v6 = (dat1 (V2 m ρ) c).arrAt 5 cfg1.N := by
  unfold W3; exact Function.update_self _ _ _
theorem W3_of_ne (c : Dev nD) (b : Ref sig .tc) (hb : b ≠ main_v6) : W3 m ρ c b = W2 m ρ c b := by
  unfold W3; exact Function.update_of_ne (StableHlo.devRef_ne_of_ne hb) _ _

/-- No host operation writes an argument. -/
theorem W1_of_arg (c : Dev nD) (b : Ref sig .tc) (hb : b ∉ ([main_v0, main_v1, main_v2, main_v3, main_v4] : List (Ref sig .tc))) :
    W1 m ρ c b = W0 m ρ c b :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-! ## The first kernel's arrays among the unscoped buffers -/

section Arrays0

variable (V : (c : Dev nD) → (b : Ref sig .tc) → Buf (Elt F) ((c : Thread nD τ).loc b))

/-- The distinct buffers behind the first kernel's windows. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)
          ∗ (((c : Thread nD τ).loc main_v2) ↦{fullShare} X main_v2) ∗ (((c : Thread nD τ).loc main_v5) ↦{fullShare} X main_v5)) := by
  unfold Pipeline.arrBufs
  exact bigSep_eq_bigSepL_of_eq [main_arg0, main_v0, main_v2, main_v5] (by decide) (by decide) _

/-- The first kernel's windowed arrays, one by one: the data matrix twice, at a half each. -/
theorem arrays0_eq (c : Dev nD) (G : (w : Fin cfg0.W) → Buf (Elt F) ((cfg0.win w).arr.view.loc (c : Thread nD τ))) :
    (dat0 V c).arrays G
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v2) ↦{fullShare} G 3) ∗ (((c : Thread nD τ).loc main_v5) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

end Arrays0

/-- ENTRY of the first kernel: the unscoped buffers after the host stretch are its arrays at their entry
    contents, the data matrix split between its two windows, and the rest. -/
theorem hsplit0 (c : Dev nD) :
    StableHlo.held (c : Thread nD τ) (Pipeline.ucRefs τ sig) (W1 m ρ c)
      ⊢ (iprop((dat0 (V1 m ρ) c).arrays ((dat0 (V1 m ρ) c).arrAt · 0)
          ∗ Pipeline.unscopedRest (Ix := Unit) (Name := ℕ) (U := UR sig nD τ) (Lvl := ℕ) spec0 c (V1 m ρ c)) : sProp 𝕄) := by
  rw [← Pipeline.unscopedBufs_held (Ix := Unit) (Name := ℕ) (U := UR sig nD τ) (Lvl := ℕ) c (W1 m ρ c),
    Pipeline.unscopedBufs_split₀ cfgs 0 winFacts₀0.arr_unscoped c]
  show (iprop(Pipeline.arrBufs spec0 c (V1 m ρ c) ∗ Pipeline.unscopedRest spec0 c (V1 m ρ c)) : sProp 𝕄) ⊢ _
  rw [arrBufs0_eq, arrays0_eq]
  iintro ⟨⟨Ha, Hb, Hc, Hd⟩, Hrest⟩
  ihave Ha' := (pointsTo_share (PosShare.mem_left_op_right fullShare)).1 $$ Ha
  icases Ha' with ⟨Ha1, Ha2⟩
  isplitr [Hrest]
  · isplitl [Ha1]; · iexact Ha1
    isplitl [Ha2]; · iexact Ha2
    isplitl [Hb]; · iexact Hb
    isplitl [Hc]; · iexact Hc
    iexact Hd
  iexact Hrest

/-- EXIT of the first kernel: its arrays after the write-backs — the two halves of the data matrix joined —
    and the rest are the unscoped buffers at the contents after it. -/
theorem hjoin0 (c : Dev nD) :
    (iprop((dat0 (V1 m ρ) c).arrays ((dat0 (V1 m ρ) c).arrAt · cfg0.N)
        ∗ Pipeline.unscopedRest (Ix := Unit) (Name := ℕ) (U := UR sig nD τ) (Lvl := ℕ) spec0 c (V1 m ρ c)) : sProp 𝕄)
      ⊢ StableHlo.held (c : Thread nD τ) (Pipeline.ucRefs τ sig) (W2 m ρ c) := by
  rw [← Pipeline.unscopedBufs_held (Ix := Unit) (Name := ℕ) (U := UR sig nD τ) (Lvl := ℕ) c (W2 m ρ c),
    Pipeline.unscopedBufs_split₀ cfgs 0 winFacts₀0.arr_unscoped c]
  show _ ⊢ (iprop(Pipeline.arrBufs spec0 c (V2 m ρ c) ∗ Pipeline.unscopedRest spec0 c (V2 m ρ c)) : sProp 𝕄)
  rw [arrBufs0_eq, arrays0_eq, unscopedRest0_eq, unscopedRest0_eq]
  have e0 : (dat0 (V1 m ρ) c).arrAt 0 cfg0.N = V2 m ρ c main_arg0 :=
    ((dat0 (V1 m ρ) c).arrAt_in 0 rfl _).trans ((A_eq0 (V1 m ρ) c 0).trans (W2_of_ne m ρ c main_arg0 (by decide)).symm)
  have e1 : (dat0 (V1 m ρ) c).arrAt 1 cfg0.N = V2 m ρ c main_arg0 :=
    ((dat0 (V1 m ρ) c).arrAt_in 1 rfl _).trans ((A_eq0 (V1 m ρ) c 1).trans (W2_of_ne m ρ c main_arg0 (by decide)).symm)
  have e2 : (dat0 (V1 m ρ) c).arrAt 2 cfg0.N = V2 m ρ c main_v0 :=
    ((dat0 (V1 m ρ) c).arrAt_in 2 rfl _).trans ((A_eq0 (V1 m ρ) c 2).trans (W2_of_ne m ρ c main_v0 (by decide)).symm)
  have e3 : (dat0 (V1 m ρ) c).arrAt 3 cfg0.N = V2 m ρ c main_v2 :=
    ((dat0 (V1 m ρ) c).arrAt_in 3 rfl _).trans ((A_eq0 (V1 m ρ) c 3).trans (W2_of_ne m ρ c main_v2 (by decide)).symm)
  have e4 : (dat0 (V1 m ρ) c).arrAt 4 cfg0.N = V2 m ρ c main_v5 := (W2_v5 m ρ c).symm
  rw [e0, e1, e2, e3, e4]
  rw [show V2 m ρ c main_arg1 = V1 m ρ c main_arg1 from W2_of_ne m ρ c main_arg1 (by decide),
    show V2 m ρ c main_arg2 = V1 m ρ c main_arg2 from W2_of_ne m ρ c main_arg2 (by decide),
    show V2 m ρ c main_arg3 = V1 m ρ c main_arg3 from W2_of_ne m ρ c main_arg3 (by decide),
    show V2 m ρ c main_arg4 = V1 m ρ c main_arg4 from W2_of_ne m ρ c main_arg4 (by decide),
    show V2 m ρ c main_arg5 = V1 m ρ c main_arg5 from W2_of_ne m ρ c main_arg5 (by decide),
    show V2 m ρ c main_arg6 = V1 m ρ c main_arg6 from W2_of_ne m ρ c main_arg6 (by decide),
    show V2 m ρ c main_v1 = V1 m ρ c main_v1 from W2_of_ne m ρ c main_v1 (by decide),
    show V2 m ρ c main_v3 = V1 m ρ c main_v3 from W2_of_ne m ρ c main_v3 (by decide),
    show V2 m ρ c main_v4 = V1 m ρ c main_v4 from W2_of_ne m ρ c main_v4 (by decide),
    show V2 m ρ c main_v6 = V1 m ρ c main_v6 from W2_of_ne m ρ c main_v6 (by decide)]
  iintro ⟨⟨Ha1, Ha2, Hb, Hc, Hd⟩, Hrest⟩
  ihave Ha := ((pointsTo_share (PosShare.mem_left_op_right fullShare)).2) $$ [Ha1 Ha2]
  · isplitl [Ha1]; · iexact Ha1
    iexact Ha2
  isplitr [Hrest]
  · isplitl [Ha]; · iexact Ha
    isplitl [Hb]; · iexact Hb
    isplitl [Hc]; · iexact Hc
    iexact Hd
  iexact Hrest

/-! ## The proof data family and the thread state -/

/-- No kernel has a prefetched table. -/
abbrev adm : (p : Fin 2) → (pcfgs (F := F) p).Adm := fun p => (cfgs p).toPCfg_adm
/-- Each kernel's proof data at the contents its launch finds. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- The last thread state without the `owes`. -/
abbrev Tₙ (c : Dev nD) : sProp 𝕄 := iprop(StableHlo.held (c : Thread nD τ) (Pipeline.ucRefs τ sig) (W3 m ρ c) ∗ ∃ r, prngReg c r)

/-! ## The kernels as segments -/

theorem hF1 (c : Dev nD) (w : Fin cfg1.W) : (dat1 (V2 m ρ) c).arrAt w cfg1.N = V3 m ρ c (Pipeline.arrRef spec1 w) := by
  fin_cases w
  · exact ((dat1 (V2 m ρ) c).arrAt_in 0 rfl _).trans ((A_eq1 (V2 m ρ) c 0).trans (W3_of_ne m ρ c _ (by decide)).symm)
  · exact ((dat1 (V2 m ρ) c).arrAt_in 1 rfl _).trans ((A_eq1 (V2 m ρ) c 1).trans (W3_of_ne m ρ c _ (by decide)).symm)
  · exact ((dat1 (V2 m ρ) c).arrAt_in 2 rfl _).trans ((A_eq1 (V2 m ρ) c 2).trans (W3_of_ne m ρ c _ (by decide)).symm)
  · exact ((dat1 (V2 m ρ) c).arrAt_in 3 rfl _).trans ((A_eq1 (V2 m ρ) c 3).trans (W3_of_ne m ρ c _ (by decide)).symm)
  · exact ((dat1 (V2 m ρ) c).arrAt_in 4 rfl _).trans ((A_eq1 (V2 m ρ) c 4).trans (W3_of_ne m ρ c _ (by decide)).symm)
  · exact (W3_v6 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)

set_option backward.isDefEq.respectTransparency.types false in
/-- The first kernel over the thread state: entered from the contents after the host stretch, left with its
    output array at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    iintro ⟨⟨Hub, Hp, HO⟩, -, -⟩
    have hs : StableHlo.held (c : Thread nD τ) (Pipeline.ucRefs τ sig) (W1 m ρ c)
        ⊢ (iprop((pdats m ρ 0 c).arrays ((pdats m ρ 0 c).arrAt · 0)
            ∗ Pipeline.unscopedRest (Ix := Unit) (Name := ℕ) (U := UR sig nD τ) (Lvl := ℕ) spec0 c (V1 m ρ c)) : sProp 𝕄) := hsplit0 m ρ c
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hj : (iprop((pdats m ρ 0 c).arrays ((pdats m ρ 0 c).arrAt · cfg0.N)
            ∗ Pipeline.unscopedRest (Ix := Unit) (Name := ℕ) (U := UR sig nD τ) (Lvl := ℕ) spec0 c (V1 m ρ c)) : sProp 𝕄)
          ⊢ StableHlo.held (c : Thread nD τ) (Pipeline.ucRefs τ sig) (W2 m ρ c) := hjoin0 m ρ c
      iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from the contents after the first, left with its output
    array at what the write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg0 m ρ), .region (reg0 m ρ), .region (reg1 m ρ) ]

theorem main_run (c : Dev nD) : main (F := F) c = Pipeline.Seg.run (segs m ρ) := (main_chain c).trans (by chain_rfl)

theorem W3_main_arg0 (c : Dev nD) : W3 m ρ c main_arg0 = m ((c : Thread nD τ).loc main_arg0) :=
  (W3_of_ne m ρ c main_arg0 (by decide)).trans ((W2_of_ne m ρ c main_arg0 (by decide)).trans ((W1_of_arg m ρ c main_arg0 (by decide)).trans rfl))
theorem W3_main_arg1 (c : Dev nD) : W3 m ρ c main_arg1 = m ((c : Thread nD τ).loc main_arg1) :=
  (W3_of_ne m ρ c main_arg1 (by decide)).trans ((W2_of_ne m ρ c main_arg1 (by decide)).trans ((W1_of_arg m ρ c main_arg1 (by decide)).trans rfl))
theorem W3_main_arg2 (c : Dev nD) : W3 m ρ c main_arg2 = m ((c : Thread nD τ).loc main_arg2) :=
  (W3_of_ne m ρ c main_arg2 (by decide)).trans ((W2_of_ne m ρ c main_arg2 (by decide)).trans ((W1_of_arg m ρ c main_arg2 (by decide)).trans rfl))
theorem W3_main_arg3 (c : Dev nD) : W3 m ρ c main_arg3 = m ((c : Thread nD τ).loc main_arg3) :=
  (W3_of_ne m ρ c main_arg3 (by decide)).trans ((W2_of_ne m ρ c main_arg3 (by decide)).trans ((W1_of_arg m ρ c main_arg3 (by decide)).trans rfl))
theorem W3_main_arg4 (c : Dev nD) : W3 m ρ c main_arg4 = m ((c : Thread nD τ).loc main_arg4) :=
  (W3_of_ne m ρ c main_arg4 (by decide)).trans ((W2_of_ne m ρ c main_arg4 (by decide)).trans ((W1_of_arg m ρ c main_arg4 (by decide)).trans rfl))
theorem W3_main_arg5 (c : Dev nD) : W3 m ρ c main_arg5 = m ((c : Thread nD τ).loc main_arg5) :=
  (W3_of_ne m ρ c main_arg5 (by decide)).trans ((W2_of_ne m ρ c main_arg5 (by decide)).trans ((W1_of_arg m ρ c main_arg5 (by decide)).trans rfl))
theorem W3_main_arg6 (c : Dev nD) : W3 m ρ c main_arg6 = m ((c : Thread nD τ).loc main_arg6) :=
  (W3_of_ne m ρ c main_arg6 (by decide)).trans ((W2_of_ne m ρ c main_arg6 (by decide)).trans ((W1_of_arg m ρ c main_arg6 (by decide)).trans rfl))

set_option backward.isDefEq.respectTransparency.types false in
/-- THE RUN: every weakly fair execution of the program terminates, nothing faulting; the result array ends at
    what the second kernel's write-backs leave and every argument array as launched. -/
theorem run : θ_run defs (onTc (τ := τ) (main (F := F))) ⟨m, fun _ => 0, ρ⟩ (fun r => ∀ c : Dev nD,
      r.2.mem ((c.tc : Thread nD τ).loc main_v6) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_v6 m ρ c),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c),
        (h c _ (mem_uc main_arg4 (by decide))).trans (W3_main_arg4 m ρ c),
        (h c _ (mem_uc main_arg5 (by decide))).trans (W3_main_arg5 m ρ c),
        (h c _ (mem_uc main_arg6 (by decide))).trans (W3_main_arg6 m ρ c)⟩)

/-- The frame claim's post from the run's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.KernelIdeal.Hand

end
-- ==== Proof.KernelIdeal.Value0.lean ====
/-
  From blocks to arrays: the first kernel's output array after its launch.

  The output window's block at a point of a last contraction block is block (t / 8, (t / 4) % 2) of the
  4096 × 4096 output; the eight such blocks... four such blocks tile it.  So if what every such point stores
  is the restriction of one whole-array function, the array ends holding that function.
-/
import proofs.«136834_j65481071406559_2_alg».proof.Proof.KernelIdeal.Data0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Out0

variable (V : (c : Dev nD) → (b : Ref sig .tc) → Buf (Elt F) ((c : Thread nD τ).loc b))

/-- The output window's block index at a point, decided over the grid. -/
theorem idx0_4 : ∀ t : Fin cfg0.N, win0_4.index t (0 : Fin 2) = t.val / 8 ∧ win0_4.index t (1 : Fin 2) = (t.val / 4) % 2 :=
  (by decide +kernel : ∀ t : Fin grid0.N, win0_4.index t (0 : Fin 2) = t.val / 8 ∧ win0_4.index t (1 : Fin 2) = (t.val / 4) % 2)
theorem xsize0_4 : ∀ t : Fin cfg0.N, win0_4.xsize (grid0.coords t) (0 : Fin 2) = 2048 ∧ win0_4.xsize (grid0.coords t) (1 : Fin 2) = 2048 :=
  (by decide +kernel : ∀ t : Fin grid0.N, win0_4.xsize (grid0.coords t) (0 : Fin 2) = 2048 ∧ win0_4.xsize (grid0.coords t) (1 : Fin 2) = 2048)

/-- If what every point of a last contraction block stores is the restriction of `G` to its block, the output
    array ends holding `G`. -/
theorem final0_of (c : Dev nD) (G : Buf (Elt F) ((c : Thread nD τ).loc main_v5))
    (hpt : ∀ (t : Fin cfg0.N), t.val % 4 = 3 → ∀ (x : S2048x2048.Idx) (g : S4096x4096.Idx),
        (g 0).val = (t.val / 8) * 2048 + (x 0).val → (g 1).val = ((t.val / 4) % 2) * 2048 + (x 1).val →
        outAt0 V c t x = (G : S4096x4096.Idx → Elt F .bf16) g) :
    (dat0 V c).arrAt 4 cfg0.N = G := by
  refine (dat0 V c).arrAt_eq_of_cover 4 G (fun t hf => ?_) (fun i => ?_)
  · have h3 : t.val % 4 = 3 := (flush0_4 t).mp hf
    show (cfg0.win 4).cut (grid0.coords t) ((dat0 V c).after 4 t) = _
    rw [after0_4]
    funext x
    rw [View.read_apply]
    show outAt0 V c t x = (G : S4096x4096.Idx → Elt F .bf16) _
    refine hpt t h3 x _ ?_ ?_
    · show win0_4.index t 0 * 2048 + 1 * (x 0).val = _
      rw [(idx0_4 t).1]; omega
    · show win0_4.index t 1 * 2048 + 1 * (x 1).val = _
      rw [(idx0_4 t).2]; omega
  · have h0 : ((i : S4096x4096.Idx) 0 : ℕ) < 4096 := ((i : S4096x4096.Idx) 0).isLt
    have h1 : ((i : S4096x4096.Idx) 1 : ℕ) < 4096 := ((i : S4096x4096.Idx) 1).isLt
    have hN : cfg0.N = 16 := N_0
    obtain ⟨tt, htt⟩ : ∃ tt : Fin cfg0.N, tt.val = ((i : S4096x4096.Idx) 0 : ℕ) / 2048 * 8 + ((i : S4096x4096.Idx) 1 : ℕ) / 2048 * 4 + 3 :=
      ⟨⟨_, by omega⟩, rfl⟩
    refine ⟨tt, (flush0_4 tt).mpr (by omega), ?_⟩
    show i ∈ ((View.whole main_v5).slice (win0_4.rect tt)).set
    rw [View.set_slice_whole, Rect.mem_set_unit]
    intro a
    match a with
    | ⟨0, _⟩ =>
      show win0_4.index tt 0 * win0_4.size 0 ≤ ((i : S4096x4096.Idx) 0 : ℕ) ∧ ((i : S4096x4096.Idx) 0 : ℕ) < win0_4.index tt 0 * win0_4.size 0 + win0_4.xsize (grid0.coords tt) 0
      rw [(idx0_4 tt).1, (xsize0_4 tt).1, show win0_4.size 0 = 2048 from rfl]
      omega
    | ⟨1, _⟩ =>
      show win0_4.index tt 1 * win0_4.size 1 ≤ ((i : S4096x4096.Idx) 1 : ℕ) ∧ ((i : S4096x4096.Idx) 1 : ℕ) < win0_4.index tt 1 * win0_4.size 1 + win0_4.xsize (grid0.coords tt) 1
      rw [(idx0_4 tt).2, (xsize0_4 tt).2, show win0_4.size 1 = 2048 from rfl]
      omega

end Out0

end Cert.KernelIdeal.Hand

end
-- ==== Proof.KernelIdeal.Value1.lean ====
/-
  From blocks to arrays: the second kernel's output array after its launch.

  The output window's block at the last point of a row block is row block t / 8 of the 4096 × 2 output; the
  two such blocks tile it.  So if what every such point stores is the restriction of one whole-array function,
  the array ends holding that function.
-/
import proofs.«136834_j65481071406559_2_alg».proof.Proof.KernelIdeal.Data1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Out1

variable (V : (c : Dev nD) → (b : Ref sig .tc) → Buf (Elt F) ((c : Thread nD τ).loc b))

/-- The output window's block index at a point, decided over the grid. -/
theorem idx1_5 : ∀ t : Fin cfg1.N, win1_5.index t (0 : Fin 2) = t.val / 8 ∧ win1_5.index t (1 : Fin 2) = 0 :=
  (by decide +kernel : ∀ t : Fin grid1.N, win1_5.index t (0 : Fin 2) = t.val / 8 ∧ win1_5.index t (1 : Fin 2) = 0)
theorem xsize1_5 : ∀ t : Fin cfg1.N, win1_5.xsize (grid1.coords t) (0 : Fin 2) = 2048 ∧ win1_5.xsize (grid1.coords t) (1 : Fin 2) = 2 :=
  (by decide +kernel : ∀ t : Fin grid1.N, win1_5.xsize (grid1.coords t) (0 : Fin 2) = 2048 ∧ win1_5.xsize (grid1.coords t) (1 : Fin 2) = 2)

/-- If what the last point of every row block stores is the restriction of `G` to its block, the output array
    ends holding `G`. -/
theorem final1_of (c : Dev nD) (G : Buf (Elt F) ((c : Thread nD τ).loc main_v6))
    (hpt : ∀ (t : Fin cfg1.N), t.val % 8 = 7 → ∀ (x : S2048x2.Idx) (g : S4096x2.Idx),
        (g 0).val = (t.val / 8) * 2048 + (x 0).val → (g 1).val = (x 1).val →
        outAt1 V c t x = (G : S4096x2.Idx → Elt F .f32) g) :
    (dat1 V c).arrAt 5 cfg1.N = G := by
  refine (dat1 V c).arrAt_eq_of_cover 5 G (fun t hf => ?_) (fun i => ?_)
  · have h7 : t.val % 8 = 7 := (flush1_5 t).mp hf
    show (cfg1.win 5).cut (grid1.coords t) ((dat1 V c).after 5 t) = _
    rw [after1_5]
    funext x
    rw [View.read_apply]
    show outAt1 V c t x = (G : S4096x2.Idx → Elt F .f32) _
    refine hpt t h7 x _ ?_ ?_
    · show win1_5.index t 0 * 2048 + 1 * (x 0).val = _
      rw [(idx1_5 t).1]; omega
    · show win1_5.index t 1 * 2 + 1 * (x 1).val = _
      rw [(idx1_5 t).2]; omega
  · have h0 : ((i : S4096x2.Idx) 0 : ℕ) < 4096 := ((i : S4096x2.Idx) 0).isLt
    have h1 : ((i : S4096x2.Idx) 1 : ℕ) < 2 := ((i : S4096x2.Idx) 1).isLt
    have hN : cfg1.N = 16 := N_1
    obtain ⟨tt, htt⟩ : ∃ tt : Fin cfg1.N, tt.val = ((i : S4096x2.Idx) 0 : ℕ) / 2048 * 8 + 7 := ⟨⟨_, by omega⟩, rfl⟩
    refine ⟨tt, (flush1_5 tt).mpr (by omega), ?_⟩
    show i ∈ ((View.whole main_v6).slice (win1_5.rect tt)).set
    rw [View.set_slice_whole, Rect.mem_set_unit]
    intro a
    match a with
    | ⟨0, _⟩ =>
      show win1_5.index tt 0 * win1_5.size 0 ≤ ((i : S4096x2.Idx) 0 : ℕ) ∧ ((i : S4096x2.Idx) 0 : ℕ) < win1_5.index tt 0 * win1_5.size 0 + win1_5.xsize (grid1.coords tt) 0
      rw [(idx1_5 tt).1, (xsize1_5 tt).1, show win1_5.size 0 = 2048 from rfl]
      omega
    | ⟨1, _⟩ =>
      show win1_5.index tt 1 * win1_5.size 1 ≤ ((i : S4096x2.Idx) 1 : ℕ) ∧ ((i : S4096x2.Idx) 1 : ℕ) < win1_5.index tt 1 * win1_5.size 1 + win1_5.xsize (grid1.coords tt) 1
      rw [(idx1_5 tt).2, (xsize1_5 tt).2, show win1_5.size 1 = 2 from rfl]
      omega

end Out1

end Cert.KernelIdeal.Hand

end
-- ==== Proof.KernelIdeal.Host.lean ====
/-
  What the host stretch leaves in the arrays the kernels read, at the extended reals: the recast weight
  matrices are the arguments themselves (a change of float format is the identity there), each reshaped
  bias row read at (0, o) is the argument at o, and the arguments no host operation writes are as launched.
-/
import proofs.«136834_j65481071406559_2_alg».proof.Proof.KernelIdeal.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (ρ : Dev nD → PrngReg)

/-! ## The recast weight matrices -/

/-- The first weight matrix recast to the narrower format is the argument. -/
theorem V1_v0 (c : Dev nD) :
    (V1 m ρ c main_v0 : S4096x4096.Idx → EReal) = (m ((c : Thread nD τ).loc main_arg1) : S4096x4096.Idx → EReal) := by
  show StableHlo.after hostOps0 (W0 m ρ c) (Proc.devRef .tc main_v0) = _
  dsimp only [hostOps0]
  after_results
  rfl

/-- The second weight matrix recast to the narrower format is the argument. -/
theorem V1_v1 (c : Dev nD) :
    (V1 m ρ c main_v1 : S4096x4096.Idx → EReal) = (m ((c : Thread nD τ).loc main_arg3) : S4096x4096.Idx → EReal) := by
  show StableHlo.after hostOps0 (W0 m ρ c) (Proc.devRef .tc main_v1) = _
  dsimp only [hostOps0]
  after_results
  rfl

/-! ## The reshaped bias rows -/

/-- The first bias as a 1 × 4096 row: entry (0, o) is the argument's entry o. -/
theorem V1_v2 (c : Dev nD) (o : Fin 4096) :
    (V1 m ρ c main_v2 : S1x4096.Idx → EReal) (ix2 (0 : Fin 1) o) = (m ((c : Thread nD τ).loc main_arg2) : S4096.Idx → EReal) (ix1 o) := by
  have e : (V1 m ρ c main_v2 : S1x4096.Idx → EReal) = shapeCast S1x4096 (m ((c : Thread nD τ).loc main_arg2) : S4096.Idx → EReal) Facts₀.shapeCasts_S4096_S1x4096 := by
    show StableHlo.after hostOps0 (W0 m ρ c) (Proc.devRef .tc main_v2) = _
    dsimp only [hostOps0]
    after_results
    rfl
  rw [e]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

/-- The second bias as a 1 × 4096 row: entry (0, o) is the argument's entry o. -/
theorem V1_v3 (c : Dev nD) (o : Fin 4096) :
    (V1 m ρ c main_v3 : S1x4096.Idx → EReal) (ix2 (0 : Fin 1) o) = (m ((c : Thread nD τ).loc main_arg4) : S4096.Idx → EReal) (ix1 o) := by
  have e : (V1 m ρ c main_v3 : S1x4096.Idx → EReal) = shapeCast S1x4096 (m ((c : Thread nD τ).loc main_arg4) : S4096.Idx → EReal) Facts₀.shapeCasts_S4096_S1x4096 := by
    show StableHlo.after hostOps0 (W0 m ρ c) (Proc.devRef .tc main_v3) = _
    dsimp only [hostOps0]
    after_results
    rfl
  rw [e]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

/-- The head's bias as a 1 × 2 row: entry (0, k) is the argument's entry k. -/
theorem V1_v4 (c : Dev nD) (k : Fin 2) :
    (V1 m ρ c main_v4 : S1x2.Idx → EReal) (ix2 (0 : Fin 1) k) = (m ((c : Thread nD τ).loc main_arg6) : S2.Idx → EReal) (ix1 k) := by
  have e : (V1 m ρ c main_v4 : S1x2.Idx → EReal) = shapeCast S1x2 (m ((c : Thread nD τ).loc main_arg6) : S2.Idx → EReal) Facts₀.shapeCasts_S2_S1x2 := by
    show StableHlo.after hostOps0 (W0 m ρ c) (Proc.devRef .tc main_v4) = _
    dsimp only [hostOps0]
    after_results
    rfl
  rw [e]
  refine shapeCast_apply _ _ _ _ ?_
  show (S2.rowMajor (ix1 k)).val = (S1x2.rowMajor (ix2 (0 : Fin 1) k)).val
  rw [Shape.rowMajor_val_one, Shape.rowMajor_val_two]
  show k.val = 0 * 2 + k.val
  omega

/-! ## The arguments the kernels read directly -/

/-- The data matrix is as launched. -/
theorem V1_arg0 (c : Dev nD) : V1 m ρ c main_arg0 = m ((c : Thread nD τ).loc main_arg0) :=
  W1_of_arg m ρ c main_arg0 (by decide)

/-- The head's weights are as launched. -/
theorem V1_arg5 (c : Dev nD) : V1 m ρ c main_arg5 = m ((c : Thread nD τ).loc main_arg5) :=
  W1_of_arg m ρ c main_arg5 (by decide)

end Cert.KernelIdeal.Hand

end
-- ==== Proof.Spec.lean ====
/-
  The mathematics of the certificate, stated once over the extended reals and over whole arrays.

  For a data matrix X (4096 rows of 64 features) the radial-basis Gram matrix is
      gram p q = exp (−1 · max ((‖x_p‖² + ‖x_q‖²) − 2 · ⟨x_p, x_q⟩, 0)),
  and the classifier is two dense layers with a rectifier followed by a two-column head:
      h1 p o     = max (∑_k gram p k · W1 o k + b1 o, 0)
      h2 p j     = max (∑_k h1 p k · W2 j k + b2 j, 0)
      logits p c = ∑_j h2 p j · Wh c j + bh c.
  The literals 2, −1 and 0 are kept as the binary32 words both programs print, so that the same word on both
  sides is never evaluated.
-/
import Idealize.ShloMosaic.PureOps.Ideal
import Idealize.ShloMosaic.Lib.ValueIdx

noncomputable section

open scoped BigOperators

namespace Cert.RbfMlp

open Idealize.ShloMosaic Idealize.ShloMosaic.ValueIdx

/-- A rank-2 array of extended reals. -/
abbrev Mat (a b : Nat) : Type := (⟨2, ![a, b]⟩ : Shape).Idx → EReal
/-- A rank-1 array of extended reals. -/
abbrev Row (a : Nat) : Type := (⟨1, ![a]⟩ : Shape).Idx → EReal

/-- The word of 2.0, of −1.0 and of 0.0 as extended reals. -/
def two : EReal := Ideal.ofBits .f32 0x40000000#32
def negOne : EReal := Ideal.ofBits .f32 0xBF800000#32
def zero : EReal := Ideal.ofBits .f32 0x00000000#32

/-- The squared norm of row `p`. -/
def sqn (X : Mat 4096 64) (p : Fin 4096) : EReal := ∑ d : Fin 64, X (ix2 p d) * X (ix2 p d)
/-- The inner product of rows `p` and `q`. -/
def cross (X : Mat 4096 64) (p q : Fin 4096) : EReal := ∑ d : Fin 64, X (ix2 p d) * X (ix2 q d)
/-- The radial-basis Gram entry of rows `p` and `q`. -/
def gram (X : Mat 4096 64) (p q : Fin 4096) : EReal :=
  Ideal.exp (negOne * max ((sqn X p + sqn X q) - two * cross X p q) zero)
/-- The first hidden layer. -/
def h1 (X : Mat 4096 64) (W1 : Mat 4096 4096) (b1 : Row 4096) (p o : Fin 4096) : EReal :=
  max ((∑ k : Fin 4096, gram X p k * W1 (ix2 o k)) + b1 (ix1 o)) zero
/-- The second hidden layer. -/
def h2 (X : Mat 4096 64) (W1 : Mat 4096 4096) (b1 : Row 4096) (W2 : Mat 4096 4096) (b2 : Row 4096) (p j : Fin 4096) : EReal :=
  max ((∑ k : Fin 4096, h1 X W1 b1 p k * W2 (ix2 j k)) + b2 (ix1 j)) zero
/-- The two logits of row `p`. -/
def logits (X : Mat 4096 64) (W1 : Mat 4096 4096) (b1 : Row 4096) (W2 : Mat 4096 4096) (b2 : Row 4096)
    (Wh : Mat 2 4096) (bh : Row 2) (p : Fin 4096) (c : Fin 2) : EReal :=
  (∑ j : Fin 4096, h2 X W1 b1 W2 b2 p j * Wh (ix2 c j)) + bh (ix1 c)

/-- The result array: the logits, index by index. -/
def result (X : Mat 4096 64) (W1 : Mat 4096 4096) (b1 : Row 4096) (W2 : Mat 4096 4096) (b2 : Row 4096)
    (Wh : Mat 2 4096) (bh : Row 2) : Mat 4096 2 :=
  fun i => logits X W1 b1 W2 b2 Wh bh (i 0) (i 1)

end Cert.RbfMlp

end
-- ==== Proof.KernelIdeal.Pay0.lean ====
/-
  The first kernel's block values read at an index, over the extended reals.

  For a block xi of 2048 rows and a block xk of 1024 rows of the data matrix, one step of the first kernel adds to the
  accumulator the product of the radial-basis Gram block
      exp (−1 · max ((‖xi_p‖² + ‖xk_q‖²) − 2 · ⟨xi_p, xk_q⟩, 0))
  with the transpose of a 2048 × 1024 block of weights; the last step adds the bias row and rectifies. Each array
  operation read at an index is one element of its operands: a pointwise operation is the operation on the elements, a
  cast or broadcast reads its operand at the corresponding index, a sum along rows is the sum over the row, and a
  product into the zero array is the sum over the shared axis.
-/
import proofs.«136834_j65481071406559_2_alg».proof.Proof.Gen.KernelIdeal.Skeleton
import proofs.«136834_j65481071406559_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.RbfMlp

/-! ### Layout operations read at an index -/

section Layout
variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential of an array at an index is the exponential of the element. -/
theorem exp_apply {s : Shape} {φ : FTy} (a : FVec Ideal s φ) (i : s.Idx) : exp a i = Ideal.exp (a i) := rfl

/-- A sum along the rows of an [n, m] array, from the zero word, at p, is the sum over the row p. -/
theorem lane_sum_apply {n m : ℕ} (x : FVec Ideal ⟨2, ![n, m]⟩ .f32) (h : (⟨2, ![n, m]⟩ : Shape).Reduces [1] ⟨1, ![n]⟩)
    (hacc : (0x00000000#32 : BitVec 32) = 0x00000000#32) (p : Fin n) :
    multiReduction (F := Ideal) .add [1] ⟨1, ![n]⟩ x 0x00000000#32 h (.inl rfl) hacc (ix1 p) = ∑ d : Fin m, x (ix2 p d) := by
  refine (Ideal.multiReduction_add_single x 0x00000000#32 h (.inl rfl) hacc (ix1 p)).trans ?_
  refine Finset.sum_congr rfl fun d _ => congrArg x (funext fun a => Fin.ext ?_)
  match a with
  | ⟨0, _⟩ => rfl
  | ⟨1, _⟩ => rfl

/-! ### The product dotX: an [2048, 64] array times the transpose of an [1024, 64] array -/

theorem dotX_lhs_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem dotX_lhs_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
theorem dotX_rhs_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem dotX_rhs_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- Into the zero array, the product at (p, o) is the sum over the shared axis of left (p, q) times right (o, q). -/
theorem dotX_apply {φ₁ φ₂ : FTy} (prec : Option ContractPrecision) (lhs : FVec Ideal S2048x64 φ₁) (rhs : FVec Ideal S1024x64 φ₂)
    (p : Fin 2048) (o : Fin 1024) :
    FloatOps.matmul dot_S2048x64_S1024x64_S2048x1024_1_1_0_0_n_n prec lhs rhs (constant (F := Ideal) S2048x1024 .f32 0x00000000#32) (ix2 p o)
      = ∑ q : Fin 64, lhs (ix2 p q) * rhs (ix2 o q) := by
  rw [Ideal.matmul_constant_zero_apply, ← Equiv.sum_comp (contrEquiv1 dot_S2048x64_S1024x64_S2048x1024_1_1_0_0_n_n 64 rfl rfl).symm]
  refine Finset.sum_congr rfl fun q _ => ?_
  have hk := contrEquiv1_symm_val dot_S2048x64_S1024x64_S2048x1024_1_1_0_0_n_n 64 rfl rfl q
  have el : dot_S2048x64_S1024x64_S2048x1024_1_1_0_0_n_n.lhsIdx (ix2 p o) ((contrEquiv1 dot_S2048x64_S1024x64_S2048x1024_1_1_0_0_n_n 64 rfl rfl).symm q) = ix2 p q := funext fun a => Fin.ext (by
    match a with
    | ⟨0, _⟩ => exact dotX_lhs_0 _ _
    | ⟨1, _⟩ => exact (dotX_lhs_1 _ _).trans hk)
  have er : dot_S2048x64_S1024x64_S2048x1024_1_1_0_0_n_n.rhsIdx (ix2 p o) ((contrEquiv1 dot_S2048x64_S1024x64_S2048x1024_1_1_0_0_n_n 64 rfl rfl).symm q) = ix2 o q := funext fun a => Fin.ext (by
    match a with
    | ⟨0, _⟩ => exact dotX_rhs_0 _ _
    | ⟨1, _⟩ => exact (dotX_rhs_1 _ _).trans hk)
  rw [el, er]

/-! ### The product dotW: an [2048, 1024] array times the transpose of an [2048, 1024] array -/

theorem dotW_lhs_0 (i : S2048x2048.Idx) (q : dot_S2048x1024_S2048x1024_S2048x2048_1_1_0_0_n_n.contr.Idx) :
    (dot_S2048x1024_S2048x1024_S2048x2048_1_1_0_0_n_n.lhsIdx i q 0).val = (i 0).val := by
  unfold DotDims.lhsIdx
  rw [dif_neg (show ¬(0 : Fin S2048x1024.rank) ∈ dot_S2048x1024_S2048x1024_S2048x2048_1_1_0_0_n_n.lhsBatch by decide), dif_pos (show (0 : Fin S2048x1024.rank) ∈ dot_S2048x1024_S2048x1024_S2048x2048_1_1_0_0_n_n.lhsNonContracting by decide)]
  rfl
theorem dotW_lhs_1 (i : S2048x2048.Idx) (q : dot_S2048x1024_S2048x1024_S2048x2048_1_1_0_0_n_n.contr.Idx) :
    (dot_S2048x1024_S2048x1024_S2048x2048_1_1_0_0_n_n.lhsIdx i q 1).val = (q ⟨0, by decide⟩).val :=
  dot_S2048x1024_S2048x1024_S2048x2048_1_1_0_0_n_n.lhsIdx_val_of_single rfl i q
theorem dotW_rhs_0 (i : S2048x2048.Idx) (q : dot_S2048x1024_S2048x1024_S2048x2048_1_1_0_0_n_n.contr.Idx) :
    (dot_S2048x1024_S2048x1024_S2048x2048_1_1_0_0_n_n.rhsIdx i q 0).val = (i 1).val := by
  unfold DotDims.rhsIdx
  rw [dif_neg (show ¬(0 : Fin S2048x1024.rank) ∈ dot_S2048x1024_S2048x1024_S2048x2048_1_1_0_0_n_n.rhsBatch by decide), dif_pos (show (0 : Fin S2048x1024.rank) ∈ dot_S2048x1024_S2048x1024_S2048x2048_1_1_0_0_n_n.rhsNonContracting by decide)]
  rfl
theorem dotW_rhs_1 (i : S2048x2048.Idx) (q : dot_S2048x1024_S2048x1024_S2048x2048_1_1_0_0_n_n.contr.Idx) :
    (dot_S2048x1024_S2048x1024_S2048x2048_1_1_0_0_n_n.rhsIdx i q 1).val = (q ⟨0, by decide⟩).val :=
  dot_S2048x1024_S2048x1024_S2048x2048_1_1_0_0_n_n.rhsIdx_val_of_single rfl i q

/-- Into the zero array, the product at (p, o) is the sum over the shared axis of left (p, q) times right (o, q). -/
theorem dotW_apply {φ₁ φ₂ : FTy} (prec : Option ContractPrecision) (lhs : FVec Ideal S2048x1024 φ₁) (rhs : FVec Ideal S2048x1024 φ₂)
    (p : Fin 2048) (o : Fin 2048) :
    FloatOps.matmul dot_S2048x1024_S2048x1024_S2048x2048_1_1_0_0_n_n prec lhs rhs (constant (F := Ideal) S2048x2048 .f32 0x00000000#32) (ix2 p o)
      = ∑ q : Fin 1024, lhs (ix2 p q) * rhs (ix2 o q) := by
  rw [Ideal.matmul_constant_zero_apply, ← Equiv.sum_comp (contrEquiv1 dot_S2048x1024_S2048x1024_S2048x2048_1_1_0_0_n_n 1024 rfl rfl).symm]
  refine Finset.sum_congr rfl fun q _ => ?_
  have hk := contrEquiv1_symm_val dot_S2048x1024_S2048x1024_S2048x2048_1_1_0_0_n_n 1024 rfl rfl q
  have el : dot_S2048x1024_S2048x1024_S2048x2048_1_1_0_0_n_n.lhsIdx (ix2 p o) ((contrEquiv1 dot_S2048x1024_S2048x1024_S2048x2048_1_1_0_0_n_n 1024 rfl rfl).symm q) = ix2 p q := funext fun a => Fin.ext (by
    match a with
    | ⟨0, _⟩ => exact dotW_lhs_0 _ _
    | ⟨1, _⟩ => exact (dotW_lhs_1 _ _).trans hk)
  have er : dot_S2048x1024_S2048x1024_S2048x2048_1_1_0_0_n_n.rhsIdx (ix2 p o) ((contrEquiv1 dot_S2048x1024_S2048x1024_S2048x2048_1_1_0_0_n_n 1024 rfl rfl).symm q) = ix2 o q := funext fun a => Fin.ext (by
    match a with
    | ⟨0, _⟩ => exact dotW_rhs_0 _ _
    | ⟨1, _⟩ => exact (dotW_rhs_1 _ _).trans hk)
  rw [el, er]

/-! ### The block values -/

/-- The accumulator's first value is the zero word everywhere … -/
theorem k0_pay2_apply (p o : Fin 2048) : k0_pay2 (F := Ideal) (ix2 p o) = Cert.RbfMlp.zero := by
  simp only [k0_pay2, shapeCast_self]
  rfl
/-- … which is the extended real 0. -/
theorem k0_pay2_apply_zero (p o : Fin 2048) : k0_pay2 (F := Ideal) (ix2 p o) = 0 :=
  (k0_pay2_apply p o).trans Ideal.ofBits_zero_f32

/-- One accumulation step: the accumulator plus the Gram block times the transposed weight block. -/
theorem k0_pay3_apply (xi : FVec Ideal S2048x64 .f32) (xk : FVec Ideal S1024x64 .f32) (acc : FVec Ideal S2048x2048 .f32)
    (w : FVec Ideal S2048x1024 .bf16) (p o : Fin 2048) :
    k0_pay3 (F := Ideal) xi xk acc w (ix2 p o)
      = acc (ix2 p o) + ∑ q : Fin 1024,
          Ideal.exp (negOne * max (((∑ d : Fin 64, xi (ix2 p d) * xi (ix2 p d)) + (∑ d : Fin 64, xk (ix2 q d) * xk (ix2 q d)))
            - two * ∑ d : Fin 64, xi (ix2 p d) * xk (ix2 q d)) Cert.RbfMlp.zero) * w (ix2 o q) := by
  simp only [k0_pay3, shapeCast_self, matmul]
  rw [addf_apply, dotW_apply]
  refine congrArg (acc (ix2 p o) + ·) (Finset.sum_congr rfl fun q _ => congrArg (· * w (ix2 o q)) ?_)
  simp only [truncf_apply, exp_apply, mulf_apply, maximumf_apply, subf_apply, addf_apply, broadcast_apply]
  rw [broadcastTo_a1_ab_apply, shapeCast_a_a1_apply, lane_sum_apply, broadcastTo_1b_ab_apply, transpose_ix2_apply,
    shapeCast_a_a1_apply, lane_sum_apply, dotX_apply]
  simp only [mulf_apply]
  rfl

/-- The last step: the accumulator plus the bias row, rectified. -/
theorem k0_pay1_apply (acc : FVec Ideal S2048x2048 .f32) (b : FVec Ideal S1x2048 .f32) (p o : Fin 2048) :
    k0_pay1 (F := Ideal) acc b (ix2 p o) = max (acc (ix2 p o) + b (ix2 (0 : Fin 1) o)) Cert.RbfMlp.zero := by
  simp only [k0_pay1, shapeCast_self]
  rw [truncf_apply, maximumf_apply, addf_apply, broadcast_apply, broadcastTo_1b_ab_apply]
  rfl

end Cert.KernelIdeal.Hand

end
-- ==== Proof.KernelIdeal.Accum0.lean ====
/-
  The first kernel's accumulator as a sum over its run of four contraction blocks.

  The grid point t has contraction block t % 4. At a point t of a last contraction block (t % 4 = 3) the
  accumulator is zero plus the four block products of the points t − 3, …, t, in that order; the zero word is
  the extended real 0. The output block stored there is that sum plus the bias row, rectified.
-/
import proofs.«136834_j65481071406559_2_alg».proof.Proof.KernelIdeal.Data0
import proofs.«136834_j65481071406559_2_alg».proof.Proof.KernelIdeal.Pay0

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.RbfMlp

section Region0

variable (V : (c : Dev nD) → (b : Ref sig .tc) → Buf (Elt Ideal) ((c : Thread nD τ).loc b))

/-- The Gram block of a block xi of 2048 rows and a block xk of 1024 rows, times the transposed weight block w,
    at (p, o). -/
def gramStep (xi : FVec Ideal S2048x64 .f32) (xk : FVec Ideal S1024x64 .f32) (w : FVec Ideal S2048x1024 .bf16)
    (p o : Fin 2048) : EReal :=
  ∑ q : Fin 1024,
    Ideal.exp (negOne * max (((∑ d : Fin 64, xi (ix2 p d) * xi (ix2 p d)) + (∑ d : Fin 64, xk (ix2 q d) * xk (ix2 q d)))
      - two * ∑ d : Fin 64, xi (ix2 p d) * xk (ix2 q d)) Cert.RbfMlp.zero) * w (ix2 o q)

theorem gramStep_def (xi : FVec Ideal S2048x64 .f32) (xk : FVec Ideal S1024x64 .f32) (w : FVec Ideal S2048x1024 .bf16)
    (p o : Fin 2048) :
    gramStep xi xk w p o = ∑ q : Fin 1024,
      Ideal.exp (negOne * max (((∑ d : Fin 64, xi (ix2 p d) * xi (ix2 p d)) + (∑ d : Fin 64, xk (ix2 q d) * xk (ix2 q d)))
        - two * ∑ d : Fin 64, xi (ix2 p d) * xk (ix2 q d)) Cert.RbfMlp.zero) * w (ix2 o q) := rfl

/-- The block product of the grid point s, at (p, o). -/
def step0 (c : Dev nD) (s : Fin cfg0.N) (p o : Fin 2048) : EReal :=
  gramStep (iblk0 V c 0 s) (iblk0 V c 1 s) (iblk0 V c 2 s) p o

theorem step0_def (c : Dev nD) (s : Fin cfg0.N) (p o : Fin 2048) :
    step0 V c s p o = gramStep (iblk0 V c 0 s) (iblk0 V c 1 s) (iblk0 V c 2 s) p o := rfl

/-- The kb-th point of the run of four that ends at t. -/
def runPt0 (t : Fin cfg0.N) (kb : Fin 4) : Fin cfg0.N :=
  ⟨t.val - 3 + kb.val, by have hN : cfg0.N = 16 := N_0; have := t.isLt; have := kb.isLt; omega⟩

theorem runPt0_val (t : Fin cfg0.N) (kb : Fin 4) : (runPt0 t kb).val = t.val - 3 + kb.val := rfl

/-- One step at a first contraction block: the block product alone. -/
theorem accAt0_first_apply (c : Dev nD) (t : Fin cfg0.N) (h : t.val % 4 = 0) (p o : Fin 2048) :
    accAt0 V c t.val t.isLt (ix2 p o) = step0 V c t p o := by
  rw [accAt0_first V c t h]
  refine (k0_pay3_apply _ _ _ _ p o).trans ?_
  rw [k0_pay2_apply_zero, zero_add]
  rfl

/-- One step elsewhere: the accumulator of the point before plus the block product. -/
theorem accAt0_next_apply (c : Dev nD) (t : Fin cfg0.N) (h : ¬t.val % 4 = 0) (p o : Fin 2048) :
    accAt0 V c t.val t.isLt (ix2 p o)
      = accAt0 V c (t.val - 1) (Nat.lt_of_le_of_lt (Nat.sub_le _ _) t.isLt) (ix2 p o) + step0 V c t p o := by
  rw [accAt0_next V c t h]
  exact k0_pay3_apply _ _ _ _ p o

/-- The accumulator at the point n + 3 of a last contraction block: the four block products of the run. -/
theorem accAt0_four (c : Dev nD) (n : ℕ) (hn : n + 3 < cfg0.N) (h : n % 4 = 0) (p o : Fin 2048) :
    accAt0 V c (n + 3) hn (ix2 p o)
      = step0 V c ⟨n, by omega⟩ p o + step0 V c ⟨n + 1, by omega⟩ p o + step0 V c ⟨n + 2, by omega⟩ p o
        + step0 V c ⟨n + 3, hn⟩ p o := by
  have e3 := accAt0_next_apply V c ⟨n + 3, hn⟩ (by show ¬(n + 3) % 4 = 0; omega) p o
  have e2 := accAt0_next_apply V c ⟨n + 2, by omega⟩ (by show ¬(n + 2) % 4 = 0; omega) p o
  have e1 := accAt0_next_apply V c ⟨n + 1, by omega⟩ (by show ¬(n + 1) % 4 = 0; omega) p o
  have e0 := accAt0_first_apply V c ⟨n, by omega⟩ h p o
  exact e3.trans (congrArg (· + _) (e2.trans (congrArg (· + _) (e1.trans (congrArg (· + _) e0)))))

/-- At a point t of a last contraction block the accumulator is the sum of the run's four block products. -/
theorem accAt0_run (c : Dev nD) (t : Fin cfg0.N) (h3 : t.val % 4 = 3) (p o : Fin 2048) :
    accAt0 V c t.val t.isLt (ix2 p o) = ∑ kb : Fin 4, step0 V c (runPt0 t kb) p o := by
  obtain ⟨tv, ht⟩ := t
  obtain ⟨n, rfl⟩ : ∃ n, tv = n + 3 := ⟨tv - 3, by have : tv % 4 = 3 := h3; omega⟩
  have h0 : n % 4 = 0 := by have : (n + 3) % 4 = 3 := h3; omega
  rw [Fin.sum_univ_four]
  have r0 : runPt0 ⟨n + 3, ht⟩ 0 = ⟨n, by omega⟩ := Fin.ext (by show n + 3 - 3 + 0 = n; omega)
  have r1 : runPt0 ⟨n + 3, ht⟩ 1 = ⟨n + 1, by omega⟩ := Fin.ext (by show n + 3 - 3 + 1 = n + 1; omega)
  have r2 : runPt0 ⟨n + 3, ht⟩ 2 = ⟨n + 2, by omega⟩ := Fin.ext (by show n + 3 - 3 + 2 = n + 2; omega)
  have r3 : runPt0 ⟨n + 3, ht⟩ 3 = ⟨n + 3, ht⟩ := Fin.ext (by show n + 3 - 3 + 3 = n + 3; omega)
  rw [r0, r1, r2, r3]
  exact accAt0_four V c n ht h0 p o

/-- The output block stored at any point: the accumulator plus the bias row, rectified … -/
theorem outAt0_apply (c : Dev nD) (t : Fin cfg0.N) (p o : Fin 2048) :
    outAt0 V c t (ix2 p o)
      = max (accAt0 V c t.val t.isLt (ix2 p o) + (iblk0 V c 3 t : FVec Ideal S1x2048 .f32) (ix2 (0 : Fin 1) o)) Cert.RbfMlp.zero := by
  unfold outAt0
  exact k0_pay1_apply _ _ p o

/-- … and at a point of a last contraction block, the run's sum plus the bias row, rectified. -/
theorem outAt0_run (c : Dev nD) (t : Fin cfg0.N) (h3 : t.val % 4 = 3) (p o : Fin 2048) :
    outAt0 V c t (ix2 p o)
      = max ((∑ kb : Fin 4, step0 V c (runPt0 t kb) p o) + (iblk0 V c 3 t : FVec Ideal S1x2048 .f32) (ix2 (0 : Fin 1) o))
          Cert.RbfMlp.zero := by
  rw [outAt0_apply, accAt0_run V c t h3]

end Region0

end Cert.KernelIdeal.Hand

end
-- ==== Proof.KernelIdeal.Blocks.lean ====
/-
  Which element of its array an element of a window's block is: for every input window of the two kernels,
  the block at grid point t read at x is the array read at the block's offset plus x.  The grids' 16 points
  are numbered row-major, so point t has coordinates (t / 8, (t / 4) % 2, t % 4); each window's block index
  is decided over the grid.
-/
import proofs.«136834_j65481071406559_2_alg».proof.Proof.KernelIdeal.Data1
import proofs.«136834_j65481071406559_2_alg».proof.Proof.KernelIdeal.Data0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## The first kernel's input windows -/

/-- The row-side window on the data matrix: 2048 rows, block row t / 8. -/
theorem idx0_0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

theorem iblk0_0_apply (c : Dev nD) (t : Fin cfg0.N) (x : S2048x64.Idx) (g : S4096x64.Idx)
    (h0 : (g 0).val = (t.val / 8) * 2048 + (x 0).val) (h1 : (g 1).val = (x 1).val) :
    (iblk0 V c 0 t : Vec F S2048x64 .f32) x = (V c main_arg0 : S4096x64.Idx → Elt F .f32) g := by
  have hi := idx0_0 t
  unfold iblk0
  rw [View.read_apply]
  show V c main_arg0 _ = V c main_arg0 _
  congr 1
  funext a
  apply Fin.ext
  match a with
  | ⟨0, _⟩ => show win0_0.index t 0 * 2048 + 1 * (x 0).val = (g 0).val; rw [hi.1, h0]; omega
  | ⟨1, _⟩ => show win0_0.index t 1 * 64 + 1 * (x 1).val = (g 1).val; rw [hi.2, h1]; omega

/-- The contraction-side window on the data matrix: 1024 rows, block row t % 4. -/
theorem idx0_1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)

theorem iblk0_1_apply (c : Dev nD) (t : Fin cfg0.N) (x : S1024x64.Idx) (g : S4096x64.Idx)
    (h0 : (g 0).val = (t.val % 4) * 1024 + (x 0).val) (h1 : (g 1).val = (x 1).val) :
    (iblk0 V c 1 t : Vec F S1024x64 .f32) x = (V c main_arg0 : S4096x64.Idx → Elt F .f32) g := by
  have hi := idx0_1 t
  unfold iblk0
  rw [View.read_apply]
  show V c main_arg0 _ = V c main_arg0 _
  congr 1
  funext a
  apply Fin.ext
  match a with
  | ⟨0, _⟩ => show win0_1.index t 0 * 1024 + 1 * (x 0).val = (g 0).val; rw [hi.1, h0]; omega
  | ⟨1, _⟩ => show win0_1.index t 1 * 64 + 1 * (x 1).val = (g 1).val; rw [hi.2, h1]; omega

/-- The first weight matrix's window: block ((t / 4) % 2, t % 4) of 2048 × 1024. -/
theorem idx0_2 : ∀ t : Fin cfg0.N, win0_2.index t (0 : Fin 2) = (t.val / 4) % 2 ∧ win0_2.index t (1 : Fin 2) = t.val % 4 :=
  (by decide +kernel : ∀ t : Fin grid0.N, win0_2.index t (0 : Fin 2) = (t.val / 4) % 2 ∧ win0_2.index t (1 : Fin 2) = t.val % 4)

theorem iblk0_2_apply (c : Dev nD) (t : Fin cfg0.N) (x : S2048x1024.Idx) (g : S4096x4096.Idx)
    (h0 : (g 0).val = ((t.val / 4) % 2) * 2048 + (x 0).val) (h1 : (g 1).val = (t.val % 4) * 1024 + (x 1).val) :
    (iblk0 V c 2 t : Vec F S2048x1024 .bf16) x = (V c main_v0 : S4096x4096.Idx → Elt F .bf16) g := by
  have hi := idx0_2 t
  unfold iblk0
  rw [View.read_apply]
  show V c main_v0 _ = V c main_v0 _
  congr 1
  funext a
  apply Fin.ext
  match a with
  | ⟨0, _⟩ => show win0_2.index t 0 * 2048 + 1 * (x 0).val = (g 0).val; rw [hi.1, h0]; omega
  | ⟨1, _⟩ => show win0_2.index t 1 * 1024 + 1 * (x 1).val = (g 1).val; rw [hi.2, h1]; omega

/-- The first bias row's window: 2048 columns, block column (t / 4) % 2. -/
theorem idx0_3 : ∀ t : Fin cfg0.N, win0_3.index t (0 : Fin 2) = 0 ∧ win0_3.index t (1 : Fin 2) = (t.val / 4) % 2 :=
  (by decide +kernel : ∀ t : Fin grid0.N, win0_3.index t (0 : Fin 2) = 0 ∧ win0_3.index t (1 : Fin 2) = (t.val / 4) % 2)

theorem iblk0_3_apply (c : Dev nD) (t : Fin cfg0.N) (x : S1x2048.Idx) (g : S1x4096.Idx)
    (h0 : (g 0).val = (x 0).val) (h1 : (g 1).val = ((t.val / 4) % 2) * 2048 + (x 1).val) :
    (iblk0 V c 3 t : Vec F S1x2048 .f32) x = (V c main_v2 : S1x4096.Idx → Elt F .f32) g := by
  have hi := idx0_3 t
  unfold iblk0
  rw [View.read_apply]
  show V c main_v2 _ = V c main_v2 _
  congr 1
  funext a
  apply Fin.ext
  match a with
  | ⟨0, _⟩ => show win0_3.index t 0 * 1 + 1 * (x 0).val = (g 0).val; rw [hi.1, h0]; omega
  | ⟨1, _⟩ => show win0_3.index t 1 * 2048 + 1 * (x 1).val = (g 1).val; rw [hi.2, h1]; omega

/-! ## The second kernel's input windows -/

/-- The hidden layer's window: block (t / 8, t % 4) of 2048 × 1024. -/
theorem idx1_0 : ∀ t : Fin cfg1.N, win1_0.index t (0 : Fin 2) = t.val / 8 ∧ win1_0.index t (1 : Fin 2) = t.val % 4 :=
  (by decide +kernel : ∀ t : Fin grid1.N, win1_0.index t (0 : Fin 2) = t.val / 8 ∧ win1_0.index t (1 : Fin 2) = t.val % 4)

theorem iblk1_0_apply (c : Dev nD) (t : Fin cfg1.N) (x : S2048x1024.Idx) (g : S4096x4096.Idx)
    (h0 : (g 0).val = (t.val / 8) * 2048 + (x 0).val) (h1 : (g 1).val = (t.val % 4) * 1024 + (x 1).val) :
    (iblk1 V c 0 t : Vec F S2048x1024 .bf16) x = (V c main_v5 : S4096x4096.Idx → Elt F .bf16) g := by
  have hi := idx1_0 t
  unfold iblk1
  rw [View.read_apply]
  show V c main_v5 _ = V c main_v5 _
  congr 1
  funext a
  apply Fin.ext
  match a with
  | ⟨0, _⟩ => show win1_0.index t 0 * 2048 + 1 * (x 0).val = (g 0).val; rw [hi.1, h0]; omega
  | ⟨1, _⟩ => show win1_0.index t 1 * 1024 + 1 * (x 1).val = (g 1).val; rw [hi.2, h1]; omega

/-- The second weight matrix's window: block ((t / 4) % 2, t % 4) of 2048 × 1024. -/
theorem idx1_1 : ∀ t : Fin cfg1.N, win1_1.index t (0 : Fin 2) = (t.val / 4) % 2 ∧ win1_1.index t (1 : Fin 2) = t.val % 4 :=
  (by decide +kernel : ∀ t : Fin grid1.N, win1_1.index t (0 : Fin 2) = (t.val / 4) % 2 ∧ win1_1.index t (1 : Fin 2) = t.val % 4)

theorem iblk1_1_apply (c : Dev nD) (t : Fin cfg1.N) (x : S2048x1024.Idx) (g : S4096x4096.Idx)
    (h0 : (g 0).val = ((t.val / 4) % 2) * 2048 + (x 0).val) (h1 : (g 1).val = (t.val % 4) * 1024 + (x 1).val) :
    (iblk1 V c 1 t : Vec F S2048x1024 .bf16) x = (V c main_v1 : S4096x4096.Idx → Elt F .bf16) g := by
  have hi := idx1_1 t
  unfold iblk1
  rw [View.read_apply]
  show V c main_v1 _ = V c main_v1 _
  congr 1
  funext a
  apply Fin.ext
  match a with
  | ⟨0, _⟩ => show win1_1.index t 0 * 2048 + 1 * (x 0).val = (g 0).val; rw [hi.1, h0]; omega
  | ⟨1, _⟩ => show win1_1.index t 1 * 1024 + 1 * (x 1).val = (g 1).val; rw [hi.2, h1]; omega

/-- The second bias row's window: 2048 columns, block column (t / 4) % 2. -/
theorem idx1_2 : ∀ t : Fin cfg1.N, win1_2.index t (0 : Fin 2) = 0 ∧ win1_2.index t (1 : Fin 2) = (t.val / 4) % 2 :=
  (by decide +kernel : ∀ t : Fin grid1.N, win1_2.index t (0 : Fin 2) = 0 ∧ win1_2.index t (1 : Fin 2) = (t.val / 4) % 2)

theorem iblk1_2_apply (c : Dev nD) (t : Fin cfg1.N) (x : S1x2048.Idx) (g : S1x4096.Idx)
    (h0 : (g 0).val = (x 0).val) (h1 : (g 1).val = ((t.val / 4) % 2) * 2048 + (x 1).val) :
    (iblk1 V c 2 t : Vec F S1x2048 .f32) x = (V c main_v3 : S1x4096.Idx → Elt F .f32) g := by
  have hi := idx1_2 t
  unfold iblk1
  rw [View.read_apply]
  show V c main_v3 _ = V c main_v3 _
  congr 1
  funext a
  apply Fin.ext
  match a with
  | ⟨0, _⟩ => show win1_2.index t 0 * 1 + 1 * (x 0).val = (g 0).val; rw [hi.1, h0]; omega
  | ⟨1, _⟩ => show win1_2.index t 1 * 2048 + 1 * (x 1).val = (g 1).val; rw [hi.2, h1]; omega

/-- The head's weights' window: both rows, 2048 columns, block column (t / 4) % 2. -/
theorem idx1_3 : ∀ t : Fin cfg1.N, win1_3.index t (0 : Fin 2) = 0 ∧ win1_3.index t (1 : Fin 2) = (t.val / 4) % 2 :=
  (by decide +kernel : ∀ t : Fin grid1.N, win1_3.index t (0 : Fin 2) = 0 ∧ win1_3.index t (1 : Fin 2) = (t.val / 4) % 2)

theorem iblk1_3_apply (c : Dev nD) (t : Fin cfg1.N) (x : S2x2048.Idx) (g : S2x4096.Idx)
    (h0 : (g 0).val = (x 0).val) (h1 : (g 1).val = ((t.val / 4) % 2) * 2048 + (x 1).val) :
    (iblk1 V c 3 t : Vec F S2x2048 .f32) x = (V c main_arg5 : S2x4096.Idx → Elt F .f32) g := by
  have hi := idx1_3 t
  unfold iblk1
  rw [View.read_apply]
  show V c main_arg5 _ = V c main_arg5 _
  congr 1
  funext a
  apply Fin.ext
  match a with
  | ⟨0, _⟩ => show win1_3.index t 0 * 2 + 1 * (x 0).val = (g 0).val; rw [hi.1, h0]; omega
  | ⟨1, _⟩ => show win1_3.index t 1 * 2048 + 1 * (x 1).val = (g 1).val; rw [hi.2, h1]; omega

/-- The head's bias row's window: the whole 1 × 2 array at every point. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

theorem iblk1_4_apply (c : Dev nD) (t : Fin cfg1.N) (x : S1x2.Idx) (g : S1x2.Idx)
    (h0 : (g 0).val = (x 0).val) (h1 : (g 1).val = (x 1).val) :
    (iblk1 V c 4 t : Vec F S1x2 .f32) x = (V c main_v4 : S1x2.Idx → Elt F .f32) g := by
  have hi := idx1_4 t
  unfold iblk1
  rw [View.read_apply]
  show V c main_v4 _ = V c main_v4 _
  congr 1
  funext a
  apply Fin.ext
  match a with
  | ⟨0, _⟩ => show win1_4.index t 0 * 1 + 1 * (x 0).val = (g 0).val; rw [hi.1, h0]; omega
  | ⟨1, _⟩ => show win1_4.index t 1 * 2 + 1 * (x 1).val = (g 1).val; rw [hi.2, h1]; omega

end Cert.KernelIdeal.Hand

end
-- ==== Proof.Spec2.lean ====
/-
  The two layers as whole-array functions of two-dimensional operands, in the arrangement the kernels use:
  the biases as one-row matrices.

      firstLayer X W b (p, o)            = max (∑_k gram X p k · W (o, k) + b (0, o), 0)
      headOf H W2 b2 Wh bh (p, c)        = ∑_j max (∑_k H (p, k) · W2 (j, k) + b2 (0, j), 0) · Wh (c, j) + bh (0, c)

  With one-row biases that hold a vector's entries, the head of the first layer is the specification's result.
-/
import proofs.«136834_j65481071406559_2_alg».proof.Proof.Spec

noncomputable section

open scoped BigOperators

namespace Cert.RbfMlp

open Idealize.ShloMosaic Idealize.ShloMosaic.ValueIdx

/-- The first hidden layer over a one-row bias. -/
def firstLayer (X : Mat 4096 64) (W : Mat 4096 4096) (b : Mat 1 4096) : Mat 4096 4096 :=
  fun g => max ((∑ k : Fin 4096, gram X (g 0) k * W (ix2 (g 1) k)) + b (ix2 (0 : Fin 1) (g 1))) zero

/-- The second hidden layer and the head over one-row biases, from the first layer's array. -/
def headOf (H : Mat 4096 4096) (W2 : Mat 4096 4096) (b2 : Mat 1 4096) (Wh : Mat 2 4096) (bh : Mat 1 2) : Mat 4096 2 :=
  fun g => (∑ j : Fin 4096, max ((∑ k : Fin 4096, H (ix2 (g 0) k) * W2 (ix2 j k)) + b2 (ix2 (0 : Fin 1) j)) zero * Wh (ix2 (g 1) j))
    + bh (ix2 (0 : Fin 1) (g 1))

/-- With one-row biases holding the vectors' entries, the two agree with the specification. -/
theorem headOf_firstLayer (X : Mat 4096 64) (W1 : Mat 4096 4096) (b1 : Row 4096) (W2 : Mat 4096 4096) (b2 : Row 4096)
    (Wh : Mat 2 4096) (bh : Row 2) (b1' : Mat 1 4096) (b2' : Mat 1 4096) (bh' : Mat 1 2)
    (h1' : ∀ o : Fin 4096, b1' (ix2 (0 : Fin 1) o) = b1 (ix1 o)) (h2' : ∀ o : Fin 4096, b2' (ix2 (0 : Fin 1) o) = b2 (ix1 o))
    (hh' : ∀ k : Fin 2, bh' (ix2 (0 : Fin 1) k) = bh (ix1 k)) :
    headOf (firstLayer X W1 b1') W2 b2' Wh bh' = result X W1 b1 W2 b2 Wh bh := by
  funext g
  obtain ⟨p, cc, rfl⟩ : ∃ (p : Fin 4096) (cc : Fin 2), g = ix2 p cc := ⟨g 0, g 1, eq_ix2 g⟩
  unfold headOf result logits h2 h1 firstLayer
  simp only [h1', h2', hh']

end Cert.RbfMlp

end
-- ==== Proof.SumBlocks.lean ====
/-
  A finite sum read block by block.

  The indices below n · m are exactly the numbers b · m + j with b below n and j below m, each once
  (division with remainder by m). So a sum over the n · m indices is the sum over the n blocks of the sum
  over the m offsets in a block. The two cases used for the arrays of 4096 columns are stated with the
  literal 4096: four blocks of 1024 and two blocks of 2048.
-/
import Idealize.ShloMosaic.PureOps.Ideal

open scoped BigOperators

namespace Cert.RbfMlp

/-- The index b · m + j of offset j in block b lies below n · m. -/
theorem block_lt {n m : ℕ} (b : Fin n) (j : Fin m) : b.val * m + j.val < n * m :=
  calc b.val * m + j.val < b.val * m + m := Nat.add_lt_add_left j.isLt _
    _ = (b.val + 1) * m := (Nat.succ_mul _ _).symm
    _ ≤ n * m := Nat.mul_le_mul_right _ b.isLt

/-- A sum over the indices below n · m is the sum over the n blocks of the sums over the m offsets. -/
theorem sum_blocks {M : Type*} [AddCommMonoid M] (n m : ℕ) (f : Fin (n * m) → M) :
    ∑ k, f k = ∑ b : Fin n, ∑ j : Fin m, f ⟨b.val * m + j.val, block_lt b j⟩ := by
  rw [← Equiv.sum_comp (finProdFinEquiv (m := n) (n := m)) f, Fintype.sum_prod_type]
  refine Finset.sum_congr rfl fun b _ => Finset.sum_congr rfl fun j _ => ?_
  refine congrArg f (Fin.ext ?_)
  show j.val + m * b.val = b.val * m + j.val
  rw [Nat.add_comm, Nat.mul_comm]

/-- 4096 indices as four blocks of 1024. -/
theorem sum_blocks_4_1024 {M : Type*} [AddCommMonoid M] (f : Fin 4096 → M) :
    ∑ k, f k = ∑ b : Fin 4, ∑ j : Fin 1024, f ⟨b.val * 1024 + j.val, block_lt (n := 4) (m := 1024) b j⟩ :=
  sum_blocks 4 1024 f

/-- 4096 indices as two blocks of 2048. -/
theorem sum_blocks_2_2048 {M : Type*} [AddCommMonoid M] (f : Fin 4096 → M) :
    ∑ k, f k = ∑ b : Fin 2, ∑ j : Fin 2048, f ⟨b.val * 2048 + j.val, block_lt (n := 2) (m := 2048) b j⟩ :=
  sum_blocks 2 2048 f

end Cert.RbfMlp
-- ==== Proof.KernelIdeal.Point0.lean ====
/-
  The first kernel's stored blocks are blocks of the first layer.

  At the last point t of a run of four contraction blocks the kernel stores the output block of block row t / 8 and
  block column (t / 4) % 2. Its element (p, o) is the rectified sum of the bias and of the four block products of the
  run; the kb-th product runs over the columns kb · 1024 + q of the Gram matrix of the data matrix, whose rows the
  windows cut out, so the four products together are the sum over all 4096 columns: the first layer at the element
  (t / 8 · 2048 + p, (t / 4) % 2 · 2048 + o).
-/
import proofs.«136834_j65481071406559_2_alg».proof.Proof.KernelIdeal.Accum0
import proofs.«136834_j65481071406559_2_alg».proof.Proof.KernelIdeal.Blocks
import proofs.«136834_j65481071406559_2_alg».proof.Proof.Spec2
import proofs.«136834_j65481071406559_2_alg».proof.Proof.SumBlocks

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.RbfMlp

section Region0

variable (V : (c : Dev nD) → (b : Ref sig .tc) → Buf (Elt Ideal) ((c : Thread nD τ).loc b))

/-- One block product of the run is the Gram row times the weight row over the block's 1024 columns. -/
theorem step0_eq (c : Dev nD) (t : Fin cfg0.N) (h3 : t.val % 4 = 3) (kb : Fin 4) (p o : Fin 2048) (P O : Fin 4096)
    (hP : P.val = t.val / 8 * 2048 + p.val) (hO : O.val = t.val / 4 % 2 * 2048 + o.val) :
    step0 V c (runPt0 t kb) p o
      = ∑ q : Fin 1024, gram (V c main_arg0) P ⟨kb.val * 1024 + q.val, block_lt (n := 4) (m := 1024) kb q⟩
          * (V c main_v0 : S4096x4096.Idx → EReal) (ix2 O ⟨kb.val * 1024 + q.val, block_lt (n := 4) (m := 1024) kb q⟩) := by
  have hN : cfg0.N = 16 := N_0
  have ht := t.isLt
  have hkb := kb.isLt
  have hs : (runPt0 t kb).val = t.val - 3 + kb.val := rfl
  rw [step0_def, gramStep_def]
  refine Finset.sum_congr rfl fun q _ => ?_
  have hq := q.isLt
  have e_i : ∀ d : Fin 64, (iblk0 V c 0 (runPt0 t kb) : Vec Ideal S2048x64 .f32) (ix2 p d)
      = (V c main_arg0 : S4096x64.Idx → Elt Ideal .f32) (ix2 P d) := fun d =>
    iblk0_0_apply V c (runPt0 t kb) (ix2 p d) (ix2 P d)
      (by show P.val = (runPt0 t kb).val / 8 * 2048 + p.val; rw [hs, hP]; omega) rfl
  have e_k : ∀ d : Fin 64, (iblk0 V c 1 (runPt0 t kb) : Vec Ideal S1024x64 .f32) (ix2 q d)
      = (V c main_arg0 : S4096x64.Idx → Elt Ideal .f32)
          (ix2 (⟨kb.val * 1024 + q.val, block_lt (n := 4) (m := 1024) kb q⟩ : Fin 4096) d) := fun d =>
    iblk0_1_apply V c (runPt0 t kb) (ix2 q d) (ix2 (⟨kb.val * 1024 + q.val, block_lt (n := 4) (m := 1024) kb q⟩ : Fin 4096) d)
      (by show kb.val * 1024 + q.val = (runPt0 t kb).val % 4 * 1024 + q.val; rw [hs]; omega) rfl
  have e_w : (iblk0 V c 2 (runPt0 t kb) : Vec Ideal S2048x1024 .bf16) (ix2 o q)
      = (V c main_v0 : S4096x4096.Idx → Elt Ideal .bf16)
          (ix2 O (⟨kb.val * 1024 + q.val, block_lt (n := 4) (m := 1024) kb q⟩ : Fin 4096)) :=
    iblk0_2_apply V c (runPt0 t kb) (ix2 o q) (ix2 O (⟨kb.val * 1024 + q.val, block_lt (n := 4) (m := 1024) kb q⟩ : Fin 4096))
      (by show O.val = (runPt0 t kb).val / 4 % 2 * 2048 + o.val; rw [hs, hO]; omega)
      (by show kb.val * 1024 + q.val = (runPt0 t kb).val % 4 * 1024 + q.val; rw [hs]; omega)
  simp only [e_i, e_k, e_w]
  rfl

/-- The block stored at the last point of a run of four is a block of the first layer. -/
theorem point0 (c : Dev nD) (t : Fin cfg0.N) (h3 : t.val % 4 = 3) (x : S2048x2048.Idx) (g : S4096x4096.Idx)
    (h0 : (g 0).val = (t.val / 8) * 2048 + (x 0).val) (h1 : (g 1).val = ((t.val / 4) % 2) * 2048 + (x 1).val) :
    outAt0 V c t x = (Cert.RbfMlp.firstLayer (V c main_arg0) (V c main_v0) (V c main_v2) : S4096x4096.Idx → EReal) g := by
  obtain ⟨p, o, rfl⟩ : ∃ (p o : Fin 2048), x = ix2 p o := ⟨x 0, x 1, eq_ix2 x⟩
  obtain ⟨P, O, rfl⟩ : ∃ (P O : Fin 4096), g = ix2 P O := ⟨g 0, g 1, eq_ix2 g⟩
  have hP : P.val = t.val / 8 * 2048 + p.val := h0
  have hO : O.val = t.val / 4 % 2 * 2048 + o.val := h1
  rw [outAt0_run V c t h3]
  show _ = max ((∑ k : Fin 4096, gram (V c main_arg0) P k * (V c main_v0 : S4096x4096.Idx → EReal) (ix2 O k))
    + (V c main_v2 : S1x4096.Idx → EReal) (ix2 (0 : Fin 1) O)) Cert.RbfMlp.zero
  refine congrArg (fun u => max u Cert.RbfMlp.zero) (congrArg₂ (· + ·) ?_ ?_)
  · refine Eq.trans ?_ (sum_blocks_4_1024 _).symm
    exact Finset.sum_congr rfl fun kb _ => step0_eq V c t h3 kb p o P O hP hO
  · exact iblk0_3_apply V c t (ix2 (0 : Fin 1) o) (ix2 (0 : Fin 1) O) rfl hO

end Region0

end Cert.KernelIdeal.Hand

end
-- ==== Proof.KernelIdeal.Pay1.lean ====
/-
  The second kernel's block values read at an index, over the extended reals.

  One step of the second kernel adds to the accumulator the product of a 2048 × 1024 block of the first hidden layer
  with the transpose of a 2048 × 1024 block of weights; at the end of a row of steps the accumulator plus the bias row
  is rectified and multiplied with the transposed head weights into the two logits, and the last step adds the head's
  bias. Each array operation read at an index is one element of its operands, and a product into the zero array is the
  sum over the shared axis.
-/
import proofs.«136834_j65481071406559_2_alg».proof.Proof.Gen.KernelIdeal.Skeleton
import proofs.«136834_j65481071406559_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.RbfMlp

/-! ### The product dotV: an [2048, 1024] array times the transpose of an [2048, 1024] array -/

theorem dotV_lhs_0 (i : S2048x2048.Idx) (q : dot_S2048x1024_S2048x1024_S2048x2048_1_1_0_0_n_n.contr.Idx) :
    (dot_S2048x1024_S2048x1024_S2048x2048_1_1_0_0_n_n.lhsIdx i q 0).val = (i 0).val := by
  unfold DotDims.lhsIdx
  rw [dif_neg (show ¬(0 : Fin S2048x1024.rank) ∈ dot_S2048x1024_S2048x1024_S2048x2048_1_1_0_0_n_n.lhsBatch by decide), dif_pos (show (0 : Fin S2048x1024.rank) ∈ dot_S2048x1024_S2048x1024_S2048x2048_1_1_0_0_n_n.lhsNonContracting by decide)]
  rfl
theorem dotV_lhs_1 (i : S2048x2048.Idx) (q : dot_S2048x1024_S2048x1024_S2048x2048_1_1_0_0_n_n.contr.Idx) :
    (dot_S2048x1024_S2048x1024_S2048x2048_1_1_0_0_n_n.lhsIdx i q 1).val = (q ⟨0, by decide⟩).val :=
  dot_S2048x1024_S2048x1024_S2048x2048_1_1_0_0_n_n.lhsIdx_val_of_single rfl i q
theorem dotV_rhs_0 (i : S2048x2048.Idx) (q : dot_S2048x1024_S2048x1024_S2048x2048_1_1_0_0_n_n.contr.Idx) :
    (dot_S2048x1024_S2048x1024_S2048x2048_1_1_0_0_n_n.rhsIdx i q 0).val = (i 1).val := by
  unfold DotDims.rhsIdx
  rw [dif_neg (show ¬(0 : Fin S2048x1024.rank) ∈ dot_S2048x1024_S2048x1024_S2048x2048_1_1_0_0_n_n.rhsBatch by decide), dif_pos (show (0 : Fin S2048x1024.rank) ∈ dot_S2048x1024_S2048x1024_S2048x2048_1_1_0_0_n_n.rhsNonContracting by decide)]
  rfl
theorem dotV_rhs_1 (i : S2048x2048.Idx) (q : dot_S2048x1024_S2048x1024_S2048x2048_1_1_0_0_n_n.contr.Idx) :
    (dot_S2048x1024_S2048x1024_S2048x2048_1_1_0_0_n_n.rhsIdx i q 1).val = (q ⟨0, by decide⟩).val :=
  dot_S2048x1024_S2048x1024_S2048x2048_1_1_0_0_n_n.rhsIdx_val_of_single rfl i q

/-- Into the zero array, the product at (p, o) is the sum over the shared axis of left (p, q) times right (o, q). -/
theorem dotV_apply {φ₁ φ₂ : FTy} (prec : Option ContractPrecision) (lhs : FVec Ideal S2048x1024 φ₁) (rhs : FVec Ideal S2048x1024 φ₂)
    (p : Fin 2048) (o : Fin 2048) :
    FloatOps.matmul dot_S2048x1024_S2048x1024_S2048x2048_1_1_0_0_n_n prec lhs rhs (constant (F := Ideal) S2048x2048 .f32 0x00000000#32) (ix2 p o)
      = ∑ q : Fin 1024, lhs (ix2 p q) * rhs (ix2 o q) := by
  rw [Ideal.matmul_constant_zero_apply, ← Equiv.sum_comp (contrEquiv1 dot_S2048x1024_S2048x1024_S2048x2048_1_1_0_0_n_n 1024 rfl rfl).symm]
  refine Finset.sum_congr rfl fun q _ => ?_
  have hk := contrEquiv1_symm_val dot_S2048x1024_S2048x1024_S2048x2048_1_1_0_0_n_n 1024 rfl rfl q
  have el : dot_S2048x1024_S2048x1024_S2048x2048_1_1_0_0_n_n.lhsIdx (ix2 p o) ((contrEquiv1 dot_S2048x1024_S2048x1024_S2048x2048_1_1_0_0_n_n 1024 rfl rfl).symm q) = ix2 p q := funext fun a => Fin.ext (by
    match a with
    | ⟨0, _⟩ => exact dotV_lhs_0 _ _
    | ⟨1, _⟩ => exact (dotV_lhs_1 _ _).trans hk)
  have er : dot_S2048x1024_S2048x1024_S2048x2048_1_1_0_0_n_n.rhsIdx (ix2 p o) ((contrEquiv1 dot_S2048x1024_S2048x1024_S2048x2048_1_1_0_0_n_n 1024 rfl rfl).symm q) = ix2 o q := funext fun a => Fin.ext (by
    match a with
    | ⟨0, _⟩ => exact dotV_rhs_0 _ _
    | ⟨1, _⟩ => exact (dotV_rhs_1 _ _).trans hk)
  rw [el, er]

/-! ### The product dotH: an [2048, 2048] array times the transpose of an [2, 2048] array -/

theorem dotH_lhs_0 (i : S2048x2.Idx) (q : dot_S2048x2048_S2x2048_S2048x2_1_1_0_0_n_n.contr.Idx) :
    (dot_S2048x2048_S2x2048_S2048x2_1_1_0_0_n_n.lhsIdx i q 0).val = (i 0).val := by
  unfold DotDims.lhsIdx
  rw [dif_neg (show ¬(0 : Fin S2048x2048.rank) ∈ dot_S2048x2048_S2x2048_S2048x2_1_1_0_0_n_n.lhsBatch by decide), dif_pos (show (0 : Fin S2048x2048.rank) ∈ dot_S2048x2048_S2x2048_S2048x2_1_1_0_0_n_n.lhsNonContracting by decide)]
  rfl
theorem dotH_lhs_1 (i : S2048x2.Idx) (q : dot_S2048x2048_S2x2048_S2048x2_1_1_0_0_n_n.contr.Idx) :
    (dot_S2048x2048_S2x2048_S2048x2_1_1_0_0_n_n.lhsIdx i q 1).val = (q ⟨0, by decide⟩).val :=
  dot_S2048x2048_S2x2048_S2048x2_1_1_0_0_n_n.lhsIdx_val_of_single rfl i q
theorem dotH_rhs_0 (i : S2048x2.Idx) (q : dot_S2048x2048_S2x2048_S2048x2_1_1_0_0_n_n.contr.Idx) :
    (dot_S2048x2048_S2x2048_S2048x2_1_1_0_0_n_n.rhsIdx i q 0).val = (i 1).val := by
  unfold DotDims.rhsIdx
  rw [dif_neg (show ¬(0 : Fin S2x2048.rank) ∈ dot_S2048x2048_S2x2048_S2048x2_1_1_0_0_n_n.rhsBatch by decide), dif_pos (show (0 : Fin S2x2048.rank) ∈ dot_S2048x2048_S2x2048_S2048x2_1_1_0_0_n_n.rhsNonContracting by decide)]
  rfl
theorem dotH_rhs_1 (i : S2048x2.Idx) (q : dot_S2048x2048_S2x2048_S2048x2_1_1_0_0_n_n.contr.Idx) :
    (dot_S2048x2048_S2x2048_S2048x2_1_1_0_0_n_n.rhsIdx i q 1).val = (q ⟨0, by decide⟩).val :=
  dot_S2048x2048_S2x2048_S2048x2_1_1_0_0_n_n.rhsIdx_val_of_single rfl i q

/-- Into the zero array, the product at (p, o) is the sum over the shared axis of left (p, q) times right (o, q). -/
theorem dotH_apply {φ₁ φ₂ : FTy} (prec : Option ContractPrecision) (lhs : FVec Ideal S2048x2048 φ₁) (rhs : FVec Ideal S2x2048 φ₂)
    (p : Fin 2048) (o : Fin 2) :
    FloatOps.matmul dot_S2048x2048_S2x2048_S2048x2_1_1_0_0_n_n prec lhs rhs (constant (F := Ideal) S2048x2 .f32 0x00000000#32) (ix2 p o)
      = ∑ q : Fin 2048, lhs (ix2 p q) * rhs (ix2 o q) := by
  rw [Ideal.matmul_constant_zero_apply, ← Equiv.sum_comp (contrEquiv1 dot_S2048x2048_S2x2048_S2048x2_1_1_0_0_n_n 2048 rfl rfl).symm]
  refine Finset.sum_congr rfl fun q _ => ?_
  have hk := contrEquiv1_symm_val dot_S2048x2048_S2x2048_S2048x2_1_1_0_0_n_n 2048 rfl rfl q
  have el : dot_S2048x2048_S2x2048_S2048x2_1_1_0_0_n_n.lhsIdx (ix2 p o) ((contrEquiv1 dot_S2048x2048_S2x2048_S2048x2_1_1_0_0_n_n 2048 rfl rfl).symm q) = ix2 p q := funext fun a => Fin.ext (by
    match a with
    | ⟨0, _⟩ => exact dotH_lhs_0 _ _
    | ⟨1, _⟩ => exact (dotH_lhs_1 _ _).trans hk)
  have er : dot_S2048x2048_S2x2048_S2048x2_1_1_0_0_n_n.rhsIdx (ix2 p o) ((contrEquiv1 dot_S2048x2048_S2x2048_S2048x2_1_1_0_0_n_n 2048 rfl rfl).symm q) = ix2 o q := funext fun a => Fin.ext (by
    match a with
    | ⟨0, _⟩ => exact dotH_rhs_0 _ _
    | ⟨1, _⟩ => exact (dotH_rhs_1 _ _).trans hk)
  rw [el, er]

/-! ### The block values -/

/-- The logits' first value is the zero word everywhere … -/
theorem k1_pay1_apply (p : Fin 2048) (c : Fin 2) : k1_pay1 (F := Ideal) (ix2 p c) = Cert.RbfMlp.zero := by
  simp only [k1_pay1, shapeCast_self]
  rfl
/-- … which is the extended real 0. -/
theorem k1_pay1_apply_zero (p : Fin 2048) (c : Fin 2) : k1_pay1 (F := Ideal) (ix2 p c) = 0 :=
  (k1_pay1_apply p c).trans Ideal.ofBits_zero_f32

/-- The accumulator's first value is the zero word everywhere … -/
theorem k1_pay2_apply (p j : Fin 2048) : k1_pay2 (F := Ideal) (ix2 p j) = Cert.RbfMlp.zero := by
  simp only [k1_pay2, shapeCast_self]
  rfl
/-- … which is the extended real 0. -/
theorem k1_pay2_apply_zero (p j : Fin 2048) : k1_pay2 (F := Ideal) (ix2 p j) = 0 :=
  (k1_pay2_apply p j).trans Ideal.ofBits_zero_f32

/-- One accumulation step: the accumulator plus the hidden block times the transposed weight block. -/
theorem k1_pay3_apply (acc : FVec Ideal S2048x2048 .f32) (x : FVec Ideal S2048x1024 .bf16) (w : FVec Ideal S2048x1024 .bf16)
    (p j : Fin 2048) :
    k1_pay3 (F := Ideal) acc x w (ix2 p j) = acc (ix2 p j) + ∑ q : Fin 1024, x (ix2 p q) * w (ix2 j q) := by
  simp only [k1_pay3, shapeCast_self, matmul]
  rw [addf_apply, dotV_apply]

/-- The head: the logits so far plus the rectified layer times the transposed head weights. -/
theorem k1_pay4_apply (acc : FVec Ideal S2048x2048 .f32) (b : FVec Ideal S1x2048 .f32) (wh : FVec Ideal S2x2048 .f32)
    (lg : FVec Ideal S2048x2 .f32) (p : Fin 2048) (c : Fin 2) :
    k1_pay4 (F := Ideal) acc b wh lg (ix2 p c)
      = lg (ix2 p c) + ∑ j : Fin 2048, max (acc (ix2 p j) + b (ix2 (0 : Fin 1) j)) Cert.RbfMlp.zero * wh (ix2 c j) := by
  simp only [k1_pay4, shapeCast_self, matmul]
  rw [addf_apply, dotH_apply]
  refine congrArg (lg (ix2 p c) + ·) (Finset.sum_congr rfl fun j _ => ?_)
  rw [truncf_apply, truncf_apply, maximumf_apply, addf_apply, broadcast_apply, broadcastTo_1b_ab_apply]
  rfl

/-- The last step: the logits plus the head's bias row. -/
theorem k1_pay5_apply (lg : FVec Ideal S2048x2 .f32) (bh : FVec Ideal S1x2 .f32) (p : Fin 2048) (c : Fin 2) :
    k1_pay5 (F := Ideal) lg bh (ix2 p c) = lg (ix2 p c) + bh (ix2 (0 : Fin 1) c) := by
  simp only [k1_pay5, shapeCast_self]
  rw [addf_apply, broadcastTo_1b_ab_apply]

end Cert.KernelIdeal.Hand

end
-- ==== Proof.KernelIdeal.Accum1.lean ====
/-
  The second kernel's accumulators as sums.

  The grid point t has contraction block t % 4 and, within its row block, run of four t / 4 % 2. At a point t of a
  last contraction block (t % 4 = 3) the big accumulator is zero plus the four block products of the points
  t − 3, …, t. The head's accumulator is zero at the first point of a row block, takes the head's product at each
  last contraction block and keeps its value elsewhere; so at the last point of a row block (t % 8 = 7) it is the
  head's product of the run ending at t − 4 plus that of the run ending at t. The output block stored there adds the
  head's bias row.
-/
import proofs.«136834_j65481071406559_2_alg».proof.Proof.KernelIdeal.Data1
import proofs.«136834_j65481071406559_2_alg».proof.Proof.KernelIdeal.Pay1

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.RbfMlp

section Region1

variable (V : (c : Dev nD) → (b : Ref sig .tc) → Buf (Elt Ideal) ((c : Thread nD τ).loc b))

/-- A block x times the transpose of a block w, at (p, j). -/
def dotStep (x w : FVec Ideal S2048x1024 .bf16) (p j : Fin 2048) : EReal := ∑ q : Fin 1024, x (ix2 p q) * w (ix2 j q)

theorem dotStep_def (x w : FVec Ideal S2048x1024 .bf16) (p j : Fin 2048) :
    dotStep x w p j = ∑ q : Fin 1024, x (ix2 p q) * w (ix2 j q) := rfl

/-- The block product of the grid point s, at (p, j): the hidden block times the transposed weight block. -/
def step1 (c : Dev nD) (s : Fin cfg1.N) (p j : Fin 2048) : EReal := dotStep (iblk1 V c 0 s) (iblk1 V c 1 s) p j

theorem step1_def (c : Dev nD) (s : Fin cfg1.N) (p j : Fin 2048) :
    step1 V c s p j = dotStep (iblk1 V c 0 s) (iblk1 V c 1 s) p j := rfl

/-- The kb-th point of the run of four that ends at t. -/
def runPt1 (t : Fin cfg1.N) (kb : Fin 4) : Fin cfg1.N :=
  ⟨t.val - 3 + kb.val, by have hN : cfg1.N = 16 := N_1; have := t.isLt; have := kb.isLt; omega⟩

theorem runPt1_val (t : Fin cfg1.N) (kb : Fin 4) : (runPt1 t kb).val = t.val - 3 + kb.val := rfl

/-- The last point of the run of four before the one that ends at t. -/
def prevRun1 (t : Fin cfg1.N) : Fin cfg1.N := ⟨t.val - 4, Nat.lt_of_le_of_lt (Nat.sub_le _ _) t.isLt⟩

theorem prevRun1_val (t : Fin cfg1.N) : (prevRun1 t).val = t.val - 4 := rfl

/-- One step at a first contraction block: the block product alone. -/
theorem accAt1_first_apply (c : Dev nD) (t : Fin cfg1.N) (h : t.val % 4 = 0) (p j : Fin 2048) :
    accAt1 V c t.val t.isLt (ix2 p j) = step1 V c t p j := by
  rw [accAt1_first V c t h]
  refine (k1_pay3_apply _ _ _ p j).trans ?_
  rw [k1_pay2_apply_zero, zero_add]
  rfl

/-- One step elsewhere: the accumulator of the point before plus the block product. -/
theorem accAt1_next_apply (c : Dev nD) (t : Fin cfg1.N) (h : ¬t.val % 4 = 0) (p j : Fin 2048) :
    accAt1 V c t.val t.isLt (ix2 p j)
      = accAt1 V c (t.val - 1) (Nat.lt_of_le_of_lt (Nat.sub_le _ _) t.isLt) (ix2 p j) + step1 V c t p j := by
  rw [accAt1_next V c t h]
  exact k1_pay3_apply _ _ _ p j

/-- The accumulator at the point n + 3 of a last contraction block: the four block products of the run. -/
theorem accAt1_four (c : Dev nD) (n : ℕ) (hn : n + 3 < cfg1.N) (h : n % 4 = 0) (p j : Fin 2048) :
    accAt1 V c (n + 3) hn (ix2 p j)
      = step1 V c ⟨n, by omega⟩ p j + step1 V c ⟨n + 1, by omega⟩ p j + step1 V c ⟨n + 2, by omega⟩ p j
        + step1 V c ⟨n + 3, hn⟩ p j := by
  have e3 := accAt1_next_apply V c ⟨n + 3, hn⟩ (by show ¬(n + 3) % 4 = 0; omega) p j
  have e2 := accAt1_next_apply V c ⟨n + 2, by omega⟩ (by show ¬(n + 2) % 4 = 0; omega) p j
  have e1 := accAt1_next_apply V c ⟨n + 1, by omega⟩ (by show ¬(n + 1) % 4 = 0; omega) p j
  have e0 := accAt1_first_apply V c ⟨n, by omega⟩ h p j
  exact e3.trans (congrArg (· + _) (e2.trans (congrArg (· + _) (e1.trans (congrArg (· + _) e0)))))

/-- At a point t of a last contraction block the big accumulator is the sum of the run's four block products. -/
theorem accAt1_run (c : Dev nD) (t : Fin cfg1.N) (h3 : t.val % 4 = 3) (p j : Fin 2048) :
    accAt1 V c t.val t.isLt (ix2 p j) = ∑ kb : Fin 4, step1 V c (runPt1 t kb) p j := by
  obtain ⟨tv, ht⟩ := t
  obtain ⟨n, rfl⟩ : ∃ n, tv = n + 3 := ⟨tv - 3, by have : tv % 4 = 3 := h3; omega⟩
  have h0 : n % 4 = 0 := by have : (n + 3) % 4 = 3 := h3; omega
  rw [Fin.sum_univ_four]
  have r0 : runPt1 ⟨n + 3, ht⟩ 0 = ⟨n, by omega⟩ := Fin.ext (by show n + 3 - 3 + 0 = n; omega)
  have r1 : runPt1 ⟨n + 3, ht⟩ 1 = ⟨n + 1, by omega⟩ := Fin.ext (by show n + 3 - 3 + 1 = n + 1; omega)
  have r2 : runPt1 ⟨n + 3, ht⟩ 2 = ⟨n + 2, by omega⟩ := Fin.ext (by show n + 3 - 3 + 2 = n + 2; omega)
  have r3 : runPt1 ⟨n + 3, ht⟩ 3 = ⟨n + 3, ht⟩ := Fin.ext (by show n + 3 - 3 + 3 = n + 3; omega)
  rw [r0, r1, r2, r3]
  exact accAt1_four V c n ht h0 p j

/-- The rectified, biased accumulator times the transposed head weights, at (p, cc). -/
def headStep (acc : FVec Ideal S2048x2048 .f32) (b : FVec Ideal S1x2048 .f32) (wh : FVec Ideal S2x2048 .f32)
    (p : Fin 2048) (cc : Fin 2) : EReal :=
  ∑ jj : Fin 2048, max (acc (ix2 p jj) + b (ix2 (0 : Fin 1) jj)) Cert.RbfMlp.zero * wh (ix2 cc jj)

theorem headStep_def (acc : FVec Ideal S2048x2048 .f32) (b : FVec Ideal S1x2048 .f32) (wh : FVec Ideal S2x2048 .f32)
    (p : Fin 2048) (cc : Fin 2) :
    headStep acc b wh p cc
      = ∑ jj : Fin 2048, max (acc (ix2 p jj) + b (ix2 (0 : Fin 1) jj)) Cert.RbfMlp.zero * wh (ix2 cc jj) := rfl

/-- The head's product at a point s of a last contraction block, at (p, cc): the rectified, biased accumulator times
    the transposed head weights. -/
def head1 (c : Dev nD) (s : Fin cfg1.N) (p : Fin 2048) (cc : Fin 2) : EReal :=
  headStep (accAt1 V c s.val s.isLt) (iblk1 V c 2 s) (iblk1 V c 3 s) p cc

theorem head1_def (c : Dev nD) (s : Fin cfg1.N) (p : Fin 2048) (cc : Fin 2) :
    head1 V c s p cc = headStep (accAt1 V c s.val s.isLt) (iblk1 V c 2 s) (iblk1 V c 3 s) p cc := rfl

/-- At a last contraction block the head's accumulator takes the head's product. -/
theorem lgAt1_add_apply (c : Dev nD) (t : Fin cfg1.N) (h3 : t.val % 4 = 3) (p : Fin 2048) (cc : Fin 2) :
    lgAt1 V c t.val t.isLt (ix2 p cc)
      = lgAt1 V c (t.val - 1) (Nat.lt_of_le_of_lt (Nat.sub_le _ _) t.isLt) (ix2 p cc) + head1 V c t p cc := by
  rw [lgAt1_add V c t h3]
  exact k1_pay4_apply _ _ _ _ p cc

/-- The head's accumulator at the last point n + 7 of a row block: the two heads' products. -/
theorem lgAt1_eight (c : Dev nD) (n : ℕ) (hn : n + 7 < cfg1.N) (h : n % 8 = 0) (p : Fin 2048) (cc : Fin 2) :
    lgAt1 V c (n + 7) hn (ix2 p cc) = head1 V c ⟨n + 3, by omega⟩ p cc + head1 V c ⟨n + 7, hn⟩ p cc := by
  have e7 := lgAt1_add_apply V c ⟨n + 7, hn⟩ (by show (n + 7) % 4 = 3; omega) p cc
  have e6 := lgAt1_keep V c ⟨n + 6, by omega⟩ (by show ¬(n + 6) % 8 = 0; omega) (by show ¬(n + 6) % 4 = 3; omega)
  have e5 := lgAt1_keep V c ⟨n + 5, by omega⟩ (by show ¬(n + 5) % 8 = 0; omega) (by show ¬(n + 5) % 4 = 3; omega)
  have e4 := lgAt1_keep V c ⟨n + 4, by omega⟩ (by show ¬(n + 4) % 8 = 0; omega) (by show ¬(n + 4) % 4 = 3; omega)
  have e3 := lgAt1_add_apply V c ⟨n + 3, by omega⟩ (by show (n + 3) % 4 = 3; omega) p cc
  have e2 := lgAt1_keep V c ⟨n + 2, by omega⟩ (by show ¬(n + 2) % 8 = 0; omega) (by show ¬(n + 2) % 4 = 3; omega)
  have e1 := lgAt1_keep V c ⟨n + 1, by omega⟩ (by show ¬(n + 1) % 8 = 0; omega) (by show ¬(n + 1) % 4 = 3; omega)
  have e0 := lgAt1_rowFirst V c ⟨n, by omega⟩ h
  have k0 : lgAt1 V c n (by omega) (ix2 p cc) = 0 := (congrFun e0 (ix2 p cc)).trans (k1_pay1_apply_zero p cc)
  have k2 : lgAt1 V c (n + 2) (by omega) (ix2 p cc) = 0 :=
    (congrFun e2 (ix2 p cc)).trans ((congrFun e1 (ix2 p cc)).trans k0)
  have k3 : lgAt1 V c (n + 3) (by omega) (ix2 p cc) = head1 V c ⟨n + 3, by omega⟩ p cc :=
    e3.trans ((congrArg (· + _) k2).trans (zero_add _))
  have k6 : lgAt1 V c (n + 6) (by omega) (ix2 p cc) = head1 V c ⟨n + 3, by omega⟩ p cc :=
    (congrFun e6 (ix2 p cc)).trans ((congrFun e5 (ix2 p cc)).trans ((congrFun e4 (ix2 p cc)).trans k3))
  exact e7.trans (congrArg (· + _) k6)

/-- At the last point t of a row block the head's accumulator is the head's product of the run ending at t − 4 plus
    that of the run ending at t. -/
theorem lgAt1_run (c : Dev nD) (t : Fin cfg1.N) (h7 : t.val % 8 = 7) (p : Fin 2048) (cc : Fin 2) :
    lgAt1 V c t.val t.isLt (ix2 p cc) = head1 V c (prevRun1 t) p cc + head1 V c t p cc := by
  obtain ⟨tv, ht⟩ := t
  obtain ⟨n, rfl⟩ : ∃ n, tv = n + 7 := ⟨tv - 7, by have : tv % 8 = 7 := h7; omega⟩
  have h0 : n % 8 = 0 := by have : (n + 7) % 8 = 7 := h7; omega
  have r : prevRun1 ⟨n + 7, ht⟩ = ⟨n + 3, by omega⟩ := Fin.ext (by show n + 7 - 4 = n + 3; omega)
  rw [r]
  exact lgAt1_eight V c n ht h0 p cc

/-- The output block stored at any point: the head's accumulator plus the head's bias row. -/
theorem outAt1_apply (c : Dev nD) (t : Fin cfg1.N) (p : Fin 2048) (cc : Fin 2) :
    outAt1 V c t (ix2 p cc)
      = lgAt1 V c t.val t.isLt (ix2 p cc) + (iblk1 V c 4 t : FVec Ideal S1x2 .f32) (ix2 (0 : Fin 1) cc) := by
  unfold outAt1
  exact k1_pay5_apply _ _ p cc

/-- … and at the last point of a row block, the two heads' products plus the head's bias row. -/
theorem outAt1_run (c : Dev nD) (t : Fin cfg1.N) (h7 : t.val % 8 = 7) (p : Fin 2048) (cc : Fin 2) :
    outAt1 V c t (ix2 p cc)
      = (head1 V c (prevRun1 t) p cc + head1 V c t p cc) + (iblk1 V c 4 t : FVec Ideal S1x2 .f32) (ix2 (0 : Fin 1) cc) := by
  rw [outAt1_apply, lgAt1_run V c t h7]

end Region1

end Cert.KernelIdeal.Hand

end
-- ==== Proof.KernelIdeal.Point1.lean ====
/-
  The second kernel's stored blocks are blocks of the head of the second layer.

  At the last point t of a row block (t % 8 = 7) the kernel stores the two logits of the 2048 rows of block row t / 8.
  The head's accumulator there is the head's product of the run of four ending at t − 4, which covers the hidden
  features 0 … 2047, plus that of the run ending at t, which covers 2048 … 4095; within a run the big accumulator is
  the sum over the four contraction blocks, that is over all 4096 columns. So the stored element (p, c) is the sum
  over all 4096 hidden features of the rectified second layer times the head's weight, plus the head's bias.
-/
import proofs.«136834_j65481071406559_2_alg».proof.Proof.KernelIdeal.Accum1
import proofs.«136834_j65481071406559_2_alg».proof.Proof.KernelIdeal.Blocks
import proofs.«136834_j65481071406559_2_alg».proof.Proof.Spec2
import proofs.«136834_j65481071406559_2_alg».proof.Proof.SumBlocks

set_option maxRecDepth 16384

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.RbfMlp

section Region1

variable (V : (c : Dev nD) → (b : Ref sig .tc) → Buf (Elt Ideal) ((c : Thread nD τ).loc b))

/-- One block product of a run is the hidden row times the weight row over the block's 1024 columns: s is the last
    point of the run, P the row and J the hidden feature in the whole arrays H and W2. -/
theorem step1_eq (c : Dev nD) (H W2 : Mat 4096 4096) (hH : @Eq (Mat 4096 4096) (V c main_v5) H)
    (hW : @Eq (Mat 4096 4096) (V c main_v1) W2) (s : Fin cfg1.N) (h3 : s.val % 4 = 3) (kb : Fin 4) (p jj : Fin 2048)
    (P J : Fin 4096) (hP : P.val = s.val / 8 * 2048 + p.val) (hJ : J.val = s.val / 4 % 2 * 2048 + jj.val) :
    step1 V c (runPt1 s kb) p jj = ∑ q : Fin 1024, H (ix2 P (⟨kb.val * 1024 + q.val, block_lt (n := 4) (m := 1024) kb q⟩ : Fin 4096)) * W2 (ix2 J (⟨kb.val * 1024 + q.val, block_lt (n := 4) (m := 1024) kb q⟩ : Fin 4096)) := by
  subst hH
  subst hW
  have hN : cfg1.N = 16 := N_1
  have ht := s.isLt
  have hkb := kb.isLt
  have hs : (runPt1 s kb).val = s.val - 3 + kb.val := rfl
  rw [step1_def, dotStep_def]
  refine Finset.sum_congr rfl fun q _ => ?_
  have hq := q.isLt
  have e_x : (iblk1 V c 0 (runPt1 s kb) : Vec Ideal S2048x1024 .bf16) (ix2 p q)
      = (V c main_v5 : S4096x4096.Idx → Elt Ideal .bf16) (ix2 P (⟨kb.val * 1024 + q.val, block_lt (n := 4) (m := 1024) kb q⟩ : Fin 4096)) :=
    iblk1_0_apply V c (runPt1 s kb) (ix2 p q) (ix2 P (⟨kb.val * 1024 + q.val, block_lt (n := 4) (m := 1024) kb q⟩ : Fin 4096))
      (by show P.val = (runPt1 s kb).val / 8 * 2048 + p.val; rw [hs, hP]; omega)
      (by show kb.val * 1024 + q.val = (runPt1 s kb).val % 4 * 1024 + q.val; rw [hs]; omega)
  have e_w : (iblk1 V c 1 (runPt1 s kb) : Vec Ideal S2048x1024 .bf16) (ix2 jj q)
      = (V c main_v1 : S4096x4096.Idx → Elt Ideal .bf16) (ix2 J (⟨kb.val * 1024 + q.val, block_lt (n := 4) (m := 1024) kb q⟩ : Fin 4096)) :=
    iblk1_1_apply V c (runPt1 s kb) (ix2 jj q) (ix2 J (⟨kb.val * 1024 + q.val, block_lt (n := 4) (m := 1024) kb q⟩ : Fin 4096))
      (by show J.val = (runPt1 s kb).val / 4 % 2 * 2048 + jj.val; rw [hs, hJ]; omega)
      (by show kb.val * 1024 + q.val = (runPt1 s kb).val % 4 * 1024 + q.val; rw [hs]; omega)
  rw [e_x, e_w]

/-- The head's product at the last point s of a run of four is the head's sum over the run's 2048 hidden features,
    the block B of the 4096. -/
theorem head1_eq (c : Dev nD) (H W2 : Mat 4096 4096) (b2 : Mat 1 4096) (Wh : Mat 2 4096)
    (hH : @Eq (Mat 4096 4096) (V c main_v5) H) (hW : @Eq (Mat 4096 4096) (V c main_v1) W2)
    (hb : @Eq (Mat 1 4096) (V c main_v3) b2) (hh : @Eq (Mat 2 4096) (V c main_arg5) Wh)
    (s : Fin cfg1.N) (h3 : s.val % 4 = 3) (B : Fin 2) (hB : B.val = s.val / 4 % 2)
    (p : Fin 2048) (cc : Fin 2) (P : Fin 4096) (hP : P.val = s.val / 8 * 2048 + p.val) :
    head1 V c s p cc
      = ∑ jj : Fin 2048, max ((∑ k : Fin 4096, H (ix2 P k) * W2 (ix2 (⟨B.val * 2048 + jj.val, block_lt (n := 2) (m := 2048) B jj⟩ : Fin 4096) k)) + b2 (ix2 (0 : Fin 1) (⟨B.val * 2048 + jj.val, block_lt (n := 2) (m := 2048) B jj⟩ : Fin 4096)))
          Cert.RbfMlp.zero * Wh (ix2 cc (⟨B.val * 2048 + jj.val, block_lt (n := 2) (m := 2048) B jj⟩ : Fin 4096)) := by
  rw [head1_def, headStep_def]
  refine Finset.sum_congr rfl fun jj _ => ?_
  have hJ : (⟨B.val * 2048 + jj.val, block_lt (n := 2) (m := 2048) B jj⟩ : Fin 4096).val = s.val / 4 % 2 * 2048 + jj.val := by
    show B.val * 2048 + jj.val = _; rw [hB]
  have e_acc : accAt1 V c s.val s.isLt (ix2 p jj) = ∑ k : Fin 4096, H (ix2 P k) * W2 (ix2 (⟨B.val * 2048 + jj.val, block_lt (n := 2) (m := 2048) B jj⟩ : Fin 4096) k) := by
    rw [accAt1_run V c s h3]
    refine Eq.trans ?_ (sum_blocks_4_1024 _).symm
    exact Finset.sum_congr rfl fun kb _ => step1_eq V c H W2 hH hW s h3 kb p jj P _ hP hJ
  subst hb
  subst hh
  have e_b : (iblk1 V c 2 s : Vec Ideal S1x2048 .f32) (ix2 (0 : Fin 1) jj)
      = (V c main_v3 : S1x4096.Idx → Elt Ideal .f32) (ix2 (0 : Fin 1) (⟨B.val * 2048 + jj.val, block_lt (n := 2) (m := 2048) B jj⟩ : Fin 4096)) :=
    iblk1_2_apply V c s (ix2 (0 : Fin 1) jj) (ix2 (0 : Fin 1) (⟨B.val * 2048 + jj.val, block_lt (n := 2) (m := 2048) B jj⟩ : Fin 4096)) rfl hJ
  have e_h : (iblk1 V c 3 s : Vec Ideal S2x2048 .f32) (ix2 cc jj)
      = (V c main_arg5 : S2x4096.Idx → Elt Ideal .f32) (ix2 cc (⟨B.val * 2048 + jj.val, block_lt (n := 2) (m := 2048) B jj⟩ : Fin 4096)) :=
    iblk1_3_apply V c s (ix2 cc jj) (ix2 cc (⟨B.val * 2048 + jj.val, block_lt (n := 2) (m := 2048) B jj⟩ : Fin 4096)) rfl hJ
  rw [e_acc, e_b, e_h]

/-- The stored element (p, cc) at the last point of a row block, against whole arrays named H, W2, b2, Wh, bh. -/
theorem point1_at (c : Dev nD) (H W2 : Mat 4096 4096) (b2 : Mat 1 4096) (Wh : Mat 2 4096) (bh : Mat 1 2)
    (hH : @Eq (Mat 4096 4096) (V c main_v5) H) (hW : @Eq (Mat 4096 4096) (V c main_v1) W2)
    (hb : @Eq (Mat 1 4096) (V c main_v3) b2) (hh : @Eq (Mat 2 4096) (V c main_arg5) Wh) (hbh : @Eq (Mat 1 2) (V c main_v4) bh)
    (t : Fin cfg1.N) (h7 : t.val % 8 = 7) (p : Fin 2048) (cc : Fin 2) (P : Fin 4096) (hP : P.val = t.val / 8 * 2048 + p.val) :
    outAt1 V c t (ix2 p cc) = Cert.RbfMlp.headOf H W2 b2 Wh bh (ix2 P cc) := by
  have hN : cfg1.N = 16 := N_1
  have ht := t.isLt
  have hv : (prevRun1 t).val = t.val - 4 := rfl
  rw [outAt1_run V c t h7]
  show _ = (∑ j : Fin 4096, max ((∑ k : Fin 4096, H (ix2 P k) * W2 (ix2 j k)) + b2 (ix2 (0 : Fin 1) j)) Cert.RbfMlp.zero
      * Wh (ix2 cc j)) + bh (ix2 (0 : Fin 1) cc)
  refine congrArg₂ (· + ·) ?_ ?_
  · refine Eq.trans ?_ (sum_blocks_2_2048 _).symm
    rw [Fin.sum_univ_two]
    refine congrArg₂ (· + ·) ?_ ?_
    · exact head1_eq V c H W2 b2 Wh hH hW hb hh (prevRun1 t) (by rw [hv]; omega) 0
        (by show 0 = (prevRun1 t).val / 4 % 2; rw [hv]; omega) p cc P (by rw [hv, hP]; omega)
    · exact head1_eq V c H W2 b2 Wh hH hW hb hh t (by omega) 1 (by show 1 = t.val / 4 % 2; omega) p cc P hP
  · subst hbh
    exact iblk1_4_apply V c t (ix2 (0 : Fin 1) cc) (ix2 (0 : Fin 1) cc) rfl rfl

/-- The block stored at the last point of a row block is a block of the head of the second layer. -/
theorem point1 (c : Dev nD) (t : Fin cfg1.N) (h7 : t.val % 8 = 7) (x : S2048x2.Idx) (g : S4096x2.Idx)
    (h0 : (g 0).val = (t.val / 8) * 2048 + (x 0).val) (h1 : (g 1).val = (x 1).val) :
    outAt1 V c t x
      = (Cert.RbfMlp.headOf (V c main_v5) (V c main_v1) (V c main_v3) (V c main_arg5) (V c main_v4) : S4096x2.Idx → EReal) g := by
  obtain ⟨p, cc, rfl⟩ : ∃ (p : Fin 2048) (cc : Fin 2), x = ix2 p cc := ⟨x 0, x 1, eq_ix2 x⟩
  obtain ⟨P, cc', rfl⟩ : ∃ (P : Fin 4096) (cc' : Fin 2), g = ix2 P cc' := ⟨g 0, g 1, eq_ix2 g⟩
  obtain rfl : cc' = cc := Fin.ext h1
  exact point1_at V c _ _ _ _ _ rfl rfl rfl rfl rfl t h7 p cc' P h0

end Region1

end Cert.KernelIdeal.Hand

end
-- ==== Proof.KernelIdeal.Value.lean ====
/-
  The program's result: after the second kernel's launch the result array holds the specification's logits
  of the argument arrays.

  The first kernel leaves the first hidden layer in its output array (its four output blocks tile it, and at
  each the accumulated block products are the whole contraction regrouped); the second kernel reads that
  array and leaves the head of the second layer; the host stretch before them only recasts the weights and
  lays the biases out as one-row matrices.
-/
import proofs.«136834_j65481071406559_2_alg».proof.Proof.KernelIdeal.Frame
import proofs.«136834_j65481071406559_2_alg».proof.Proof.KernelIdeal.Value0
import proofs.«136834_j65481071406559_2_alg».proof.Proof.KernelIdeal.Value1
import proofs.«136834_j65481071406559_2_alg».proof.Proof.KernelIdeal.Host
import proofs.«136834_j65481071406559_2_alg».proof.Proof.KernelIdeal.Point0
import proofs.«136834_j65481071406559_2_alg».proof.Proof.KernelIdeal.Point1
import proofs.«136834_j65481071406559_2_alg».proof.Proof.Spec2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.RbfMlp Idealize.ShloMosaic.ValueIdx

variable (m : (ℓ : Loc nD τ sig) → Buf (Elt Ideal) ℓ) (ρ : Dev nD → PrngReg)

/-- After the first kernel its output array holds the first hidden layer of what the kernel was handed. -/
theorem final_v5 (c : Dev nD) :
    (dat0 (V1 m ρ) c).arrAt 4 cfg0.N
      = (firstLayer (V1 m ρ c main_arg0) (V1 m ρ c main_v0) (V1 m ρ c main_v2) : S4096x4096.Idx → EReal) :=
  final0_of (V1 m ρ) c _ (fun t h3 x g h0 h1 => point0 (V1 m ρ) c t h3 x g h0 h1)

/-- After the second kernel its output array holds the head of what the kernel was handed. -/
theorem final_v6 (c : Dev nD) :
    (dat1 (V2 m ρ) c).arrAt 5 cfg1.N
      = (headOf (V2 m ρ c main_v5) (V2 m ρ c main_v1) (V2 m ρ c main_v3) (V2 m ρ c main_arg5) (V2 m ρ c main_v4) : S4096x2.Idx → EReal) :=
  final1_of (V2 m ρ) c _ (fun t h7 x g h0 h1 => point1 (V2 m ρ) c t h7 x g h0 h1)

/-- The result array after the run is the specification's result of the argument arrays. -/
theorem value_eq (c : Dev nD) :
    (dat1 (V2 m ρ) c).arrAt 5 cfg1.N
      = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : S4096x2.Idx → EReal) := by
  rw [final_v6]
  have e5 : (V2 m ρ c main_v5 : S4096x4096.Idx → EReal)
      = firstLayer (m ((c : Thread nD τ).loc main_arg0)) (m ((c : Thread nD τ).loc main_arg1)) (V1 m ρ c main_v2) := by
    show (W2 m ρ c main_v5 : S4096x4096.Idx → EReal) = _
    rw [W2_v5, final_v5, V1_arg0, V1_v0]
  have e1 : (V2 m ρ c main_v1 : S4096x4096.Idx → EReal) = (m ((c : Thread nD τ).loc main_arg3)) :=
    (W2_of_ne m ρ c main_v1 (by decide)).trans (V1_v1 m ρ c)
  have e3 : V2 m ρ c main_v3 = V1 m ρ c main_v3 := W2_of_ne m ρ c main_v3 (by decide)
  have ea5 : V2 m ρ c main_arg5 = (m ((c : Thread nD τ).loc main_arg5)) := (W2_of_ne m ρ c main_arg5 (by decide)).trans (V1_arg5 m ρ c)
  have e4 : V2 m ρ c main_v4 = V1 m ρ c main_v4 := W2_of_ne m ρ c main_v4 (by decide)
  rw [e5, e1, e3, ea5, e4]
  exact headOf_firstLayer _ _ _ _ _ _ _ _ _ _ (V1_v2 m ρ c) (V1_v3 m ρ c) (V1_v4 m ρ c)

end Cert.KernelIdeal.Hand

end
-- ==== Proof.RefIsSpec.lean ====
/-
  The reference program's result is the specification.

  The reference computes, array operation by array operation,
      sq = rowsum (X ⊙ X);  d2 = (sq[:, None] + sq[None, :]) − 2 · (X · Xᵀ);  K = exp (−1 · max (d2, 0));
      H1 = max (K · W1ᵀ + b1, 0);  H2 = max (H1 · W2ᵀ + b2, 0);  out = H2 · Whᵀ + bh.
  Read at an index, each operation is one element of its operands: a product of arrays is the product of the
  elements, a broadcast or a transpose reads its operand at the permuted index, a row sum is the initial word
  0 plus the sum over the row, and a matrix product is the sum over the contracted index. Composing these
  readings stage by stage gives the Gram entry, the two hidden layers and the logits of the specification;
  the only arithmetic fact used is that the zero word is the extended real 0, so that "0 + sum" is the sum.
-/
import proofs.«136834_j65481071406559_2_alg».proof.Proof.Gen.ReferenceIdeal.Read
import proofs.«136834_j65481071406559_2_alg».proof.Proof.Spec

noncomputable section

open scoped BigOperators

namespace Cert.RbfMlp.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The contents of the argument buffers at the ideal instance. -/
abbrev TX : Type := (⟨S4096x64, .f32⟩ : BufTy).Contents (Elt Ideal)
abbrev TW : Type := (⟨S4096x4096, .f32⟩ : BufTy).Contents (Elt Ideal)
abbrev Tb : Type := (⟨S4096, .f32⟩ : BufTy).Contents (Elt Ideal)
abbrev TWh : Type := (⟨S2x4096, .f32⟩ : BufTy).Contents (Elt Ideal)
abbrev Tbh : Type := (⟨S2, .f32⟩ : BufTy).Contents (Elt Ideal)

/-- The first row sum of squares, at row `i 0`, is the squared norm of that row. -/
theorem sq_row (X : TX) (i : S4096.Idx) : val_main_v1 (F := Ideal) X i = sqn X (i 0) := by
  rw [val_main_v1_apply, val_main_cst_apply]
  simp only [val_main_v0_apply, Ideal.ofBits_def, Ideal.mulf_def, Ideal.ofBits_zero_f32, zero_add]
  refine Finset.sum_congr rfl fun k _ => ?_
  have e : idx_main_v1 i k = ix2 (i 0) k := funext fun a => by match a with | ⟨0, _⟩ => rfl | ⟨1, _⟩ => rfl
  rw [e]
  rfl

/-- The second row sum of squares is the same function. -/
theorem sq_col (X : TX) (i : S4096.Idx) : val_main_v3 (F := Ideal) X i = sqn X (i 0) := by
  rw [val_main_v3_apply, val_main_cst_0_apply]
  simp only [val_main_v2_apply, Ideal.ofBits_def, Ideal.mulf_def, Ideal.ofBits_zero_f32, zero_add]
  refine Finset.sum_congr rfl fun k _ => ?_
  have e : idx_main_v3 i k = ix2 (i 0) k := funext fun a => by match a with | ⟨0, _⟩ => rfl | ⟨1, _⟩ => rfl
  rw [e]
  rfl

/-- The matrix product of X with its transpose, at (p, q), is the inner product of rows p and q. -/
theorem cross_eq (X : TX) (i : S4096x4096.Idx) : val_main_v10 (F := Ideal) X i = cross X (i 0) (i 1) := by
  rw [val_main_v10_apply]
  refine Finset.sum_congr rfl fun k _ => ?_
  rw [val_main_v9_apply]
  have el : lidx_main_v10 i k = ix2 (i 0) k := funext fun a => by match a with | ⟨0, _⟩ => rfl | ⟨1, _⟩ => rfl
  have er : idx_main_v9 (ridx_main_v10 i k) = ix2 (i 1) k := funext fun a => by match a with | ⟨0, _⟩ => rfl | ⟨1, _⟩ => rfl
  rw [el, er]
  rfl

/-- The exponential stage, at (p, q), is the radial-basis Gram entry of rows p and q. -/
theorem gram_eq (X : TX) (i : S4096x4096.Idx) : val_main_v18 (F := Ideal) X i = gram X (i 0) (i 1) := by
  rw [val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v8_apply, val_main_v7_apply, val_main_v6_apply, val_main_v5_apply,
    val_main_v4_apply, sq_row, sq_col, cross_eq]
  simp only [Ideal.ofBits_def, Ideal.mulf_def, Ideal.addf_def, Ideal.subf_def, Ideal.maximumf_def, Ideal.hostUnary_exp_def]
  rfl

/-- The first rectified layer, at (p, o). -/
theorem h1_eq (X : TX) (W1 : TW) (b1 : Tb) (i : S4096x4096.Idx) :
    val_main_v24 (F := Ideal) X W1 b1 i = h1 X W1 b1 (i 0) (i 1) := by
  rw [val_main_v24_apply, val_main_call0_v0_apply, val_main_call0_cst_apply, val_main_v23_apply, val_main_v22_apply,
    val_main_v21_apply, val_main_v20_apply]
  simp only [Ideal.ofBits_def, Ideal.addf_def, Ideal.maximumf_def]
  have eb : idx_main_v21 (idx_main_v22 i) = ix1 (i 1) := funext fun a => by match a with | ⟨0, _⟩ => rfl
  rw [eb]
  have es : (∑ k : Fin 4096, (val_main_v18 (F := Ideal) X) (lidx_main_v20 i k) * (val_main_v19 (F := Ideal) W1) (ridx_main_v20 i k))
      = ∑ k : Fin 4096, gram X (i 0) k * W1 (ix2 (i 1) k) := by
    refine Finset.sum_congr rfl fun k _ => ?_
    rw [gram_eq, val_main_v19_apply]
    have er : idx_main_v19 (ridx_main_v20 i k) = ix2 (i 1) k := funext fun a => by match a with | ⟨0, _⟩ => rfl | ⟨1, _⟩ => rfl
    rw [er]
    rfl
  rw [es]
  rfl

/-- The second rectified layer, at (p, j). -/
theorem h2_eq (X : TX) (W1 : TW) (b1 : Tb) (W2 : TW) (b2 : Tb) (i : S4096x4096.Idx) :
    val_main_v30 (F := Ideal) X W1 b1 W2 b2 i = h2 X W1 b1 W2 b2 (i 0) (i 1) := by
  rw [val_main_v30_apply, val_main_call1_v0_apply, val_main_call1_cst_apply, val_main_v29_apply, val_main_v28_apply,
    val_main_v27_apply, val_main_v26_apply]
  simp only [Ideal.ofBits_def, Ideal.addf_def, Ideal.maximumf_def]
  have eb : idx_main_v27 (idx_main_v28 i) = ix1 (i 1) := funext fun a => by match a with | ⟨0, _⟩ => rfl
  rw [eb]
  have es : (∑ k : Fin 4096, (val_main_v24 (F := Ideal) X W1 b1) (lidx_main_v26 i k) * (val_main_v25 (F := Ideal) W2) (ridx_main_v26 i k))
      = ∑ k : Fin 4096, h1 X W1 b1 (i 0) k * W2 (ix2 (i 1) k) := by
    refine Finset.sum_congr rfl fun k _ => ?_
    rw [h1_eq, val_main_v25_apply]
    have er : idx_main_v25 (ridx_main_v26 i k) = ix2 (i 1) k := funext fun a => by match a with | ⟨0, _⟩ => rfl | ⟨1, _⟩ => rfl
    rw [er]
    rfl
  rw [es]
  rfl

/-- The result stage, at (p, c), is the logit c of row p. -/
theorem logits_eq (X : TX) (W1 : TW) (b1 : Tb) (W2 : TW) (b2 : Tb) (Wh : TWh) (bh : Tbh) (i : S4096x2.Idx) :
    val_main_v35 (F := Ideal) X W1 b1 W2 b2 Wh bh i = logits X W1 b1 W2 b2 Wh bh (i 0) (i 1) := by
  rw [val_main_v35_apply, val_main_v34_apply, val_main_v33_apply, val_main_v32_apply]
  simp only [Ideal.addf_def]
  have eb : idx_main_v33 (idx_main_v34 i) = ix1 (i 1) := funext fun a => by match a with | ⟨0, _⟩ => rfl
  rw [eb]
  have es : (∑ k : Fin 4096, (val_main_v30 (F := Ideal) X W1 b1 W2 b2) (lidx_main_v32 i k) * (val_main_v31 (F := Ideal) Wh) (ridx_main_v32 i k))
      = ∑ k : Fin 4096, h2 X W1 b1 W2 b2 (i 0) k * Wh (ix2 (i 1) k) := by
    refine Finset.sum_congr rfl fun k _ => ?_
    rw [h2_eq, val_main_v31_apply]
    have er : idx_main_v31 (ridx_main_v32 i k) = ix2 (i 1) k := funext fun a => by match a with | ⟨0, _⟩ => rfl | ⟨1, _⟩ => rfl
    rw [er]
    rfl
  rw [es]
  rfl

/-- The last stage of the reference, as a function of the seven argument arrays, is the specification. -/
theorem val_eq (a0 : TX) (a1 : TW) (a2 : Tb) (a3 : TW) (a4 : Tb) (a5 : TWh) (a6 : Tbh) :
    val_main_v35 (F := Ideal) a0 a1 a2 a3 a4 a5 a6 = Cert.RbfMlp.result a0 a1 a2 a3 a4 a5 a6 :=
  funext fun i => logits_eq a0 a1 a2 a3 a4 a5 a6 i

/-- The term every execution of the reference leaves in its result buffer, as a function of the contents of the seven
    argument buffers, is the specification. -/
theorem result_eq (a0 : FVec Ideal S4096x64 .f32) (a1 : FVec Ideal S4096x4096 .f32) (a2 : FVec Ideal S4096 .f32)
    (a3 : FVec Ideal S4096x4096 .f32) (a4 : FVec Ideal S4096 .f32) (a5 : FVec Ideal S2x4096 .f32) (a6 : FVec Ideal S2 .f32) :
    (addf (Host.dotGeneral dot_S4096x4096_S4096x2_S4096x2_1_0_0_1_n_n none (maximumf (addf (Host.dotGeneral dot_S4096x4096_S4096x4096_S4096x4096_1_0_0_1_n_n none (maximumf (addf (Host.dotGeneral dot_S4096x4096_S4096x4096_S4096x4096_1_0_0_1_n_n none (Host.exp (mulf (broadcastInDim S4096x4096 ![] bcast_S_S4096x4096 (constant S_ .f32 0xBF800000#32)) (maximumf (subf (addf (broadcastInDim S4096x4096 ![0, 1] bcast_S4096x1_S4096x4096_0_1 (broadcastInDim S4096x1 ![0] bcast_S4096_S4096x1_0 (Host.reduceAdd (mulf a0 a0) (constant S_ .f32 0x00000000#32) reducesTo_S4096x64_S4096_d1 h_S_))) (broadcastInDim S4096x4096 ![0, 1] bcast_S1x4096_S4096x4096_0_1 (broadcastInDim S1x4096 ![1] bcast_S4096_S1x4096_1 (Host.reduceAdd (mulf a0 a0) (constant S_ .f32 0x00000000#32) reducesTo_S4096x64_S4096_d1 h_S_)))) (mulf (broadcastInDim S4096x4096 ![] bcast_S_S4096x4096 (constant S_ .f32 0x40000000#32)) (Host.dotGeneral dot_S4096x64_S64x4096_S4096x4096_1_0_0_1_n_n none a0 (transpose S64x4096 [1, 0] a0 transposes_S4096x64_S64x4096_1_0)))) (broadcastInDim S4096x4096 ![] bcast_S_S4096x4096 (constant S_ .f32 0x00000000#32))))) (transpose S4096x4096 [1, 0] a1 transposes_S4096x4096_S4096x4096_1_0)) (broadcastInDim S4096x4096 ![0, 1] bcast_S1x4096_S4096x4096_0_1 (broadcastInDim S1x4096 ![1] bcast_S4096_S1x4096_1 a2))) (broadcastInDim S4096x4096 ![] bcast_S_S4096x4096 (constant S_ .f32 0x00000000#32))) (transpose S4096x4096 [1, 0] a3 transposes_S4096x4096_S4096x4096_1_0)) (broadcastInDim S4096x4096 ![0, 1] bcast_S1x4096_S4096x4096_0_1 (broadcastInDim S1x4096 ![1] bcast_S4096_S1x4096_1 a4))) (broadcastInDim S4096x4096 ![] bcast_S_S4096x4096 (constant S_ .f32 0x00000000#32))) (transpose S4096x2 [1, 0] a5 transposes_S2x4096_S4096x2_1_0)) (broadcastInDim S4096x2 ![0, 1] bcast_S1x2_S4096x2_0_1 (broadcastInDim S1x2 ![1] bcast_S2_S1x2_1 a6)) : FVec Ideal S4096x2 .f32)
      = Cert.RbfMlp.result a0 a1 a2 a3 a4 a5 a6 :=
  (val_main_v35_eq (F := Ideal) a0 a1 a2 a3 a4 a5 a6).trans (val_eq a0 a1 a2 a3 a4 a5 a6)

end Cert.RbfMlp.Ref

end
-- ==== Proof.lean ====
/-
  The certificate: the two-kernel program and its jnp reference compute the same logits over the extended
  reals.

  Each kernel's frame is its launch run point by point (the accumulators carried in the invariant); the
  reference's frame is its run; the idealization rewrote nothing, so it preserves the program; and both
  results are the specification's `result` of the argument arrays: the kernels' accumulated block products
  are the whole contractions regrouped into blocks, a law of finite sums that needs no finiteness.
-/
import proofs.«136834_j65481071406559_2_alg».proof.Defs
import proofs.«136834_j65481071406559_2_alg».proof.Proof.Gen.Kernel
import proofs.«136834_j65481071406559_2_alg».proof.Proof.Gen.KernelIdeal
import proofs.«136834_j65481071406559_2_alg».proof.Proof.Gen.ReferenceIdeal
import proofs.«136834_j65481071406559_2_alg».proof.Proof.Gen.ReferenceIdeal.Run
import proofs.«136834_j65481071406559_2_alg».proof.Proof.Gen.ReferenceIdeal.Read
import proofs.«136834_j65481071406559_2_alg».proof.Proof.Gen.Pre_finite_inputs
import proofs.«136834_j65481071406559_2_alg».proof.Proof.Kernel.Frame
import proofs.«136834_j65481071406559_2_alg».proof.Proof.KernelIdeal.Value
import proofs.«136834_j65481071406559_2_alg».proof.Proof.RefIsSpec
import Idealize.ShloMosaic.Adequacy
import Idealize.ShloMosaic.Init

noncomputable section

namespace Cert.Proof

open Idealize.ShloMosaic Idealize.SL.Sem

theorem frame_Kernel : Cert.frame_Kernel (hKernel := Cert.Kernel.Gen.facts) (hPre_finite_inputs := Cert.Pre_finite_inputs.Gen.facts) :=
  fun m ρ _ => Cert.Kernel.Hand.frame (F := Bits) m ρ

theorem frame_KernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.RbfMlp.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))), ?_, ?_⟩
  · exact (θ_run Cert.KernelIdeal.defs _ _).mono
      (fun _ h c => ⟨(h c).1.trans (Cert.KernelIdeal.Hand.value_eq m ρ c), (h c).2⟩) (Cert.KernelIdeal.Hand.run (F := Ideal) m ρ)
  · refine (θ_run Cert.ReferenceIdeal.defs _ _).mono (fun _ h c => ⟨?_, (h c).2⟩) (Cert.ReferenceIdeal.Value.run (F := Ideal) m' ρ')
    obtain ⟨a0, a1, a2, a3, a4, a5, a6⟩ := hagree c
    rw [(h c).1, a0, a1, a2, a3, a4, a5, a6]
    exact Cert.RbfMlp.Ref.result_eq _ _ _ _ _ _ _

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
